-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S2x128x128 .f32) (main_arg6 : FVec F S2x128 .f32) (main_arg7 : FVec F S128x64 .f32) (main_arg8 : FVec F S64 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S2x128x128 .f32 := Host.absf main_arg5
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg6
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S3x128x128 .f32) (main_arg3 : FVec F S3x128x128 .f32) (main_arg4 : FVec F S3x128 .f32) (main_arg5 : FVec F S2x128x128 .f32) (main_arg6 : FVec F S2x128 .f32) (main_arg7 : FVec F S128x64 .f32) (main_arg8 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg3
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S800000x128 : Shape := ⟨2, ![800000, 128]⟩
abbrev S5000x128 : Shape := ⟨2, ![5000, 128]⟩
abbrev S5000x1 : Shape := ⟨2, ![5000, 1]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 97
  | .vmem => 51
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128x128, .f32⟩
  | .hbm, ⟨4, _⟩ => ⟨S3x128, .f32⟩
  | .hbm, ⟨5, _⟩ => ⟨S2x128x128, .f32⟩
  | .hbm, ⟨6, _⟩ => ⟨S2x128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S50000x1, .f32⟩
  | .hbm, ⟨20, _⟩ => ⟨S1x128x128, .f32⟩
  | .hbm, ⟨21, _⟩ => ⟨S128x128, .f32⟩
  | .hbm, ⟨22, _⟩ => ⟨S1x128x128, .f32⟩
  | .hbm, ⟨23, _⟩ => ⟨S128x128, .f32⟩
  | .hbm, ⟨24, _⟩ => ⟨S1x128, .f32⟩
  | .hbm, ⟨25, _⟩ => ⟨S128, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S1x128x128, .f32⟩
  | .hbm, ⟨42, _⟩ => ⟨S128x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S50000x128, .f32⟩
  | .hbm, ⟨47, _⟩ => ⟨S1x128x128, .f32⟩
  | .hbm, ⟨48, _⟩ => ⟨S128x128, .f32⟩
  | .hbm, ⟨49, _⟩ => ⟨S1x128x128, .f32⟩
  | .hbm, ⟨50, _⟩ => ⟨S128x128, .f32⟩
  | .hbm, ⟨51, _⟩ => ⟨S1x128, .f32⟩
  | .hbm, ⟨52, _⟩ => ⟨S128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S1x128, .f32⟩
  | .hbm, ⟨67, _⟩ => ⟨S50000x128, .f32⟩
  | .hbm, ⟨68, _⟩ => ⟨S1x128x128, .f32⟩
  | .hbm, ⟨69, _⟩ => ⟨S128x128, .f32⟩
  | .hbm, ⟨70, _⟩ => ⟨S1x128, .f32⟩
  | .hbm, ⟨71, _⟩ => ⟨S128, .f32⟩
  | .hbm, ⟨72, _⟩ => ⟨S1x128, .f32⟩
  | .hbm, ⟨73, _⟩ => ⟨S50000x128, .f32⟩
  | .hbm, ⟨74, _⟩ => ⟨S1x128x128, .f32⟩
  | .hbm, ⟨75, _⟩ => ⟨S128x128, .f32⟩
  | .hbm, ⟨76, _⟩ => ⟨S1x128x128, .f32⟩
  | .hbm, ⟨77, _⟩ => ⟨S128x128, .f32⟩
  | .hbm, ⟨78, _⟩ => ⟨S1x128, .f32⟩
  | .hbm, ⟨79, _⟩ => ⟨S128, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S1x64, .f32⟩
  | .hbm, ⟨96, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x1, .f32⟩
  | .local _ .vmem, ⟨20, _⟩ => ⟨S5000x1, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x1, .f32⟩
  | .local _ .vmem, ⟨37, _⟩ => ⟨S5000x1, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x64, .f32⟩
  | .local _ .vmem, ⟨48, _⟩ => ⟨S1x64, .f32⟩
  | .local _ .vmem, ⟨49, _⟩ => ⟨S5000x64, .f32⟩
  | .local _ .vmem, ⟨50, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_3 : Ref sig .tc := ⟨.hbm, 53, rfl⟩
abbrev main_v39 : Ref sig .tc := ⟨.hbm, 54, rfl⟩
abbrev main_v40 : Ref sig .tc := ⟨.hbm, 55, rfl⟩
abbrev main_c_4 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_5 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_c_6 : Ref sig .tc := ⟨.hbm, 80, rfl⟩
abbrev main_v63 : Ref sig .tc := ⟨.hbm, 81, rfl⟩
abbrev main_v64 : Ref sig .tc := ⟨.hbm, 82, rfl⟩
abbrev main_c_7 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_8 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg6_0 : Ref sig .tc := ⟨.vmem, 43, rfl⟩
abbrev cc4_stg6_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg2_0 : Ref sig .tc := ⟨.vmem, 48, rfl⟩
abbrev cc5_stg3_0 : Ref sig .tc := ⟨.vmem, 49, rfl⟩
abbrev cc5_stg3_1 : Ref sig .tc := ⟨.vmem, 50, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem4_0 : DmaSem sig := 41
abbrev cc4_sem5_0 : DmaSem sig := 42
abbrev cc4_sem6_0 : DmaSem sig := 43
abbrev cc4_sem6_1 : DmaSem sig := 44
abbrev cc5_sem0_0 : DmaSem sig := 45
abbrev cc5_sem0_1 : DmaSem sig := 46
abbrev cc5_sem1_0 : DmaSem sig := 47
abbrev cc5_sem2_0 : DmaSem sig := 48
abbrev cc5_sem3_0 : DmaSem sig := 49
abbrev cc5_sem3_1 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S50000x128 : S_.BroadcastsInDim S50000x128 (![] : Fin 0 → Fin S50000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S2x128x128_S1x128x128_0_0_0 : S2x128x128.Slices ![0, 0, 0] S1x128x128
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128x128_S1x128x128_1_0_0 : S2x128x128.Slices ![1, 0, 0] S1x128x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x128.size a ≤ S50000x128.size a
  hwx4_6 : ∀ i : grid4.Coords, EltTy.bits .f32 = 32 ∨ (Rect.block (s := S50000x128) S5000x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x64.size a ≤ S128x64.size a
  hwx5_1 : ∀ i : grid5.Coords, EltTy.bits .f32 = 32 ∨ (Rect.block (s := S128x64) S128x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v48) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v50) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v56) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v72) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v8) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v58) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v60) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v73) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v74) S5000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v74) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v76) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩

abbrev nBuf : Space → Nat
  | .hbm => 172
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128x128, .f32⟩
  | 4 => ⟨S3x128, .f32⟩
  | 5 => ⟨S2x128x128, .f32⟩
  | 6 => ⟨S2x128, .f32⟩
  | 7 => ⟨S128x64, .f32⟩
  | 8 => ⟨S64, .f32⟩
  | 9 => ⟨S1x800000, .i32⟩
  | 10 => ⟨S800000, .i32⟩
  | 11 => ⟨S1x800000, .i32⟩
  | 12 => ⟨S800000, .i32⟩
  | 13 => ⟨S1x128x128, .f32⟩
  | 14 => ⟨S128x128, .f32⟩
  | 15 => ⟨S1x128x128, .f32⟩
  | 16 => ⟨S128x128, .f32⟩
  | 17 => ⟨S1x128, .f32⟩
  | 18 => ⟨S128, .f32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S50000x128, .f32⟩
  | 46 => ⟨S50000x128, .f32⟩
  | 47 => ⟨S1x128, .f32⟩
  | 48 => ⟨S50000x128, .f32⟩
  | 49 => ⟨S50000x128, .f32⟩
  | 50 => ⟨S_, .f32⟩
  | 51 => ⟨S50000x128, .f32⟩
  | 52 => ⟨S50000x128, .i1⟩
  | 53 => ⟨S_, .f32⟩
  | 54 => ⟨S50000x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .i1⟩
  | 68 => ⟨S_, .f32⟩
  | 69 => ⟨S50000x128, .f32⟩
  | 70 => ⟨S50000x128, .f32⟩
  | 71 => ⟨S50000x128, .f32⟩
  | 72 => ⟨S1x128x128, .f32⟩
  | 73 => ⟨S128x128, .f32⟩
  | 74 => ⟨S1x128x128, .f32⟩
  | 75 => ⟨S128x128, .f32⟩
  | 76 => ⟨S1x128, .f32⟩
  | 77 => ⟨S128, .f32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x128, .f32⟩
  | 87 => ⟨S_, .f32⟩
  | 88 => ⟨S50000x128, .f32⟩
  | 89 => ⟨S800000x1, .i32⟩
  | 90 => ⟨S50000x128, .f32⟩
  | 91 => ⟨S_, .f32⟩
  | 92 => ⟨S800000, .f32⟩
  | 93 => ⟨S_, .f32⟩
  | 94 => ⟨S50000, .f32⟩
  | 95 => ⟨S800000x1, .i32⟩
  | 96 => ⟨S50000, .f32⟩
  | 97 => ⟨S_, .f32⟩
  | 98 => ⟨S50000, .f32⟩
  | 99 => ⟨S50000, .f32⟩
  | 100 => ⟨S50000x1, .f32⟩
  | 101 => ⟨S50000x128, .f32⟩
  | 102 => ⟨S50000x128, .f32⟩
  | 103 => ⟨S50000x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S_, .f32⟩
  | 110 => ⟨S50000x128, .f32⟩
  | 111 => ⟨S50000x128, .i1⟩
  | 112 => ⟨S_, .f32⟩
  | 113 => ⟨S50000x128, .f32⟩
  | 114 => ⟨S50000x128, .f32⟩
  | 115 => ⟨S50000x128, .f32⟩
  | 116 => ⟨S1x128x128, .f32⟩
  | 117 => ⟨S128x128, .f32⟩
  | 118 => ⟨S50000x128, .f32⟩
  | 119 => ⟨S1x128, .f32⟩
  | 120 => ⟨S128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .i1⟩
  | 127 => ⟨S_, .f32⟩
  | _ => ⟨S50000x128, .f32⟩

abbrev hbmTy0_1 (i : Nat) : BufTy := match i % 128 with
  | 0 => ⟨S50000x128, .f32⟩
  | 1 => ⟨S50000x128, .f32⟩
  | 2 => ⟨S50000x128, .f32⟩
  | 3 => ⟨S1x128x128, .f32⟩
  | 4 => ⟨S128x128, .f32⟩
  | 5 => ⟨S1x128x128, .f32⟩
  | 6 => ⟨S128x128, .f32⟩
  | 7 => ⟨S1x128, .f32⟩
  | 8 => ⟨S128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S_, .f32⟩
  | 19 => ⟨S50000x128, .f32⟩
  | 20 => ⟨S800000x1, .i32⟩
  | 21 => ⟨S50000x128, .f32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .f32⟩
  | 29 => ⟨S50000, .f32⟩
  | 30 => ⟨S50000, .f32⟩
  | 31 => ⟨S50000x1, .f32⟩
  | 32 => ⟨S50000x128, .f32⟩
  | 33 => ⟨S50000x128, .f32⟩
  | 34 => ⟨S50000x128, .f32⟩
  | 35 => ⟨S50000x128, .f32⟩
  | 36 => ⟨S50000x128, .f32⟩
  | 37 => ⟨S1x128, .f32⟩
  | 38 => ⟨S50000x128, .f32⟩
  | 39 => ⟨S50000x128, .f32⟩
  | 40 => ⟨S50000x64, .f32⟩
  | 41 => ⟨S1x64, .f32⟩
  | 42 => ⟨S50000x64, .f32⟩
  | 43 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_6 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_8 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_10 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_11 : Ref sig .tc := ⟨.hbm, 91, rfl⟩
abbrev main_v69 : Ref sig .tc := ⟨.hbm, 92, rfl⟩
abbrev main_cst_12 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_13 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_cst_15 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_16 : Ref sig .tc := ⟨.hbm, 124, rfl⟩
abbrev main_v97 : Ref sig .tc := ⟨.hbm, 125, rfl⟩
abbrev main_v98 : Ref sig .tc := ⟨.hbm, 126, rfl⟩
abbrev main_cst_17 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_c_18 : Ref sig .tc := ⟨.hbm, 137, rfl⟩
abbrev main_v108 : Ref sig .tc := ⟨.hbm, 138, rfl⟩
abbrev main_v109 : Ref sig .tc := ⟨.hbm, 139, rfl⟩
abbrev main_c_19 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_cst_20 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_21 : Ref sig .tc := ⟨.hbm, 150, rfl⟩
abbrev main_v118 : Ref sig .tc := ⟨.hbm, 151, rfl⟩
abbrev main_cst_22 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_cst_23 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x128x128_S1x128x128_0_0_0 : S2x128x128.Slices ![0, 0, 0] S1x128x128
  slices_S2x128_S1x128_0_0 : S2x128.Slices ![0, 0] S1x128
  slices_S3x128x128_S1x128x128_1_0_0 : S3x128x128.Slices ![1, 0, 0] S1x128x128
  slices_S3x128_S1x128_1_0 : S3x128.Slices ![1, 0] S1x128
  slices_S2x128x128_S1x128x128_1_0_0 : S2x128x128.Slices ![1, 0, 0] S1x128x128
  slices_S2x128_S1x128_1_0 : S2x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result named.

  The program is twelve segments: six stretches of host operations, each followed by a pipelined region. The
  contents of every buffer at each segment boundary are a fold from the launch memory: a stretch applies its
  operations, a region leaves its arrays at what its write-backs fold to and every other buffer as it was. Every
  weakly fair execution terminates without a fault, and in the final state every unscoped buffer holds the last
  boundary's contents; kept here are the result buffer (read at that boundary) and the nine arguments (unchanged).
-/
import proofs.«159729_j13743895347603_1_alg».proof.Proof.Gen.KernelIdeal.Frame

set_option maxRecDepth 16384

noncomputable section

namespace Cert.SageNet.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution terminates without a fault; the result buffer ends at the last boundary's contents
    and the arguments end as launched. -/
theorem run_result : θ_run defs (onTc (τ := τ) (main (F := F))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.SageNet.K

end
-- ==== Proof.KernelKeep.lean ====
/-
  Which buffers the host stretches and the regions leave alone.

  A stretch of host operations writes only its own result buffers, and a region writes only its output array, so a
  buffer produced earlier — an argument, the two edge-index vectors, the neighbour counts — still holds at a later
  boundary what it held when it was produced. Each lemma walks one buffer from the boundary where it is read back to
  the launch memory or to the first stretch, one segment at a time.
-/
import proofs.«159729_j13743895347603_1_alg».proof.Proof.Gen.KernelIdeal.Frame
import Idealize.ShloMosaic.PureOps.Ideal
import Idealize.ShloMosaic.Lib.StableHlo.Run

set_option maxRecDepth 16384

noncomputable section

namespace Cert.SageNet.K

open Cert.KernelIdeal Cert.KernelIdeal.Gen
open Idealize.ShloMosaic Idealize.ShloMosaic.TcCoe Idealize.SL.Sem
open Idealize.ShloMosaic.Pipeline (Dat Cfg Window)

/-! ## A stretch does not write these buffers -/

theorem keep0_arg0 (W : Valuation τ sig (Elt Ideal)) :
    StableHlo.after (hostOps0 (F := Ideal)) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg2 (W : Valuation τ sig (Elt Ideal)) :
    StableHlo.after (hostOps0 (F := Ideal)) W (Proc.devRef .tc main_arg2) = W (Proc.devRef .tc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg3 (W : Valuation τ sig (Elt Ideal)) :
    StableHlo.after (hostOps0 (F := Ideal)) W (Proc.devRef .tc main_arg3) = W (Proc.devRef .tc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg4 (W : Valuation τ sig (Elt Ideal)) :
    StableHlo.after (hostOps0 (F := Ideal)) W (Proc.devRef .tc main_arg4) = W (Proc.devRef .tc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg5 (W : Valuation τ sig (Elt Ideal)) :
    StableHlo.after (hostOps0 (F := Ideal)) W (Proc.devRef .tc main_arg5) = W (Proc.devRef .tc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep0_arg6 (W : Valuation τ sig (Elt Ideal)) :
    StableHlo.after (hostOps0 (F := Ideal)) W (Proc.devRef .tc main_arg6) = W (Proc.devRef .tc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg2 (W : Valuation τ sig (Elt Ideal)) :
    StableHlo.after (hostOps1 (F := Ideal)) W (Proc.devRef .tc main_arg2) = W (Proc.devRef .tc main_arg2) :=
  StableHlo.after_of_forall_not_mem (b := Proc.devRef .tc main_arg2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg3 (W : Valuation τ sig (Elt Ideal)) :
    StableHlo.after (hostOps1 (F := Ideal)) W (Proc.devRef .tc main_arg3) = W (Proc.devRef .tc main_arg3) :=
  StableHlo.after_of_forall_not_mem (b := Proc.devRef .tc main_arg3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg4 (W : Valuation τ sig (Elt Ideal)) :
    StableHlo.after (hostOps1 (F := Ideal)) W (Proc.devRef .tc main_arg4) = W (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg5 (W : Valuation τ sig (Elt Ideal)) :
    StableHlo.after (hostOps1 (F := Ideal)) W (Proc.devRef .tc main_arg5) = W (Proc.devRef .tc main_arg5) :=
  StableHlo.after_of_forall_not_mem (b := Proc.devRef .tc main_arg5) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_arg6 (W : Valuation τ sig (Elt Ideal)) :
    StableHlo.after (hostOps1 (F := Ideal)) W (Proc.devRef .tc main_arg6) = W (Proc.devRef .tc main_arg6) :=
  StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v1 (W : Valuation τ sig (Elt Ideal)) :
    StableHlo.after (hostOps1 (F := Ideal)) W (Proc.devRef .tc main_v1) = W (Proc.devRef .tc main_v1) :=
  StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v3 (W : Valuation τ sig (Elt Ideal)) :
    StableHlo.after (hostOps1 (F := Ideal)) W (Proc.devRef .tc main_v3) = W (Proc.devRef .tc main_v3) :=
  StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep1_v8 (W : Valuation τ sig (Elt Ideal)) :
    StableHlo.after (hostOps1 (F := Ideal)) W (Proc.devRef .tc main_v8) = W (Proc.devRef .tc main_v8) :=
  StableHlo.after_of_forall_not_mem (b := Proc.devRef .tc main_v8) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg5 (W : Valuation τ sig (Elt Ideal)) :
    StableHlo.after (hostOps2 (F := Ideal)) W (Proc.devRef .tc main_arg5) = W (Proc.devRef .tc main_arg5) :=
  StableHlo.after_of_forall_not_mem (b := Proc.devRef .tc main_arg5) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_arg6 (W : Valuation τ sig (Elt Ideal)) :
    StableHlo.after (hostOps2 (F := Ideal)) W (Proc.devRef .tc main_arg6) = W (Proc.devRef .tc main_arg6) :=
  StableHlo.after_of_forall_not_mem (b := Proc.devRef .tc main_arg6) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v1 (W : Valuation τ sig (Elt Ideal)) :
    StableHlo.after (hostOps2 (F := Ideal)) W (Proc.devRef .tc main_v1) = W (Proc.devRef .tc main_v1) :=
  StableHlo.after_of_forall_not_mem (b := Proc.devRef .tc main_v1) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v3 (W : Valuation τ sig (Elt Ideal)) :
    StableHlo.after (hostOps2 (F := Ideal)) W (Proc.devRef .tc main_v3) = W (Proc.devRef .tc main_v3) :=
  StableHlo.after_of_forall_not_mem (b := Proc.devRef .tc main_v3) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep2_v8 (W : Valuation τ sig (Elt Ideal)) :
    StableHlo.after (hostOps2 (F := Ideal)) W (Proc.devRef .tc main_v8) = W (Proc.devRef .tc main_v8) :=
  StableHlo.after_of_forall_not_mem (b := Proc.devRef .tc main_v8) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v1 (W : Valuation τ sig (Elt Ideal)) :
    StableHlo.after (hostOps3 (F := Ideal)) W (Proc.devRef .tc main_v1) = W (Proc.devRef .tc main_v1) :=
  StableHlo.after_of_forall_not_mem (b := Proc.devRef .tc main_v1) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v3 (W : Valuation τ sig (Elt Ideal)) :
    StableHlo.after (hostOps3 (F := Ideal)) W (Proc.devRef .tc main_v3) = W (Proc.devRef .tc main_v3) :=
  StableHlo.after_of_forall_not_mem (b := Proc.devRef .tc main_v3) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep3_v8 (W : Valuation τ sig (Elt Ideal)) :
    StableHlo.after (hostOps3 (F := Ideal)) W (Proc.devRef .tc main_v8) = W (Proc.devRef .tc main_v8) :=
  StableHlo.after_of_forall_not_mem (b := Proc.devRef .tc main_v8) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_arg2 (W : Valuation τ sig (Elt Ideal)) :
    StableHlo.after (hostOps4 (F := Ideal)) W (Proc.devRef .tc main_arg2) = W (Proc.devRef .tc main_arg2) :=
  StableHlo.after_of_forall_not_mem (b := Proc.devRef .tc main_arg2) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_arg3 (W : Valuation τ sig (Elt Ideal)) :
    StableHlo.after (hostOps4 (F := Ideal)) W (Proc.devRef .tc main_arg3) = W (Proc.devRef .tc main_arg3) :=
  StableHlo.after_of_forall_not_mem (b := Proc.devRef .tc main_arg3) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_arg4 (W : Valuation τ sig (Elt Ideal)) :
    StableHlo.after (hostOps4 (F := Ideal)) W (Proc.devRef .tc main_arg4) = W (Proc.devRef .tc main_arg4) :=
  StableHlo.after_of_forall_not_mem (b := Proc.devRef .tc main_arg4) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep4_v8 (W : Valuation τ sig (Elt Ideal)) :
    StableHlo.after (hostOps4 (F := Ideal)) W (Proc.devRef .tc main_v8) = W (Proc.devRef .tc main_v8) :=
  StableHlo.after_of_forall_not_mem (b := Proc.devRef .tc main_v8) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg2 (W : Valuation τ sig (Elt Ideal)) :
    StableHlo.after (hostOps5 (F := Ideal)) W (Proc.devRef .tc main_arg2) = W (Proc.devRef .tc main_arg2) :=
  StableHlo.after_of_forall_not_mem (b := Proc.devRef .tc main_arg2) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg3 (W : Valuation τ sig (Elt Ideal)) :
    StableHlo.after (hostOps5 (F := Ideal)) W (Proc.devRef .tc main_arg3) = W (Proc.devRef .tc main_arg3) :=
  StableHlo.after_of_forall_not_mem (b := Proc.devRef .tc main_arg3) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg4 (W : Valuation τ sig (Elt Ideal)) :
    StableHlo.after (hostOps5 (F := Ideal)) W (Proc.devRef .tc main_arg4) = W (Proc.devRef .tc main_arg4) :=
  StableHlo.after_of_forall_not_mem (b := Proc.devRef .tc main_arg4) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem keep5_arg8 (W : Valuation τ sig (Elt Ideal)) :
    StableHlo.after (hostOps5 (F := Ideal)) W (Proc.devRef .tc main_arg8) = W (Proc.devRef .tc main_arg8) :=
  StableHlo.after_of_forall_not_mem (b := Proc.devRef .tc main_arg8) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

variable (m : (ℓ : Loc nD τ sig) → Buf (Elt Ideal) ℓ) (ρ : Dev nD → PrngReg)

/-! ## Buffers read back through the boundaries -/

theorem W1_arg0 (c : Dev nD) : V1 m ρ c main_arg0 = m ((c : Thread nD τ).loc main_arg0) := keep0_arg0 (W0 m ρ c)
theorem W2_arg5 (c : Dev nD) : W2 m ρ c (Proc.devRef .tc main_arg5) = m ((c : Thread nD τ).loc main_arg5) :=
  (W2_of_ne m ρ c main_arg5 (by decide)).trans (keep0_arg5 (W0 m ρ c))
theorem W2_arg6 (c : Dev nD) : W2 m ρ c (Proc.devRef .tc main_arg6) = m ((c : Thread nD τ).loc main_arg6) :=
  (W2_of_ne m ρ c main_arg6 (by decide)).trans (keep0_arg6 (W0 m ρ c))
theorem W4_arg2 (c : Dev nD) : W4 m ρ c (Proc.devRef .tc main_arg2) = m ((c : Thread nD τ).loc main_arg2) :=
  (W4_of_ne m ρ c main_arg2 (by decide)).trans ((keep1_arg2 (W2 m ρ c)).trans ((W2_of_ne m ρ c main_arg2 (by decide)).trans (keep0_arg2 (W0 m ρ c))))
theorem W4_arg3 (c : Dev nD) : W4 m ρ c (Proc.devRef .tc main_arg3) = m ((c : Thread nD τ).loc main_arg3) :=
  (W4_of_ne m ρ c main_arg3 (by decide)).trans ((keep1_arg3 (W2 m ρ c)).trans ((W2_of_ne m ρ c main_arg3 (by decide)).trans (keep0_arg3 (W0 m ρ c))))
theorem W4_arg4 (c : Dev nD) : W4 m ρ c (Proc.devRef .tc main_arg4) = m ((c : Thread nD τ).loc main_arg4) :=
  (W4_of_ne m ρ c main_arg4 (by decide)).trans ((keep1_arg4 (W2 m ρ c)).trans ((W2_of_ne m ρ c main_arg4 (by decide)).trans (keep0_arg4 (W0 m ρ c))))
theorem W4_v1 (c : Dev nD) : W4 m ρ c (Proc.devRef .tc main_v1) = W1 m ρ c (Proc.devRef .tc main_v1) :=
  (W4_of_ne m ρ c main_v1 (by decide)).trans ((keep1_v1 (W2 m ρ c)).trans (W2_of_ne m ρ c main_v1 (by decide)))
theorem W4_v3 (c : Dev nD) : W4 m ρ c (Proc.devRef .tc main_v3) = W1 m ρ c (Proc.devRef .tc main_v3) :=
  (W4_of_ne m ρ c main_v3 (by decide)).trans ((keep1_v3 (W2 m ρ c)).trans (W2_of_ne m ρ c main_v3 (by decide)))
theorem W2_v8 (c : Dev nD) : W2 m ρ c (Proc.devRef .tc main_v8) = V1 m ρ c main_v8 :=
  (W2_arr m ρ c 1).trans (((dat0 (V1 m ρ) c).arrAt_in 1 rfl _).trans (A_eq0 (V1 m ρ) c 1))
theorem W4_v8 (c : Dev nD) : W4 m ρ c (Proc.devRef .tc main_v8) = V1 m ρ c main_v8 :=
  (W4_of_ne m ρ c main_v8 (by decide)).trans ((keep1_v8 (W2 m ρ c)).trans (W2_v8 m ρ c))
theorem W6_arg5 (c : Dev nD) : W6 m ρ c (Proc.devRef .tc main_arg5) = m ((c : Thread nD τ).loc main_arg5) :=
  (W6_of_ne m ρ c main_arg5 (by decide)).trans ((keep2_arg5 (W4 m ρ c)).trans ((W4_of_ne m ρ c main_arg5 (by decide)).trans ((keep1_arg5 (W2 m ρ c)).trans (W2_arg5 m ρ c))))
theorem W6_arg6 (c : Dev nD) : W6 m ρ c (Proc.devRef .tc main_arg6) = m ((c : Thread nD τ).loc main_arg6) :=
  (W6_of_ne m ρ c main_arg6 (by decide)).trans ((keep2_arg6 (W4 m ρ c)).trans ((W4_of_ne m ρ c main_arg6 (by decide)).trans ((keep1_arg6 (W2 m ρ c)).trans (W2_arg6 m ρ c))))
theorem W8_arg2 (c : Dev nD) : W8 m ρ c (Proc.devRef .tc main_arg2) = m ((c : Thread nD τ).loc main_arg2) :=
  (keep4_arg2 (W8 m ρ c)).symm.trans ((W10_of_ne m ρ c main_arg2 (by decide)).symm.trans ((keep5_arg2 (W10 m ρ c)).symm.trans ((W12_of_ne m ρ c main_arg2 (by decide)).symm.trans (W12_main_arg2 m ρ c))))
theorem W8_arg3 (c : Dev nD) : W8 m ρ c (Proc.devRef .tc main_arg3) = m ((c : Thread nD τ).loc main_arg3) :=
  (keep4_arg3 (W8 m ρ c)).symm.trans ((W10_of_ne m ρ c main_arg3 (by decide)).symm.trans ((keep5_arg3 (W10 m ρ c)).symm.trans ((W12_of_ne m ρ c main_arg3 (by decide)).symm.trans (W12_main_arg3 m ρ c))))
theorem W8_arg4 (c : Dev nD) : W8 m ρ c (Proc.devRef .tc main_arg4) = m ((c : Thread nD τ).loc main_arg4) :=
  (keep4_arg4 (W8 m ρ c)).symm.trans ((W10_of_ne m ρ c main_arg4 (by decide)).symm.trans ((keep5_arg4 (W10 m ρ c)).symm.trans ((W12_of_ne m ρ c main_arg4 (by decide)).symm.trans (W12_main_arg4 m ρ c))))
theorem W8_v1 (c : Dev nD) : W8 m ρ c (Proc.devRef .tc main_v1) = W1 m ρ c (Proc.devRef .tc main_v1) :=
  (W8_of_ne m ρ c main_v1 (by decide)).trans ((keep3_v1 (W6 m ρ c)).trans ((W6_of_ne m ρ c main_v1 (by decide)).trans ((keep2_v1 (W4 m ρ c)).trans (W4_v1 m ρ c))))
theorem W8_v3 (c : Dev nD) : W8 m ρ c (Proc.devRef .tc main_v3) = W1 m ρ c (Proc.devRef .tc main_v3) :=
  (W8_of_ne m ρ c main_v3 (by decide)).trans ((keep3_v3 (W6 m ρ c)).trans ((W6_of_ne m ρ c main_v3 (by decide)).trans ((keep2_v3 (W4 m ρ c)).trans (W4_v3 m ρ c))))
theorem W6_v8 (c : Dev nD) : W6 m ρ c (Proc.devRef .tc main_v8) = V1 m ρ c main_v8 :=
  (W6_arr m ρ c 1).trans (((dat2 (V5 m ρ) c).arrAt_in 1 rfl _).trans ((A_eq2 (V5 m ρ) c 1).trans ((keep2_v8 (W4 m ρ c)).trans (W4_v8 m ρ c))))
theorem W8_v8 (c : Dev nD) : W8 m ρ c (Proc.devRef .tc main_v8) = V1 m ρ c main_v8 :=
  (W8_of_ne m ρ c main_v8 (by decide)).trans ((keep3_v8 (W6 m ρ c)).trans (W6_v8 m ρ c))
theorem W10_arg8 (c : Dev nD) : W10 m ρ c (Proc.devRef .tc main_arg8) = m ((c : Thread nD τ).loc main_arg8) :=
  (keep5_arg8 (W10 m ρ c)).symm.trans ((W12_of_ne m ρ c main_arg8 (by decide)).symm.trans (W12_main_arg8 m ρ c))
theorem V11_arg7 (c : Dev nD) : V11 m ρ c main_arg7 = m ((c : Thread nD τ).loc main_arg7) :=
  ((W12_arr m ρ c 1).trans (((dat5 (V11 m ρ) c).arrAt_in 1 rfl _).trans (A_eq5 (V11 m ρ) c 1))).symm.trans (W12_main_arg7 m ρ c)

end Cert.SageNet.K

end
-- ==== Proof.Spec.lean ====
/-
  The two layers of the network, as functions of whole arrays, index by index, on the extended reals.

  A mean-aggregation graph layer: row p of the summed neighbour features is divided by max(count p, 1), contracted
  with the neighbour weights, added to the node's own row contracted with the root weights, and the bias of
  column q is added last:  (∑ₖ agg[p,k] / max(cnt[p], 1) · wl[k,q]  +  ∑ₖ x[p,k] · wr[k,q])  +  b[q].
  A dense layer:  ∑ₖ x[p,k] · w[k,q]  +  b[q].
  Either may be followed by the leaky rectifier  v ↦ v if v > 0, else s · v,  with s the f32 word 0x3DCCCCCD.
  The count is kept as a column [N,1] and the bias as a row [1,E], the layouts in which the layers receive them.
-/
import Idealize.ShloMosaic.PureOps.Ideal
import Idealize.ShloMosaic.Lib.ValueIdx

noncomputable section

open scoped BigOperators

namespace Cert.SageNet

open Idealize.ShloMosaic Idealize.ShloMosaic.ValueIdx

/-- The leaky rectifier when `act` holds, the identity otherwise. -/
def rect (act : Bool) (v : EReal) : EReal :=
  if act then
    Scalar.select (FloatOps.cmpf (F := Ideal) (φ := .f32) .ogt v (Ideal.ofBits .f32 0x00000000#32)) v
      (Ideal.ofBits .f32 0x3DCCCCCD#32 * v)
  else v

theorem rect_true (v : EReal) : rect true v =
    Scalar.select (FloatOps.cmpf (F := Ideal) (φ := .f32) .ogt v (Ideal.ofBits .f32 0x00000000#32)) v
      (Ideal.ofBits .f32 0x3DCCCCCD#32 * v) := rfl

theorem rect_false (v : EReal) : rect false v = v := rfl

variable {N D E : Nat}

/-- The graph layer at row `p`, column `q`. -/
def sageAt (act : Bool) (agg : (⟨2, ![N, D]⟩ : Shape).Idx → EReal) (cnt : (⟨2, ![N, 1]⟩ : Shape).Idx → EReal)
    (x : (⟨2, ![N, D]⟩ : Shape).Idx → EReal) (wl wr : (⟨2, ![D, E]⟩ : Shape).Idx → EReal)
    (b : (⟨2, ![1, E]⟩ : Shape).Idx → EReal) (p : Fin N) (q : Fin E) : EReal :=
  rect act (((∑ k : Fin D, Ideal.div (agg (ix2 p k)) (max (cnt (ix2 p 0)) (Ideal.ofBits .f32 0x3F800000#32)) * wl (ix2 k q))
    + (∑ k : Fin D, x (ix2 p k) * wr (ix2 k q))) + b (ix2 0 q))

/-- The graph layer as a whole array. -/
def sageVal (act : Bool) (agg : (⟨2, ![N, D]⟩ : Shape).Idx → EReal) (cnt : (⟨2, ![N, 1]⟩ : Shape).Idx → EReal)
    (x : (⟨2, ![N, D]⟩ : Shape).Idx → EReal) (wl wr : (⟨2, ![D, E]⟩ : Shape).Idx → EReal)
    (b : (⟨2, ![1, E]⟩ : Shape).Idx → EReal) : (⟨2, ![N, E]⟩ : Shape).Idx → EReal :=
  fun i => sageAt act agg cnt x wl wr b (i 0) (i 1)

/-- The dense layer at row `p`, column `q`. -/
def linAt (act : Bool) (x : (⟨2, ![N, D]⟩ : Shape).Idx → EReal) (w : (⟨2, ![D, E]⟩ : Shape).Idx → EReal)
    (b : (⟨2, ![1, E]⟩ : Shape).Idx → EReal) (p : Fin N) (q : Fin E) : EReal :=
  rect act ((∑ k : Fin D, x (ix2 p k) * w (ix2 k q)) + b (ix2 0 q))

/-- The dense layer as a whole array. -/
def linVal (act : Bool) (x : (⟨2, ![N, D]⟩ : Shape).Idx → EReal) (w : (⟨2, ![D, E]⟩ : Shape).Idx → EReal)
    (b : (⟨2, ![1, E]⟩ : Shape).Idx → EReal) : (⟨2, ![N, E]⟩ : Shape).Idx → EReal :=
  fun i => linAt act x w b (i 0) (i 1)

theorem sageVal_ix2 (act : Bool) (agg : (⟨2, ![N, D]⟩ : Shape).Idx → EReal) (cnt : (⟨2, ![N, 1]⟩ : Shape).Idx → EReal)
    (x : (⟨2, ![N, D]⟩ : Shape).Idx → EReal) (wl wr : (⟨2, ![D, E]⟩ : Shape).Idx → EReal)
    (b : (⟨2, ![1, E]⟩ : Shape).Idx → EReal) (p : Fin N) (q : Fin E) :
    sageVal act agg cnt x wl wr b (ix2 p q) = sageAt act agg cnt x wl wr b p q := rfl

theorem linVal_ix2 (act : Bool) (x : (⟨2, ![N, D]⟩ : Shape).Idx → EReal) (w : (⟨2, ![D, E]⟩ : Shape).Idx → EReal)
    (b : (⟨2, ![1, E]⟩ : Shape).Idx → EReal) (p : Fin N) (q : Fin E) :
    linVal act x w b (ix2 p q) = linAt act x w b p q := rfl

/-- The whole network: three rounds of (graph layer, dense layer), rectified except in the last round, where
    `aggr h` is the array of summed neighbour rows of the node features `h` and `cnt` the column of neighbour counts. -/
def netVal {H : Nat} (aggr : ((⟨2, ![N, D]⟩ : Shape).Idx → EReal) → (⟨2, ![N, D]⟩ : Shape).Idx → EReal)
    (cnt : (⟨2, ![N, 1]⟩ : Shape).Idx → EReal) (x : (⟨2, ![N, D]⟩ : Shape).Idx → EReal)
    (wl0 wr0 : (⟨2, ![D, D]⟩ : Shape).Idx → EReal) (b0 : (⟨2, ![1, D]⟩ : Shape).Idx → EReal)
    (w0 : (⟨2, ![D, D]⟩ : Shape).Idx → EReal) (c0 : (⟨2, ![1, D]⟩ : Shape).Idx → EReal)
    (wl1 wr1 : (⟨2, ![D, D]⟩ : Shape).Idx → EReal) (b1 : (⟨2, ![1, D]⟩ : Shape).Idx → EReal)
    (w1 : (⟨2, ![D, D]⟩ : Shape).Idx → EReal) (c1 : (⟨2, ![1, D]⟩ : Shape).Idx → EReal)
    (wl2 wr2 : (⟨2, ![D, D]⟩ : Shape).Idx → EReal) (b2 : (⟨2, ![1, D]⟩ : Shape).Idx → EReal)
    (wo : (⟨2, ![D, H]⟩ : Shape).Idx → EReal) (bo : (⟨2, ![1, H]⟩ : Shape).Idx → EReal) :
    (⟨2, ![N, H]⟩ : Shape).Idx → EReal :=
  linVal false
    (sageVal false
      (aggr (linVal true (sageVal true (aggr (linVal true (sageVal true (aggr x) cnt x wl0 wr0 b0) w0 c0)) cnt
        (linVal true (sageVal true (aggr x) cnt x wl0 wr0 b0) w0 c0) wl1 wr1 b1) w1 c1))
      cnt
      (linVal true (sageVal true (aggr (linVal true (sageVal true (aggr x) cnt x wl0 wr0 b0) w0 c0)) cnt
        (linVal true (sageVal true (aggr x) cnt x wl0 wr0 b0) w0 c0) wl1 wr1 b1) w1 c1)
      wl2 wr2 b2)
    wo bo

end Cert.SageNet

end
-- ==== Proof.LibPlainMatmul.lean ====
/-
  THE PLAIN MATRIX PRODUCT, READ AT AN INDEX.

  A contraction of `l : [A, K]` with `r : [K, B]` over the second axis of the left operand and the first of the right
  (no batch axis) — a `tpu.matmul` or a `stablehlo.dot_general` with those dimension numbers — sums over the dot's own
  contraction index. Re-indexed by the contracted coordinate, element `(p, q)` is `∑ k, l[p, k] · r[k, q]`.

  Proved here for every `A`, `K`, `B` and ANY dimension-number record with those fields:
  * `contraction_apply`: the sum over the record's contraction index is the sum over `k : Fin K`;
  * `matmul_zero_apply` / `dotGeneral_plain_apply`: a `tpu.matmul` from the zero accumulator and the host's `dot_general`
    at `(p, q)`, at the ideal values.
-/
import Idealize.ShloMosaic.PureOps.Ideal
import Idealize.ShloMosaic.PureOps.Ideal.Laws
import Idealize.ShloMosaic.Lib.ValueIdx

noncomputable section

open scoped BigOperators

namespace Cert.Lib.PlainMatmul

open Idealize.ShloMosaic Idealize.ShloMosaic.ValueIdx

variable {A K B : Nat}

/-- The plain product's dimension numbers as a record literal (its conditions `wf` arbitrary). -/
abbrev plainDot (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- On the left operand's row axis the dot's left index is the result's row. -/
theorem plainDot_lhs_zero (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).lhsIdx j c 0).val = (j 0).val := by
  unfold DotDims.lhsIdx
  rw [dif_neg (show ¬(0 : Fin 2) ∈ (plainDot A K B wf).lhsBatch from List.not_mem_nil),
    dif_pos (show (0 : Fin 2) ∈ (plainDot A K B wf).lhsNonContracting from List.mem_singleton.mpr rfl)]
  rfl

/-- On the right operand's column axis the dot's right index is the result's column. -/
theorem plainDot_rhs_one (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).rhsIdx j c 1).val = (j 1).val := by
  unfold DotDims.rhsIdx
  rw [dif_neg (show ¬(1 : Fin 2) ∈ (plainDot A K B wf).rhsBatch from List.not_mem_nil),
    dif_pos (show (1 : Fin 2) ∈ (plainDot A K B wf).rhsNonContracting from List.mem_singleton.mpr rfl)]
  rfl

/-- The contraction of the record literal at `(p, q)`, re-indexed by the contracted coordinate. -/
theorem plainDot_contraction (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (p : Fin A) (q : Fin B) :
    ∑ k : (plainDot A K B wf).contr.Idx, l ((plainDot A K B wf).lhsIdx (ix2 p q) k) * r ((plainDot A K B wf).rhsIdx (ix2 p q) k)
      = ∑ k : Fin K, l (ix2 p k) * r (ix2 k q) := by
  rw [← Equiv.sum_comp (contrEquiv1 (plainDot A K B wf) K rfl rfl).symm]
  refine Finset.sum_congr rfl fun k _ => ?_
  have hk := contrEquiv1_symm_val (plainDot A K B wf) K rfl rfl k
  have el : (plainDot A K B wf).lhsIdx (ix2 p q) ((contrEquiv1 (plainDot A K B wf) K rfl rfl).symm k) = ix2 p k :=
    funext fun a => Fin.ext (by
      match a with
      | ⟨0, _⟩ => exact plainDot_lhs_zero wf _ _
      | ⟨1, _⟩ => exact ((plainDot A K B wf).lhsIdx_val_of_single rfl (ix2 p q) _).trans hk)
  have er : (plainDot A K B wf).rhsIdx (ix2 p q) ((contrEquiv1 (plainDot A K B wf) K rfl rfl).symm k) = ix2 k q :=
    funext fun a => Fin.ext (by
      match a with
      | ⟨0, _⟩ => exact ((plainDot A K B wf).rhsIdx_val_of_single rfl (ix2 p q) _).trans hk
      | ⟨1, _⟩ => exact plainDot_rhs_one wf _ _)
  rw [el, er]

/-- THE CONTRACTION AT `(p, q)`, for any record with the plain product's fields: `∑ k, l[p, k] · r[k, q]`. -/
theorem contraction_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  exact plainDot_contraction wf l r p q

/-- A `tpu.matmul` from the zero accumulator at `(p, q)`, at the ideal values. -/
theorem matmul_zero_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ .f32) (r : FVec Ideal ⟨2, ![K, B]⟩ .f32) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- The host's `dot_general` at `(p, q)`, at the ideal values. -/
theorem dotGeneral_plain_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![A, K]⟩ .f32) (r : FVec Ideal ⟨2, ![K, B]⟩ .f32) (p : Fin A) (q : Fin B) :
    FloatOps.dotGeneral d prec sched l r (ix2 p q) = ∑ k : Fin K, l (ix2 p k) * r (ix2 k q) :=
  (Ideal.dotGeneral_apply d prec sched l r (ix2 p q)).trans (contraction_apply d h1 h2 h3 h4 h5 h6 l r p q)

end Cert.Lib.PlainMatmul

end
-- ==== Proof.LibColumnForms.lean ====
/-
  COLUMN AND ROW FORMS READ AT AN INDEX.

  The small layout steps between a vector and a matrix with a unit axis, for every extent and element type:
  * `broadcastTo_col_apply`: a column `[a, 1]` broadcast along the lanes to `[a, b]` reads, at `(p, q)`, the column at `(p, 0)`;
  * `broadcastTo_row_apply`: a row `[1, b]` broadcast along the rows to `[a, b]` reads, at `(p, q)`, the row at `(0, q)`;
  * `shapeCast_col_apply`: a vector `[a]` reshaped to a column `[a, 1]` reads, at `(p, 0)`, the vector at `p`;
  * `shapeCast_row_apply`: a vector `[b]` reshaped to a row `[1, b]` reads, at `(0, q)`, the vector at `q`.
-/
import Idealize.ShloMosaic.Lib.Pipeline.Value
import Idealize.ShloMosaic.Lib.ValueIdx

noncomputable section

namespace Cert.Lib.ColumnForms

open Idealize.ShloMosaic Idealize.ShloMosaic.ValueIdx

variable {α : Type} {a b : Nat}

/-- A column broadcast along the lanes. -/
theorem broadcastTo_col_apply (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) :=
  broadcastTo_apply x h (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A row broadcast along the rows. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A vector reshaped to a column. -/
theorem shapeCast_col_apply (v : (⟨1, ![a]⟩ : Shape).Idx → α)
    (h : (⟨1, ![a]⟩ : Shape).ShapeCasts ⟨2, ![a, 1]⟩) (p : Fin a) :
    shapeCast ⟨2, ![a, 1]⟩ v h (ix2 p 0) = v (ix1 p) :=
  shapeCast_apply v h (ix2 p 0) (ix1 p) (by
    rw [Shape.rowMajor_val_one, Shape.rowMajor_val_two]
    show p.val = p.val * 1 + 0
    omega)

/-- A vector reshaped to a row. -/
theorem shapeCast_row_apply (v : (⟨1, ![b]⟩ : Shape).Idx → α)
    (h : (⟨1, ![b]⟩ : Shape).ShapeCasts ⟨2, ![1, b]⟩) (q : Fin b) :
    shapeCast ⟨2, ![1, b]⟩ v h (ix2 0 q) = v (ix1 q) :=
  shapeCast_apply v h (ix2 0 q) (ix1 q) (by
    rw [Shape.rowMajor_val_one, Shape.rowMajor_val_two]
    show q.val = 0 * b + q.val
    omega)

end Cert.Lib.ColumnForms

end
-- ==== Proof.BodyForms.lean ====
/-
  The two kernel bodies read at an index, on the extended reals, for any block extents.

  A graph-layer body receives a block of A rows of the summed neighbour features, the matching A counts as a column,
  the same A rows of the node features, the two weight matrices and the bias row. It divides each row by
  max(count, 1), contracts it with the neighbour weights on the matrix unit from a zero accumulator, adds the node
  rows contracted with the root weights, then the bias row broadcast down the block. Changes of float format are
  the identity here, a contraction from the zero accumulator is the plain sum over the shared axis, a column
  broadcast reads the column at the row, a row broadcast reads the row at the column. So entry (r, q) of the result
  is the layer of Spec.lean at row r and column q of the BLOCK arrays. A dense-layer body is the same with one
  contraction. Either body may end with the leaky rectifier.
-/
import Idealize.ShloMosaic.PureOps.Ideal
import Idealize.ShloMosaic.PureOps.Ideal.Laws
import Idealize.ShloMosaic.Lib.ValueIdx
import Idealize.ShloMosaic.Lib.Pipeline.Value
import proofs.«159729_j13743895347603_1_alg».proof.Proof.Spec
import proofs.«159729_j13743895347603_1_alg».proof.Proof.LibPlainMatmul
import proofs.«159729_j13743895347603_1_alg».proof.Proof.LibColumnForms

noncomputable section

open scoped BigOperators

namespace Cert.SageNet

open Idealize.ShloMosaic Idealize.ShloMosaic.ValueIdx

variable {A D E : Nat}

/-- The matrix unit's contraction of [A,D] with [D,E] from the zero accumulator, operands in any float formats, at
    (p, q): the sum over the shared axis. -/
theorem matmul_at {φ₁ φ₂ : FTy} (d : DotDims ⟨2, ![A, D]⟩ ⟨2, ![D, E]⟩ ⟨2, ![A, E]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, D]⟩ φ₁) (r : FVec Ideal ⟨2, ![D, E]⟩ φ₂) (p : Fin A) (q : Fin E) :
    matmul d prec l r (constant (F := Ideal) ⟨2, ![A, E]⟩ .f32 0x00000000#32) (ix2 p q)
      = ∑ k : Fin D, l (ix2 p k) * r (ix2 k q) :=
  (Ideal.matmul_constant_zero_apply d prec l r (ix2 p q)).trans
    (Cert.Lib.PlainMatmul.contraction_apply d h1 h2 h3 h4 h5 h6 l r p q)

/-- The graph-layer body before the rectifier. -/
def sageBodySum (d : DotDims ⟨2, ![A, D]⟩ ⟨2, ![D, E]⟩ ⟨2, ![A, E]⟩)
    (hcb : (⟨2, ![A, 1]⟩ : Shape).Broadcasts ⟨2, ![A, D]⟩) (hrb : (⟨2, ![1, E]⟩ : Shape).Broadcasts ⟨2, ![A, E]⟩)
    (hlt : FTy.bf16.bits < FTy.f32.bits)
    (cnt : FVec Ideal ⟨2, ![A, 1]⟩ .f32) (agg x : FVec Ideal ⟨2, ![A, D]⟩ .f32) (wl wr : FVec Ideal ⟨2, ![D, E]⟩ .f32)
    (b : FVec Ideal ⟨2, ![1, E]⟩ .f32) : FVec Ideal ⟨2, ![A, E]⟩ .f32 :=
  addf (addf
      (matmul d none
        (truncf .bf16 (divf agg (broadcastTo ⟨2, ![A, D]⟩
          (maximumf cnt (broadcast ⟨2, ![A, 1]⟩ (Scalar.ofBits (F := Ideal) .f32 0x3F800000#32))) hcb)) hlt)
        (truncf .bf16 wl hlt) (constant ⟨2, ![A, E]⟩ .f32 0x00000000#32))
      (matmul d none (truncf .bf16 x hlt) (truncf .bf16 wr hlt) (constant ⟨2, ![A, E]⟩ .f32 0x00000000#32)))
    (broadcastTo ⟨2, ![A, E]⟩ b hrb)

theorem sageBodySum_at (d : DotDims ⟨2, ![A, D]⟩ ⟨2, ![D, E]⟩ ⟨2, ![A, E]⟩)
    (h1 : d.lhsContracting = [1]) (h2 : d.rhsContracting = [0]) (h3 : d.lhsNonContracting = [0])
    (h4 : d.rhsNonContracting = [1]) (h5 : d.lhsBatch = []) (h6 : d.rhsBatch = [])
    (hcb : (⟨2, ![A, 1]⟩ : Shape).Broadcasts ⟨2, ![A, D]⟩) (hrb : (⟨2, ![1, E]⟩ : Shape).Broadcasts ⟨2, ![A, E]⟩)
    (hlt : FTy.bf16.bits < FTy.f32.bits)
    (cnt : FVec Ideal ⟨2, ![A, 1]⟩ .f32) (agg x : FVec Ideal ⟨2, ![A, D]⟩ .f32) (wl wr : FVec Ideal ⟨2, ![D, E]⟩ .f32)
    (b : FVec Ideal ⟨2, ![1, E]⟩ .f32) (r : Fin A) (q : Fin E) :
    sageBodySum d hcb hrb hlt cnt agg x wl wr b (ix2 r q) = sageAt false agg cnt x wl wr b r q := by
  show (matmul d none _ _ _ (ix2 r q) + matmul d none _ _ _ (ix2 r q)) + broadcastTo _ b hrb (ix2 r q) = _
  rw [matmul_at d h1 h2 h3 h4 h5 h6, matmul_at d h1 h2 h3 h4 h5 h6, Cert.Lib.ColumnForms.broadcastTo_row_apply]
  show _ = ((∑ k : Fin D, Ideal.div (agg (ix2 r k)) (max (cnt (ix2 r 0)) (Ideal.ofBits .f32 0x3F800000#32)) * wl (ix2 k q))
    + (∑ k : Fin D, x (ix2 r k) * wr (ix2 k q))) + b (ix2 0 q)
  refine congrArg₂ (· + ·) (congrArg₂ (· + ·) (Finset.sum_congr rfl fun k _ => ?_) rfl) rfl
  show Ideal.div (agg (ix2 r k)) (broadcastTo ⟨2, ![A, D]⟩ (maximumf cnt _) hcb (ix2 r k)) * wl (ix2 k q) = _
  rw [Cert.Lib.ColumnForms.broadcastTo_col_apply]
  rfl

/-- The graph-layer body with the rectifier, at (r, q). -/
theorem sageBody_rect_at (d : DotDims ⟨2, ![A, D]⟩ ⟨2, ![D, E]⟩ ⟨2, ![A, E]⟩)
    (h1 : d.lhsContracting = [1]) (h2 : d.rhsContracting = [0]) (h3 : d.lhsNonContracting = [0])
    (h4 : d.rhsNonContracting = [1]) (h5 : d.lhsBatch = []) (h6 : d.rhsBatch = [])
    (hcb : (⟨2, ![A, 1]⟩ : Shape).Broadcasts ⟨2, ![A, D]⟩) (hrb : (⟨2, ![1, E]⟩ : Shape).Broadcasts ⟨2, ![A, E]⟩)
    (hlt : FTy.bf16.bits < FTy.f32.bits)
    (cnt : FVec Ideal ⟨2, ![A, 1]⟩ .f32) (agg x : FVec Ideal ⟨2, ![A, D]⟩ .f32) (wl wr : FVec Ideal ⟨2, ![D, E]⟩ .f32)
    (b : FVec Ideal ⟨2, ![1, E]⟩ .f32) (r : Fin A) (q : Fin E) :
    select (cmpf .ogt (sageBodySum d hcb hrb hlt cnt agg x wl wr b)
        (broadcast ⟨2, ![A, E]⟩ (Scalar.ofBits (F := Ideal) .f32 0x00000000#32)))
      (sageBodySum d hcb hrb hlt cnt agg x wl wr b)
      (mulf (broadcast ⟨2, ![A, E]⟩ (Scalar.ofBits (F := Ideal) .f32 0x3DCCCCCD#32)) (sageBodySum d hcb hrb hlt cnt agg x wl wr b))
      (ix2 r q) = sageAt true agg cnt x wl wr b r q := by
  show Scalar.select (FloatOps.cmpf .ogt (sageBodySum d hcb hrb hlt cnt agg x wl wr b (ix2 r q)) _)
      (sageBodySum d hcb hrb hlt cnt agg x wl wr b (ix2 r q)) (_ * sageBodySum d hcb hrb hlt cnt agg x wl wr b (ix2 r q)) = _
  rw [sageBodySum_at d h1 h2 h3 h4 h5 h6]
  rfl

/-- The dense-layer body before the rectifier. -/
def linBodySum (d : DotDims ⟨2, ![A, D]⟩ ⟨2, ![D, E]⟩ ⟨2, ![A, E]⟩)
    (hrb : (⟨2, ![1, E]⟩ : Shape).Broadcasts ⟨2, ![A, E]⟩) (hlt : FTy.bf16.bits < FTy.f32.bits)
    (x : FVec Ideal ⟨2, ![A, D]⟩ .f32) (w : FVec Ideal ⟨2, ![D, E]⟩ .f32) (b : FVec Ideal ⟨2, ![1, E]⟩ .f32) :
    FVec Ideal ⟨2, ![A, E]⟩ .f32 :=
  addf (matmul d none (truncf .bf16 x hlt) (truncf .bf16 w hlt) (constant ⟨2, ![A, E]⟩ .f32 0x00000000#32))
    (broadcastTo ⟨2, ![A, E]⟩ b hrb)

theorem linBodySum_at (d : DotDims ⟨2, ![A, D]⟩ ⟨2, ![D, E]⟩ ⟨2, ![A, E]⟩)
    (h1 : d.lhsContracting = [1]) (h2 : d.rhsContracting = [0]) (h3 : d.lhsNonContracting = [0])
    (h4 : d.rhsNonContracting = [1]) (h5 : d.lhsBatch = []) (h6 : d.rhsBatch = [])
    (hrb : (⟨2, ![1, E]⟩ : Shape).Broadcasts ⟨2, ![A, E]⟩) (hlt : FTy.bf16.bits < FTy.f32.bits)
    (x : FVec Ideal ⟨2, ![A, D]⟩ .f32) (w : FVec Ideal ⟨2, ![D, E]⟩ .f32) (b : FVec Ideal ⟨2, ![1, E]⟩ .f32)
    (r : Fin A) (q : Fin E) :
    linBodySum d hrb hlt x w b (ix2 r q) = linAt false x w b r q := by
  show matmul d none _ _ _ (ix2 r q) + broadcastTo _ b hrb (ix2 r q) = _
  rw [matmul_at d h1 h2 h3 h4 h5 h6, Cert.Lib.ColumnForms.broadcastTo_row_apply]
  rfl

/-- The dense-layer body with the rectifier, at (r, q). -/
theorem linBody_rect_at (d : DotDims ⟨2, ![A, D]⟩ ⟨2, ![D, E]⟩ ⟨2, ![A, E]⟩)
    (h1 : d.lhsContracting = [1]) (h2 : d.rhsContracting = [0]) (h3 : d.lhsNonContracting = [0])
    (h4 : d.rhsNonContracting = [1]) (h5 : d.lhsBatch = []) (h6 : d.rhsBatch = [])
    (hrb : (⟨2, ![1, E]⟩ : Shape).Broadcasts ⟨2, ![A, E]⟩) (hlt : FTy.bf16.bits < FTy.f32.bits)
    (x : FVec Ideal ⟨2, ![A, D]⟩ .f32) (w : FVec Ideal ⟨2, ![D, E]⟩ .f32) (b : FVec Ideal ⟨2, ![1, E]⟩ .f32)
    (r : Fin A) (q : Fin E) :
    select (cmpf .ogt (linBodySum d hrb hlt x w b) (broadcast ⟨2, ![A, E]⟩ (Scalar.ofBits (F := Ideal) .f32 0x00000000#32)))
      (linBodySum d hrb hlt x w b)
      (mulf (broadcast ⟨2, ![A, E]⟩ (Scalar.ofBits (F := Ideal) .f32 0x3DCCCCCD#32)) (linBodySum d hrb hlt x w b))
      (ix2 r q) = linAt true x w b r q := by
  show Scalar.select (FloatOps.cmpf .ogt (linBodySum d hrb hlt x w b (ix2 r q)) _)
      (linBodySum d hrb hlt x w b (ix2 r q)) (_ * linBodySum d hrb hlt x w b (ix2 r q)) = _
  rw [linBodySum_at d h1 h2 h3 h4 h5 h6]
  rfl

/-- The graph layer depends on its arrays only through row `p` of the features and counts, column `q` of the
    weights and entry `q` of the bias: two sets of arrays that agree there give the same value. (How a block of
    rows, read at a row inside the block, is the whole array read at the row it came from.) -/
theorem sageAt_congr (act : Bool) {A N D E E' : Nat}
    (aggB : (⟨2, ![A, D]⟩ : Shape).Idx → EReal) (cntB : (⟨2, ![A, 1]⟩ : Shape).Idx → EReal)
    (xB : (⟨2, ![A, D]⟩ : Shape).Idx → EReal) (wlB wrB : (⟨2, ![D, E]⟩ : Shape).Idx → EReal)
    (bB : (⟨2, ![1, E]⟩ : Shape).Idx → EReal)
    (agg : (⟨2, ![N, D]⟩ : Shape).Idx → EReal) (cnt : (⟨2, ![N, 1]⟩ : Shape).Idx → EReal)
    (x : (⟨2, ![N, D]⟩ : Shape).Idx → EReal) (wl wr : (⟨2, ![D, E']⟩ : Shape).Idx → EReal)
    (b : (⟨2, ![1, E']⟩ : Shape).Idx → EReal) (r : Fin A) (q : Fin E) (P : Fin N) (Q : Fin E')
    (h0 : ∀ k : Fin D, aggB (ix2 r k) = agg (ix2 P k)) (h1 : cntB (ix2 r 0) = cnt (ix2 P 0))
    (h2 : ∀ k : Fin D, xB (ix2 r k) = x (ix2 P k)) (h3 : ∀ k : Fin D, wlB (ix2 k q) = wl (ix2 k Q))
    (h4 : ∀ k : Fin D, wrB (ix2 k q) = wr (ix2 k Q)) (h5 : bB (ix2 0 q) = b (ix2 0 Q)) :
    sageAt act aggB cntB xB wlB wrB bB r q = sageAt act agg cnt x wl wr b P Q := by
  unfold sageAt
  simp only [h0, h1, h2, h3, h4, h5]

/-- The same for the dense layer. -/
theorem linAt_congr (act : Bool) {A N D E E' : Nat}
    (xB : (⟨2, ![A, D]⟩ : Shape).Idx → EReal) (wB : (⟨2, ![D, E]⟩ : Shape).Idx → EReal)
    (bB : (⟨2, ![1, E]⟩ : Shape).Idx → EReal)
    (x : (⟨2, ![N, D]⟩ : Shape).Idx → EReal) (w : (⟨2, ![D, E']⟩ : Shape).Idx → EReal)
    (b : (⟨2, ![1, E']⟩ : Shape).Idx → EReal) (r : Fin A) (q : Fin E) (P : Fin N) (Q : Fin E')
    (h0 : ∀ k : Fin D, xB (ix2 r k) = x (ix2 P k)) (h1 : ∀ k : Fin D, wB (ix2 k q) = w (ix2 k Q))
    (h2 : bB (ix2 0 q) = b (ix2 0 Q)) :
    linAt act xB wB bB r q = linAt act x w b P Q := by
  unfold linAt
  simp only [h0, h1, h2]

end Cert.SageNet

end
-- ==== Proof.Region0.lean ====
/-
  Region 0 of the idealized kernel, from blocks to the array.

  The region walks ten grid points; point t stages rows 5000·t … 5000·t + 4999 of each row-blocked input, the whole
  of each small operand, runs the body, and writes the block of 5000 result rows back. The body's value at an entry
  of the block depends only on that row of the staged inputs, which is the same row of the whole arrays, so what
  each point writes back is its block of ONE function of the arrays the region finds; the ten blocks tile the
  output; hence the output array ends holding that function.
-/
import proofs.«159729_j13743895347603_1_alg».proof.Proof.Gen.KernelIdeal.Frame
import proofs.«159729_j13743895347603_1_alg».proof.Proof.BodyForms
import Idealize.ShloMosaic.Lib.Pipeline.Value
import Idealize.ShloMosaic.Lib.ValueIdx

set_option maxRecDepth 16384

noncomputable section

namespace Cert.SageNet.K

open Cert.KernelIdeal Cert.KernelIdeal.Gen Cert.SageNet
open Idealize.ShloMosaic Idealize.ShloMosaic.TcCoe Idealize.ShloMosaic.ValueIdx Idealize.SL.Sem
open Idealize.ShloMosaic.Pipeline (Dat Cfg Window)

theorem hz2_0 : (![0, 0] : Fin 2 → Nat) = fun _ => 0 := funext fun a => by fin_cases a <;> rfl

variable (V : (c : Dev nD) → (b : Ref sig .tc) → Buf (Elt Ideal) ((c : Thread nD τ).loc b))

/-! ## Region 0: a graph layer, rectified -/

/-- The body's value at an entry of the block is the graph layer of the block arrays there. -/
theorem pay0_at (x1 : Vec Ideal S5000x1 .f32) (x0 x2 : Vec Ideal S5000x128 .f32) (x3 x4 : Vec Ideal S128x128 .f32)
    (x5 : Vec Ideal S1x128 .f32) (j : S5000x128.Idx) :
    k0_pay1 x1 x0 x2 x3 x4 x5 j = sageAt true x0 x1 x2 x3 x4 x5 (j 0) (j 1) := by
  obtain ⟨r, q, rfl⟩ : ∃ (r : Fin 5000) (q : Fin 128), j = ix2 r q := ⟨j 0, j 1, eq_ix2 j⟩
  unfold k0_pay1
  simp only [shapeCast_self]
  exact sageBody_rect_at dot_S5000x128_S128x128_S5000x128_1_0_0_1_n_n rfl rfl rfl rfl rfl rfl
    broadcasts_S5000x1_S5000x128 broadcasts_S1x128_S5000x128 bitsLt_bf16_f32 x1 x0 x2 x3 x4 x5 r q

/-- The index maps over the grid: the three row-blocked inputs move with the output along the rows, the weights and
    the bias stay at the origin, and the output's row-block number is at most 9. -/
theorem idx_facts0 : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 ∧ win0_6.index t (0 : Fin 2) ≤ 9 :=
  (by decide +kernel : ∀ t : Fin grid0.N, _)

/-- Every row block is some point's. -/
theorem idx_onto0 : ∀ q0 : Fin 10, ∃ t : Fin cfg0.N, win0_6.index t = ![q0.val, 0] :=
  (by decide +kernel : ∀ q0 : Fin 10, ∃ t : Fin grid0.N, win0_6.index t = ![q0.val, 0])

set_option maxHeartbeats 1600000 in
/-- What point `t` writes back is block `t` of the graph layer of the arrays as the region finds them. -/
theorem flushed0 (c : Dev nD) (t : Fin cfg0.N) :
    (dat0 V c).flushed 6 t = ((cfg0.win 6).blk t).view.read (Elt Ideal) (sageVal true (V c main_v24) (V c main_v8) (V c main_arg0) (V c main_v10) (V c main_v12) (V c main_v25)) := by
  show (cfg0.win 6).cut (grid0.coords t) ((dat0 V c).after 6 t) = _
  rw [after0_6]
  unfold out0_6
  rw [View.canon_unit_zero hz2_0]
  simp only [View.ld_unit_zero (S := S5000x1) hz2_0, View.ld_unit_zero (S := S5000x128) hz2_0,
    View.ld_unit_zero (S := S128x128) hz2_0, View.ld_unit_zero (S := S1x128) hz2_0]
  obtain ⟨e00, e01, e10, e11, e20, e21, e30, e31, e40, e41, e50, e51, e61, e60⟩ := idx_facts0 t
  funext j
  show k0_pay1 (iblk0 V c 1 t) (iblk0 V c 0 t) (iblk0 V c 2 t) (iblk0 V c 3 t) (iblk0 V c 4 t) (iblk0 V c 5 t) j
    = sageAt true (V c main_v24) (V c main_v8) (V c main_arg0) (V c main_v10) (V c main_v12) (V c main_v25)
        ((((cfg0.win 6).blk t).view.emb j) 0) ((((cfg0.win 6).blk t).view.emb j) 1)
  refine (pay0_at (iblk0 V c 1 t) (iblk0 V c 0 t) (iblk0 V c 2 t) (iblk0 V c 3 t) (iblk0 V c 4 t) (iblk0 V c 5 t) j).trans ?_
  refine sageAt_congr true _ _ _ _ _ _ _ _ _ _ _ _ (j 0) (j 1) _ _ (fun k => ?_) ?_ (fun k => ?_) (fun k => ?_) (fun k => ?_) ?_
  · show V c main_v24 (((cfg0.win 0).blk t).view.emb (ix2 (j 0) k)) = V c main_v24 (ix2 ((((cfg0.win 6).blk t).view.emb j) 0) k)
    refine congrArg _ (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * (k : Fin 128).val = (k : Fin 128).val; omega
  · show V c main_v8 (((cfg0.win 1).blk t).view.emb (ix2 (j 0) 0)) = V c main_v8 (ix2 ((((cfg0.win 6).blk t).view.emb j) 0) 0)
    refine congrArg _ (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 1 + 1 * 0 = 0; omega
  · show V c main_arg0 (((cfg0.win 2).blk t).view.emb (ix2 (j 0) k)) = V c main_arg0 (ix2 ((((cfg0.win 6).blk t).view.emb j) 0) k)
    refine congrArg _ (funext fun a => Fin.ext ?_)
    match a with
    | ⟨0, _⟩ => show win0_2.index t (0 : Fin 2) * 5000 + 1 * (j 0).val = win0_6.index t (0 : Fin 2) * 5000 + 1 * (j 0).val; omega
    | ⟨1, _⟩ => show win0_2.index t (1 : Fin 2) * 128 + 1 * (k : Fin 128).val = (k : Fin 128).val; omega
  · show V c main_v10 (((cfg0.win 3).blk t).view.emb (ix2 k (j 1))) = V c main_v10 (ix2 k ((((cfg0.win 6).blk t).view.emb j) 1))
    refine congrArg _ (funext fun a => Fin.ext ?_)
    match a with
    | ⟨0, _⟩ => show win0_3.index t (0 : Fin 2) * 128 + 1 * k.val = k.val; omega
    | ⟨1, _⟩ => show win0_3.index t (1 : Fin 2) * 128 + 1 * (j 1).val = win0_6.index t (1 : Fin 2) * 128 + 1 * (j 1).val; omega
  · show V c main_v12 (((cfg0.win 4).blk t).view.emb (ix2 k (j 1))) = V c main_v12 (ix2 k ((((cfg0.win 6).blk t).view.emb j) 1))
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_6.index t (1 : Fin 2) * 128 + 1 * (j 1).val; omega
  · show V c main_v25 (((cfg0.win 5).blk t).view.emb (ix2 0 (j 1))) = V c main_v25 (ix2 0 ((((cfg0.win 6).blk t).view.emb j) 1))
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * (j 1).val = win0_6.index t (1 : Fin 2) * 128 + 1 * (j 1).val; omega

/-- An index of the output array is in point `t`'s block iff each coordinate is in the block's range. -/
theorem mem_blk0 (t : Fin cfg0.N) (i : S50000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v26).slice (win0_6.rect t)).set ↔ _
  rw [View.set_slice_whole, Rect.mem_set_unit]
  exact Iff.rfl

/-- The ten row blocks cover the output: row `i` is in block `i / 5000`. -/
theorem cover0 (i : S50000x128.Idx) : ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto0 ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The output array after the region: the graph layer of the arrays as the region finds them. -/
theorem final0 (c : Dev nD) : (dat0 V c).arrAt 6 cfg0.N = (sageVal true (V c main_v24) (V c main_v8) (V c main_arg0) (V c main_v10) (V c main_v12) (V c main_v25)) :=
  (dat0 V c).arrAt_eq_of_cover 6 _ (fun t _ => flushed0 V c t) cover0

end Cert.SageNet.K

end
-- ==== Proof.Region1.lean ====
/-
  Region 1 of the idealized kernel, from blocks to the array.

  The region walks ten grid points; point t stages rows 5000·t … 5000·t + 4999 of each row-blocked input, the whole
  of each small operand, runs the body, and writes the block of 5000 result rows back. The body's value at an entry
  of the block depends only on that row of the staged inputs, which is the same row of the whole arrays, so what
  each point writes back is its block of ONE function of the arrays the region finds; the ten blocks tile the
  output; hence the output array ends holding that function.
-/
import proofs.«159729_j13743895347603_1_alg».proof.Proof.Gen.KernelIdeal.Frame
import proofs.«159729_j13743895347603_1_alg».proof.Proof.BodyForms
import Idealize.ShloMosaic.Lib.Pipeline.Value
import Idealize.ShloMosaic.Lib.ValueIdx

set_option maxRecDepth 16384

noncomputable section

namespace Cert.SageNet.K

open Cert.KernelIdeal Cert.KernelIdeal.Gen Cert.SageNet
open Idealize.ShloMosaic Idealize.ShloMosaic.TcCoe Idealize.ShloMosaic.ValueIdx Idealize.SL.Sem
open Idealize.ShloMosaic.Pipeline (Dat Cfg Window)

theorem hz2_1 : (![0, 0] : Fin 2 → Nat) = fun _ => 0 := funext fun a => by fin_cases a <;> rfl

variable (V : (c : Dev nD) → (b : Ref sig .tc) → Buf (Elt Ideal) ((c : Thread nD τ).loc b))

/-! ## Region 1: a dense layer, rectified -/

/-- The body's value at an entry of the block is the dense layer of the block arrays there. -/
theorem pay1_at (x0 : Vec Ideal S5000x128 .f32) (x1 : Vec Ideal S128x128 .f32) (x2 : Vec Ideal S1x128 .f32) (j : S5000x128.Idx) :
    k1_pay1 x0 x1 x2 j = linAt true x0 x1 x2 (j 0) (j 1) := by
  obtain ⟨r, q, rfl⟩ : ∃ (r : Fin 5000) (q : Fin 128), j = ix2 r q := ⟨j 0, j 1, eq_ix2 j⟩
  unfold k1_pay1
  simp only [shapeCast_self]
  exact linBody_rect_at dot_S5000x128_S128x128_S5000x128_1_0_0_1_n_n rfl rfl rfl rfl rfl rfl broadcasts_S1x128_S5000x128 bitsLt_bf16_f32 x0 x1 x2 r q

/-- The index maps over the grid: the row-blocked input moves with the output along the rows, the weights and the
    bias stay at the origin, and the output's row-block number is at most 9. -/
theorem idx_facts1 : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 9 :=
  (by decide +kernel : ∀ t : Fin grid1.N, _)

/-- Every row block is some point's. -/
theorem idx_onto1 : ∀ q0 : Fin 10, ∃ t : Fin cfg1.N, win1_3.index t = ![q0.val, 0] :=
  (by decide +kernel : ∀ q0 : Fin 10, ∃ t : Fin grid1.N, win1_3.index t = ![q0.val, 0])

set_option maxHeartbeats 1600000 in
/-- What point `t` writes back is block `t` of the dense layer of the arrays as the region finds them. -/
theorem flushed1 (c : Dev nD) (t : Fin cfg1.N) :
    (dat1 V c).flushed 3 t = ((cfg1.win 3).blk t).view.read (Elt Ideal) (linVal true (V c main_v26) (V c main_v28) (V c main_v31)) := by
  show (cfg1.win 3).cut (grid1.coords t) ((dat1 V c).after 3 t) = _
  rw [after1_3]
  unfold out1_3
  rw [View.canon_unit_zero hz2_1]
  simp only [View.ld_unit_zero (S := S5000x128) hz2_1, View.ld_unit_zero (S := S128x128) hz2_1, View.ld_unit_zero (S := S1x128) hz2_1]
  obtain ⟨e00, e01, e10, e11, e20, e21, e31, e30⟩ := idx_facts1 t
  funext j
  show k1_pay1 (iblk1 V c 0 t) (iblk1 V c 1 t) (iblk1 V c 2 t) j
    = linAt true (V c main_v26) (V c main_v28) (V c main_v31)
        ((((cfg1.win 3).blk t).view.emb j) 0) ((((cfg1.win 3).blk t).view.emb j) 1)
  refine (pay1_at (iblk1 V c 0 t) (iblk1 V c 1 t) (iblk1 V c 2 t) j).trans ?_
  refine linAt_congr true _ _ _ _ _ _ (j 0) (j 1) _ _ (fun k => ?_) (fun k => ?_) ?_
  · show V c main_v26 (((cfg1.win 0).blk t).view.emb (ix2 (j 0) k)) = V c main_v26 (ix2 ((((cfg1.win 3).blk t).view.emb j) 0) k)
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show V c main_v28 (((cfg1.win 1).blk t).view.emb (ix2 k (j 1))) = V c main_v28 (ix2 k ((((cfg1.win 3).blk t).view.emb j) 1))
    refine congrArg _ (funext fun a => Fin.ext ?_)
    match a with
    | ⟨0, _⟩ => show win1_1.index t (0 : Fin 2) * 128 + 1 * k.val = k.val; omega
    | ⟨1, _⟩ => show win1_1.index t (1 : Fin 2) * 128 + 1 * (j 1).val = win1_3.index t (1 : Fin 2) * 128 + 1 * (j 1).val; omega
  · show V c main_v31 (((cfg1.win 2).blk t).view.emb (ix2 0 (j 1))) = V c main_v31 (ix2 0 ((((cfg1.win 3).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 128 + 1 * (j 1).val = win1_3.index t (1 : Fin 2) * 128 + 1 * (j 1).val; omega

/-- An index of the output array is in point `t`'s block iff each coordinate is in the block's range. -/
theorem mem_blk1 (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v32).slice (win1_3.rect t)).set ↔ _
  rw [View.set_slice_whole, Rect.mem_set_unit]
  exact Iff.rfl

/-- The ten row blocks cover the output: row `i` is in block `i / 5000`. -/
theorem cover1 (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region: the dense layer of the arrays as the region finds them. -/
theorem final1 (c : Dev nD) : (dat1 V c).arrAt 3 cfg1.N = (linVal true (V c main_v26) (V c main_v28) (V c main_v31)) :=
  (dat1 V c).arrAt_eq_of_cover 3 _ (fun t _ => flushed1 V c t) cover1

end Cert.SageNet.K

end
-- ==== Proof.Region2.lean ====
/-
  Region 2 of the idealized kernel, from blocks to the array.

  The region walks ten grid points; point t stages rows 5000·t … 5000·t + 4999 of each row-blocked input, the whole
  of each small operand, runs the body, and writes the block of 5000 result rows back. The body's value at an entry
  of the block depends only on that row of the staged inputs, which is the same row of the whole arrays, so what
  each point writes back is its block of ONE function of the arrays the region finds; the ten blocks tile the
  output; hence the output array ends holding that function.
-/
import proofs.«159729_j13743895347603_1_alg».proof.Proof.Gen.KernelIdeal.Frame
import proofs.«159729_j13743895347603_1_alg».proof.Proof.BodyForms
import Idealize.ShloMosaic.Lib.Pipeline.Value
import Idealize.ShloMosaic.Lib.ValueIdx

set_option maxRecDepth 16384

noncomputable section

namespace Cert.SageNet.K

open Cert.KernelIdeal Cert.KernelIdeal.Gen Cert.SageNet
open Idealize.ShloMosaic Idealize.ShloMosaic.TcCoe Idealize.ShloMosaic.ValueIdx Idealize.SL.Sem
open Idealize.ShloMosaic.Pipeline (Dat Cfg Window)

theorem hz2_2 : (![0, 0] : Fin 2 → Nat) = fun _ => 0 := funext fun a => by fin_cases a <;> rfl

variable (V : (c : Dev nD) → (b : Ref sig .tc) → Buf (Elt Ideal) ((c : Thread nD τ).loc b))

/-! ## Region 2: a graph layer, rectified -/

/-- The body's value at an entry of the block is the graph layer of the block arrays there. -/
theorem pay2_at (x1 : Vec Ideal S5000x1 .f32) (x0 x2 : Vec Ideal S5000x128 .f32) (x3 x4 : Vec Ideal S128x128 .f32)
    (x5 : Vec Ideal S1x128 .f32) (j : S5000x128.Idx) :
    k2_pay1 x1 x0 x2 x3 x4 x5 j = sageAt true x0 x1 x2 x3 x4 x5 (j 0) (j 1) := by
  obtain ⟨r, q, rfl⟩ : ∃ (r : Fin 5000) (q : Fin 128), j = ix2 r q := ⟨j 0, j 1, eq_ix2 j⟩
  unfold k2_pay1
  simp only [shapeCast_self]
  exact sageBody_rect_at dot_S5000x128_S128x128_S5000x128_1_0_0_1_n_n rfl rfl rfl rfl rfl rfl
    broadcasts_S5000x1_S5000x128 broadcasts_S1x128_S5000x128 bitsLt_bf16_f32 x1 x0 x2 x3 x4 x5 r q

/-- The index maps over the grid: the three row-blocked inputs move with the output along the rows, the weights and
    the bias stay at the origin, and the output's row-block number is at most 9. -/
theorem idx_facts2 : ∀ t : Fin cfg2.N,
    win2_0.index t (0 : Fin 2) = win2_6.index t (0 : Fin 2) ∧ win2_0.index t (1 : Fin 2) = 0
    ∧ win2_1.index t (0 : Fin 2) = win2_6.index t (0 : Fin 2) ∧ win2_1.index t (1 : Fin 2) = 0
    ∧ win2_2.index t (0 : Fin 2) = win2_6.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (1 : Fin 2) = 0 ∧ win2_6.index t (0 : Fin 2) ≤ 9 :=
  (by decide +kernel : ∀ t : Fin grid2.N, _)

/-- Every row block is some point's. -/
theorem idx_onto2 : ∀ q0 : Fin 10, ∃ t : Fin cfg2.N, win2_6.index t = ![q0.val, 0] :=
  (by decide +kernel : ∀ q0 : Fin 10, ∃ t : Fin grid2.N, win2_6.index t = ![q0.val, 0])

set_option maxHeartbeats 1600000 in
/-- What point `t` writes back is block `t` of the graph layer of the arrays as the region finds them. -/
theorem flushed2 (c : Dev nD) (t : Fin cfg2.N) :
    (dat2 V c).flushed 6 t = ((cfg2.win 6).blk t).view.read (Elt Ideal) (sageVal true (V c main_v48) (V c main_v8) (V c main_v32) (V c main_v34) (V c main_v36) (V c main_v49)) := by
  show (cfg2.win 6).cut (grid2.coords t) ((dat2 V c).after 6 t) = _
  rw [after2_6]
  unfold out2_6
  rw [View.canon_unit_zero hz2_2]
  simp only [View.ld_unit_zero (S := S5000x1) hz2_2, View.ld_unit_zero (S := S5000x128) hz2_2,
    View.ld_unit_zero (S := S128x128) hz2_2, View.ld_unit_zero (S := S1x128) hz2_2]
  obtain ⟨e00, e01, e10, e11, e20, e21, e30, e31, e40, e41, e50, e51, e61, e60⟩ := idx_facts2 t
  funext j
  show k2_pay1 (iblk2 V c 1 t) (iblk2 V c 0 t) (iblk2 V c 2 t) (iblk2 V c 3 t) (iblk2 V c 4 t) (iblk2 V c 5 t) j
    = sageAt true (V c main_v48) (V c main_v8) (V c main_v32) (V c main_v34) (V c main_v36) (V c main_v49)
        ((((cfg2.win 6).blk t).view.emb j) 0) ((((cfg2.win 6).blk t).view.emb j) 1)
  refine (pay2_at (iblk2 V c 1 t) (iblk2 V c 0 t) (iblk2 V c 2 t) (iblk2 V c 3 t) (iblk2 V c 4 t) (iblk2 V c 5 t) j).trans ?_
  refine sageAt_congr true _ _ _ _ _ _ _ _ _ _ _ _ (j 0) (j 1) _ _ (fun k => ?_) ?_ (fun k => ?_) (fun k => ?_) (fun k => ?_) ?_
  · show V c main_v48 (((cfg2.win 0).blk t).view.emb (ix2 (j 0) k)) = V c main_v48 (ix2 ((((cfg2.win 6).blk t).view.emb j) 0) k)
    refine congrArg _ (funext fun a => Fin.ext ?_)
    match a with
    | ⟨0, _⟩ => show win2_0.index t (0 : Fin 2) * 5000 + 1 * (j 0).val = win2_6.index t (0 : Fin 2) * 5000 + 1 * (j 0).val; omega
    | ⟨1, _⟩ => show win2_0.index t (1 : Fin 2) * 128 + 1 * (k : Fin 128).val = (k : Fin 128).val; omega
  · show V c main_v8 (((cfg2.win 1).blk t).view.emb (ix2 (j 0) 0)) = V c main_v8 (ix2 ((((cfg2.win 6).blk t).view.emb j) 0) 0)
    refine congrArg _ (funext fun a => Fin.ext ?_)
    match a with
    | ⟨0, _⟩ => show win2_1.index t (0 : Fin 2) * 5000 + 1 * (j 0).val = win2_6.index t (0 : Fin 2) * 5000 + 1 * (j 0).val; omega
    | ⟨1, _⟩ => show win2_1.index t (1 : Fin 2) * 1 + 1 * 0 = 0; omega
  · show V c main_v32 (((cfg2.win 2).blk t).view.emb (ix2 (j 0) k)) = V c main_v32 (ix2 ((((cfg2.win 6).blk t).view.emb j) 0) k)
    refine congrArg _ (funext fun a => Fin.ext ?_)
    match a with
    | ⟨0, _⟩ => show win2_2.index t (0 : Fin 2) * 5000 + 1 * (j 0).val = win2_6.index t (0 : Fin 2) * 5000 + 1 * (j 0).val; omega
    | ⟨1, _⟩ => show win2_2.index t (1 : Fin 2) * 128 + 1 * (k : Fin 128).val = (k : Fin 128).val; omega
  · show V c main_v34 (((cfg2.win 3).blk t).view.emb (ix2 k (j 1))) = V c main_v34 (ix2 k ((((cfg2.win 6).blk t).view.emb j) 1))
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * (j 1).val = win2_6.index t (1 : Fin 2) * 128 + 1 * (j 1).val; omega
  · show V c main_v36 (((cfg2.win 4).blk t).view.emb (ix2 k (j 1))) = V c main_v36 (ix2 k ((((cfg2.win 6).blk t).view.emb j) 1))
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * (j 1).val = win2_6.index t (1 : Fin 2) * 128 + 1 * (j 1).val; omega
  · show V c main_v49 (((cfg2.win 5).blk t).view.emb (ix2 0 (j 1))) = V c main_v49 (ix2 0 ((((cfg2.win 6).blk t).view.emb j) 1))
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * (j 1).val = win2_6.index t (1 : Fin 2) * 128 + 1 * (j 1).val; omega

/-- An index of the output array is in point `t`'s block iff each coordinate is in the block's range. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v50).slice (win2_6.rect t)).set ↔ _
  rw [View.set_slice_whole, Rect.mem_set_unit]
  exact Iff.rfl

/-- The ten row blocks cover the output: row `i` is in block `i / 5000`. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ := idx_onto2 ⟨(i 0).val / 5000, by omega⟩
  have q0 : win2_6.index t (0 : Fin 2) = (i 0).val / 5000 := congrFun ht 0
  have q1 : win2_6.index t (1 : Fin 2) = 0 := congrFun ht 1
  refine ⟨t, flush2_6 t, ?_⟩
  rw [mem_blk2]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The output array after the region: the graph layer of the arrays as the region finds them. -/
theorem final2 (c : Dev nD) : (dat2 V c).arrAt 6 cfg2.N = (sageVal true (V c main_v48) (V c main_v8) (V c main_v32) (V c main_v34) (V c main_v36) (V c main_v49)) :=
  (dat2 V c).arrAt_eq_of_cover 6 _ (fun t _ => flushed2 V c t) cover2

end Cert.SageNet.K

end
-- ==== Proof.Region3.lean ====
/-
  Region 3 of the idealized kernel, from blocks to the array.

  The region walks ten grid points; point t stages rows 5000·t … 5000·t + 4999 of each row-blocked input, the whole
  of each small operand, runs the body, and writes the block of 5000 result rows back. The body's value at an entry
  of the block depends only on that row of the staged inputs, which is the same row of the whole arrays, so what
  each point writes back is its block of ONE function of the arrays the region finds; the ten blocks tile the
  output; hence the output array ends holding that function.
-/
import proofs.«159729_j13743895347603_1_alg».proof.Proof.Gen.KernelIdeal.Frame
import proofs.«159729_j13743895347603_1_alg».proof.Proof.BodyForms
import Idealize.ShloMosaic.Lib.Pipeline.Value
import Idealize.ShloMosaic.Lib.ValueIdx

set_option maxRecDepth 16384

noncomputable section

namespace Cert.SageNet.K

open Cert.KernelIdeal Cert.KernelIdeal.Gen Cert.SageNet
open Idealize.ShloMosaic Idealize.ShloMosaic.TcCoe Idealize.ShloMosaic.ValueIdx Idealize.SL.Sem
open Idealize.ShloMosaic.Pipeline (Dat Cfg Window)

theorem hz2_3 : (![0, 0] : Fin 2 → Nat) = fun _ => 0 := funext fun a => by fin_cases a <;> rfl

variable (V : (c : Dev nD) → (b : Ref sig .tc) → Buf (Elt Ideal) ((c : Thread nD τ).loc b))

/-! ## Region 3: a dense layer, rectified -/

/-- The body's value at an entry of the block is the dense layer of the block arrays there. -/
theorem pay3_at (x0 : Vec Ideal S5000x128 .f32) (x1 : Vec Ideal S128x128 .f32) (x2 : Vec Ideal S1x128 .f32) (j : S5000x128.Idx) :
    k3_pay1 x0 x1 x2 j = linAt true x0 x1 x2 (j 0) (j 1) := by
  obtain ⟨r, q, rfl⟩ : ∃ (r : Fin 5000) (q : Fin 128), j = ix2 r q := ⟨j 0, j 1, eq_ix2 j⟩
  unfold k3_pay1
  simp only [shapeCast_self]
  exact linBody_rect_at dot_S5000x128_S128x128_S5000x128_1_0_0_1_n_n rfl rfl rfl rfl rfl rfl broadcasts_S1x128_S5000x128 bitsLt_bf16_f32 x0 x1 x2 r q

/-- The index maps over the grid: the row-blocked input moves with the output along the rows, the weights and the
    bias stay at the origin, and the output's row-block number is at most 9. -/
theorem idx_facts3 : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (1 : Fin 2) = 0 ∧ win3_3.index t (0 : Fin 2) ≤ 9 :=
  (by decide +kernel : ∀ t : Fin grid3.N, _)

/-- Every row block is some point's. -/
theorem idx_onto3 : ∀ q0 : Fin 10, ∃ t : Fin cfg3.N, win3_3.index t = ![q0.val, 0] :=
  (by decide +kernel : ∀ q0 : Fin 10, ∃ t : Fin grid3.N, win3_3.index t = ![q0.val, 0])

set_option maxHeartbeats 1600000 in
/-- What point `t` writes back is block `t` of the dense layer of the arrays as the region finds them. -/
theorem flushed3 (c : Dev nD) (t : Fin cfg3.N) :
    (dat3 V c).flushed 3 t = ((cfg3.win 3).blk t).view.read (Elt Ideal) (linVal true (V c main_v50) (V c main_v52) (V c main_v55)) := by
  show (cfg3.win 3).cut (grid3.coords t) ((dat3 V c).after 3 t) = _
  rw [after3_3]
  unfold out3_3
  rw [View.canon_unit_zero hz2_3]
  simp only [View.ld_unit_zero (S := S5000x128) hz2_3, View.ld_unit_zero (S := S128x128) hz2_3, View.ld_unit_zero (S := S1x128) hz2_3]
  obtain ⟨e00, e01, e10, e11, e20, e21, e31, e30⟩ := idx_facts3 t
  funext j
  show k3_pay1 (iblk3 V c 0 t) (iblk3 V c 1 t) (iblk3 V c 2 t) j
    = linAt true (V c main_v50) (V c main_v52) (V c main_v55)
        ((((cfg3.win 3).blk t).view.emb j) 0) ((((cfg3.win 3).blk t).view.emb j) 1)
  refine (pay3_at (iblk3 V c 0 t) (iblk3 V c 1 t) (iblk3 V c 2 t) j).trans ?_
  refine linAt_congr true _ _ _ _ _ _ (j 0) (j 1) _ _ (fun k => ?_) (fun k => ?_) ?_
  · show V c main_v50 (((cfg3.win 0).blk t).view.emb (ix2 (j 0) k)) = V c main_v50 (ix2 ((((cfg3.win 3).blk t).view.emb j) 0) k)
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  · show V c main_v52 (((cfg3.win 1).blk t).view.emb (ix2 k (j 1))) = V c main_v52 (ix2 k ((((cfg3.win 3).blk t).view.emb j) 1))
    refine congrArg _ (funext fun a => Fin.ext ?_)
    match a with
    | ⟨0, _⟩ => show win3_1.index t (0 : Fin 2) * 128 + 1 * k.val = k.val; omega
    | ⟨1, _⟩ => show win3_1.index t (1 : Fin 2) * 128 + 1 * (j 1).val = win3_3.index t (1 : Fin 2) * 128 + 1 * (j 1).val; omega
  · show V c main_v55 (((cfg3.win 2).blk t).view.emb (ix2 0 (j 1))) = V c main_v55 (ix2 0 ((((cfg3.win 3).blk t).view.emb j) 1))
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * (j 1).val = win3_3.index t (1 : Fin 2) * 128 + 1 * (j 1).val; omega

/-- An index of the output array is in point `t`'s block iff each coordinate is in the block's range. -/
theorem mem_blk3 (t : Fin cfg3.N) (i : S50000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v56).slice (win3_3.rect t)).set ↔ _
  rw [View.set_slice_whole, Rect.mem_set_unit]
  exact Iff.rfl

/-- The ten row blocks cover the output: row `i` is in block `i / 5000`. -/
theorem cover3 (i : S50000x128.Idx) : ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The output array after the region: the dense layer of the arrays as the region finds them. -/
theorem final3 (c : Dev nD) : (dat3 V c).arrAt 3 cfg3.N = (linVal true (V c main_v50) (V c main_v52) (V c main_v55)) :=
  (dat3 V c).arrAt_eq_of_cover 3 _ (fun t _ => flushed3 V c t) cover3

end Cert.SageNet.K

end
-- ==== Proof.Region4.lean ====
/-
  Region 4 of the idealized kernel, from blocks to the array.

  The region walks ten grid points; point t stages rows 5000·t … 5000·t + 4999 of each row-blocked input, the whole
  of each small operand, runs the body, and writes the block of 5000 result rows back. The body's value at an entry
  of the block depends only on that row of the staged inputs, which is the same row of the whole arrays, so what
  each point writes back is its block of ONE function of the arrays the region finds; the ten blocks tile the
  output; hence the output array ends holding that function.
-/
import proofs.«159729_j13743895347603_1_alg».proof.Proof.Gen.KernelIdeal.Frame
import proofs.«159729_j13743895347603_1_alg».proof.Proof.BodyForms
import Idealize.ShloMosaic.Lib.Pipeline.Value
import Idealize.ShloMosaic.Lib.ValueIdx

set_option maxRecDepth 16384

noncomputable section

namespace Cert.SageNet.K

open Cert.KernelIdeal Cert.KernelIdeal.Gen Cert.SageNet
open Idealize.ShloMosaic Idealize.ShloMosaic.TcCoe Idealize.ShloMosaic.ValueIdx Idealize.SL.Sem
open Idealize.ShloMosaic.Pipeline (Dat Cfg Window)

theorem hz2_4 : (![0, 0] : Fin 2 → Nat) = fun _ => 0 := funext fun a => by fin_cases a <;> rfl

variable (V : (c : Dev nD) → (b : Ref sig .tc) → Buf (Elt Ideal) ((c : Thread nD τ).loc b))

/-! ## Region 4: a graph layer -/

/-- The body's value at an entry of the block is the graph layer of the block arrays there. -/
theorem pay4_at (x1 : Vec Ideal S5000x1 .f32) (x0 x2 : Vec Ideal S5000x128 .f32) (x3 x4 : Vec Ideal S128x128 .f32)
    (x5 : Vec Ideal S1x128 .f32) (j : S5000x128.Idx) :
    k4_pay1 x1 x0 x2 x3 x4 x5 j = sageAt false x0 x1 x2 x3 x4 x5 (j 0) (j 1) := by
  obtain ⟨r, q, rfl⟩ : ∃ (r : Fin 5000) (q : Fin 128), j = ix2 r q := ⟨j 0, j 1, eq_ix2 j⟩
  unfold k4_pay1
  simp only [shapeCast_self]
  exact sageBodySum_at dot_S5000x128_S128x128_S5000x128_1_0_0_1_n_n rfl rfl rfl rfl rfl rfl
    broadcasts_S5000x1_S5000x128 broadcasts_S1x128_S5000x128 bitsLt_bf16_f32 x1 x0 x2 x3 x4 x5 r q

/-- The index maps over the grid: the three row-blocked inputs move with the output along the rows, the weights and
    the bias stay at the origin, and the output's row-block number is at most 9. -/
theorem idx_facts4 : ∀ t : Fin cfg4.N,
    win4_0.index t (0 : Fin 2) = win4_6.index t (0 : Fin 2) ∧ win4_0.index t (1 : Fin 2) = 0
    ∧ win4_1.index t (0 : Fin 2) = win4_6.index t (0 : Fin 2) ∧ win4_1.index t (1 : Fin 2) = 0
    ∧ win4_2.index t (0 : Fin 2) = win4_6.index t (0 : Fin 2) ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (1 : Fin 2) = 0 ∧ win4_6.index t (0 : Fin 2) ≤ 9 :=
  (by decide +kernel : ∀ t : Fin grid4.N, _)

/-- Every row block is some point's. -/
theorem idx_onto4 : ∀ q0 : Fin 10, ∃ t : Fin cfg4.N, win4_6.index t = ![q0.val, 0] :=
  (by decide +kernel : ∀ q0 : Fin 10, ∃ t : Fin grid4.N, win4_6.index t = ![q0.val, 0])

set_option maxHeartbeats 1600000 in
/-- What point `t` writes back is block `t` of the graph layer of the arrays as the region finds them. -/
theorem flushed4 (c : Dev nD) (t : Fin cfg4.N) :
    (dat4 V c).flushed 6 t = ((cfg4.win 6).blk t).view.read (Elt Ideal) (sageVal false (V c main_v72) (V c main_v8) (V c main_v56) (V c main_v58) (V c main_v60) (V c main_v73)) := by
  show (cfg4.win 6).cut (grid4.coords t) ((dat4 V c).after 6 t) = _
  rw [after4_6]
  unfold out4_6
  rw [View.canon_unit_zero hz2_4]
  simp only [View.ld_unit_zero (S := S5000x1) hz2_4, View.ld_unit_zero (S := S5000x128) hz2_4,
    View.ld_unit_zero (S := S128x128) hz2_4, View.ld_unit_zero (S := S1x128) hz2_4]
  obtain ⟨e00, e01, e10, e11, e20, e21, e30, e31, e40, e41, e50, e51, e61, e60⟩ := idx_facts4 t
  funext j
  show k4_pay1 (iblk4 V c 1 t) (iblk4 V c 0 t) (iblk4 V c 2 t) (iblk4 V c 3 t) (iblk4 V c 4 t) (iblk4 V c 5 t) j
    = sageAt false (V c main_v72) (V c main_v8) (V c main_v56) (V c main_v58) (V c main_v60) (V c main_v73)
        ((((cfg4.win 6).blk t).view.emb j) 0) ((((cfg4.win 6).blk t).view.emb j) 1)
  refine (pay4_at (iblk4 V c 1 t) (iblk4 V c 0 t) (iblk4 V c 2 t) (iblk4 V c 3 t) (iblk4 V c 4 t) (iblk4 V c 5 t) j).trans ?_
  refine sageAt_congr false _ _ _ _ _ _ _ _ _ _ _ _ (j 0) (j 1) _ _ (fun k => ?_) ?_ (fun k => ?_) (fun k => ?_) (fun k => ?_) ?_
  · show V c main_v72 (((cfg4.win 0).blk t).view.emb (ix2 (j 0) k)) = V c main_v72 (ix2 ((((cfg4.win 6).blk t).view.emb j) 0) k)
    refine congrArg _ (funext fun a => Fin.ext ?_)
    match a with
    | ⟨0, _⟩ => show win4_0.index t (0 : Fin 2) * 5000 + 1 * (j 0).val = win4_6.index t (0 : Fin 2) * 5000 + 1 * (j 0).val; omega
    | ⟨1, _⟩ => show win4_0.index t (1 : Fin 2) * 128 + 1 * (k : Fin 128).val = (k : Fin 128).val; omega
  · show V c main_v8 (((cfg4.win 1).blk t).view.emb (ix2 (j 0) 0)) = V c main_v8 (ix2 ((((cfg4.win 6).blk t).view.emb j) 0) 0)
    refine congrArg _ (funext fun a => Fin.ext ?_)
    match a with
    | ⟨0, _⟩ => show win4_1.index t (0 : Fin 2) * 5000 + 1 * (j 0).val = win4_6.index t (0 : Fin 2) * 5000 + 1 * (j 0).val; omega
    | ⟨1, _⟩ => show win4_1.index t (1 : Fin 2) * 1 + 1 * 0 = 0; omega
  · show V c main_v56 (((cfg4.win 2).blk t).view.emb (ix2 (j 0) k)) = V c main_v56 (ix2 ((((cfg4.win 6).blk t).view.emb j) 0) k)
    refine congrArg _ (funext fun a => Fin.ext ?_)
    match a with
    | ⟨0, _⟩ => show win4_2.index t (0 : Fin 2) * 5000 + 1 * (j 0).val = win4_6.index t (0 : Fin 2) * 5000 + 1 * (j 0).val; omega
    | ⟨1, _⟩ => show win4_2.index t (1 : Fin 2) * 128 + 1 * (k : Fin 128).val = (k : Fin 128).val; omega
  · show V c main_v58 (((cfg4.win 3).blk t).view.emb (ix2 k (j 1))) = V c main_v58 (ix2 k ((((cfg4.win 6).blk t).view.emb j) 1))
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * (j 1).val = win4_6.index t (1 : Fin 2) * 128 + 1 * (j 1).val; omega
  · show V c main_v60 (((cfg4.win 4).blk t).view.emb (ix2 k (j 1))) = V c main_v60 (ix2 k ((((cfg4.win 6).blk t).view.emb j) 1))
    refine congrArg _ (funext fun a => Fin.ext ?_)
    match a with
    | ⟨0, _⟩ => show win4_4.index t (0 : Fin 2) * 128 + 1 * k.val = k.val; omega
    | ⟨1, _⟩ => show win4_4.index t (1 : Fin 2) * 128 + 1 * (j 1).val = win4_6.index t (1 : Fin 2) * 128 + 1 * (j 1).val; omega
  · show V c main_v73 (((cfg4.win 5).blk t).view.emb (ix2 0 (j 1))) = V c main_v73 (ix2 0 ((((cfg4.win 6).blk t).view.emb j) 1))
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * (j 1).val = win4_6.index t (1 : Fin 2) * 128 + 1 * (j 1).val; omega

/-- An index of the output array is in point `t`'s block iff each coordinate is in the block's range. -/
theorem mem_blk4 (t : Fin cfg4.N) (i : S50000x128.Idx) :
    i ∈ ((cfg4.win 6).blk t).view.set ↔ ∀ a : Fin 2, win4_6.index t a * S5000x128.size a ≤ (i a).val ∧ (i a).val < win4_6.index t a * S5000x128.size a + S5000x128.size a := by
  show i ∈ ((View.whole main_v74).slice (win4_6.rect t)).set ↔ _
  rw [View.set_slice_whole, Rect.mem_set_unit]
  exact Iff.rfl

/-- The ten row blocks cover the output: row `i` is in block `i / 5000`. -/
theorem cover4 (i : S50000x128.Idx) : ∃ t : Fin cfg4.N, (cfg4.win 6).flush t = true ∧ i ∈ ((cfg4.win 6).blk t).view.set := by
  have hi0 : (i 0).val < 50000 := (i 0).isLt
  have hi1 : (i 1).val < 128 := (i 1).isLt
  obtain ⟨t, ht⟩ := idx_onto4 ⟨(i 0).val / 5000, by omega⟩
  have q0 : win4_6.index t (0 : Fin 2) = (i 0).val / 5000 := congrFun ht 0
  have q1 : win4_6.index t (1 : Fin 2) = 0 := congrFun ht 1
  refine ⟨t, flush4_6 t, ?_⟩
  rw [mem_blk4]
  intro a
  match a with
  | ⟨0, _⟩ => show win4_6.index t (0 : Fin 2) * 5000 ≤ (i 0).val ∧ (i 0).val < win4_6.index t (0 : Fin 2) * 5000 + 5000; omega
  | ⟨1, _⟩ => show win4_6.index t (1 : Fin 2) * 128 ≤ (i 1).val ∧ (i 1).val < win4_6.index t (1 : Fin 2) * 128 + 128; omega

/-- The output array after the region: the graph layer of the arrays as the region finds them. -/
theorem final4 (c : Dev nD) : (dat4 V c).arrAt 6 cfg4.N = (sageVal false (V c main_v72) (V c main_v8) (V c main_v56) (V c main_v58) (V c main_v60) (V c main_v73)) :=
  (dat4 V c).arrAt_eq_of_cover 6 _ (fun t _ => flushed4 V c t) cover4

end Cert.SageNet.K

end
-- ==== Proof.Region5.lean ====
/-
  Region 5 of the idealized kernel, from blocks to the array.

  The region walks ten grid points; point t stages rows 5000·t … 5000·t + 4999 of each row-blocked input, the whole
  of each small operand, runs the body, and writes the block of 5000 result rows back. The body's value at an entry
  of the block depends only on that row of the staged inputs, which is the same row of the whole arrays, so what
  each point writes back is its block of ONE function of the arrays the region finds; the ten blocks tile the
  output; hence the output array ends holding that function.
-/
import proofs.«159729_j13743895347603_1_alg».proof.Proof.Gen.KernelIdeal.Frame
import proofs.«159729_j13743895347603_1_alg».proof.Proof.BodyForms
import Idealize.ShloMosaic.Lib.Pipeline.Value
import Idealize.ShloMosaic.Lib.ValueIdx

set_option maxRecDepth 16384

noncomputable section

namespace Cert.SageNet.K

open Cert.KernelIdeal Cert.KernelIdeal.Gen Cert.SageNet
open Idealize.ShloMosaic Idealize.ShloMosaic.TcCoe Idealize.ShloMosaic.ValueIdx Idealize.SL.Sem
open Idealize.ShloMosaic.Pipeline (Dat Cfg Window)

theorem hz2_5 : (![0, 0] : Fin 2 → Nat) = fun _ => 0 := funext fun a => by fin_cases a <;> rfl

variable (V : (c : Dev nD) → (b : Ref sig .tc) → Buf (Elt Ideal) ((c : Thread nD τ).loc b))

/-! ## Region 5: a dense layer -/

/-- The body's value at an entry of the block is the dense layer of the block arrays there. -/
theorem pay5_at (x0 : Vec Ideal S5000x128 .f32) (x1 : Vec Ideal S128x64 .f32) (x2 : Vec Ideal S1x64 .f32) (j : S5000x64.Idx) :
    k5_pay1 x0 x1 x2 j = linAt false x0 x1 x2 (j 0) (j 1) := by
  obtain ⟨r, q, rfl⟩ : ∃ (r : Fin 5000) (q : Fin 64), j = ix2 r q := ⟨j 0, j 1, eq_ix2 j⟩
  unfold k5_pay1
  simp only [shapeCast_self]
  exact linBodySum_at dot_S5000x128_S128x64_S5000x64_1_0_0_1_n_n rfl rfl rfl rfl rfl rfl broadcasts_S1x64_S5000x64 bitsLt_bf16_f32 x0 x1 x2 r q

/-- The index maps over the grid: the row-blocked input moves with the output along the rows, the weights and the
    bias stay at the origin, and the output's row-block number is at most 9. -/
theorem idx_facts5 : ∀ t : Fin cfg5.N,
    win5_0.index t (0 : Fin 2) = win5_3.index t (0 : Fin 2) ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (1 : Fin 2) = 0 ∧ win5_3.index t (0 : Fin 2) ≤ 9 :=
  (by decide +kernel : ∀ t : Fin grid5.N, _)

/-- Every row block is some point's. -/
theorem idx_onto5 : ∀ q0 : Fin 10, ∃ t : Fin cfg5.N, win5_3.index t = ![q0.val, 0] :=
  (by decide +kernel : ∀ q0 : Fin 10, ∃ t : Fin grid5.N, win5_3.index t = ![q0.val, 0])

set_option maxHeartbeats 1600000 in
/-- What point `t` writes back is block `t` of the dense layer of the arrays as the region finds them. -/
theorem flushed5 (c : Dev nD) (t : Fin cfg5.N) :
    (dat5 V c).flushed 3 t = ((cfg5.win 3).blk t).view.read (Elt Ideal) (linVal false (V c main_v74) (V c main_arg7) (V c main_v75)) := by
  show (cfg5.win 3).cut (grid5.coords t) ((dat5 V c).after 3 t) = _
  rw [after5_3]
  unfold out5_3
  rw [View.canon_unit_zero hz2_5]
  simp only [View.ld_unit_zero (S := S5000x128) hz2_5, View.ld_unit_zero (S := S128x64) hz2_5, View.ld_unit_zero (S := S1x64) hz2_5, View.ld_unit_zero (S := S5000x64) hz2_5]
  obtain ⟨e00, e01, e10, e11, e20, e21, e31, e30⟩ := idx_facts5 t
  funext j
  show k5_pay1 (iblk5 V c 0 t) (iblk5 V c 1 t) (iblk5 V c 2 t) j
    = linAt false (V c main_v74) (V c main_arg7) (V c main_v75)
        ((((cfg5.win 3).blk t).view.emb j) 0) ((((cfg5.win 3).blk t).view.emb j) 1)
  refine (pay5_at (iblk5 V c 0 t) (iblk5 V c 1 t) (iblk5 V c 2 t) j).trans ?_
  refine linAt_congr false _ _ _ _ _ _ (j 0) (j 1) _ _ (fun k => ?_) (fun k => ?_) ?_
  · show V c main_v74 (((cfg5.win 0).blk t).view.emb (ix2 (j 0) k)) = V c main_v74 (ix2 ((((cfg5.win 3).blk t).view.emb j) 0) k)
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * k.val = k.val; omega
  · show V c main_arg7 (((cfg5.win 1).blk t).view.emb (ix2 k (j 1))) = V c main_arg7 (ix2 k ((((cfg5.win 3).blk t).view.emb j) 1))
    refine congrArg _ (funext fun a => Fin.ext ?_)
    match a with
    | ⟨0, _⟩ => show win5_1.index t (0 : Fin 2) * 128 + 1 * k.val = k.val; omega
    | ⟨1, _⟩ => show win5_1.index t (1 : Fin 2) * 64 + 1 * (j 1).val = win5_3.index t (1 : Fin 2) * 64 + 1 * (j 1).val; omega
  · show V c main_v75 (((cfg5.win 2).blk t).view.emb (ix2 0 (j 1))) = V c main_v75 (ix2 0 ((((cfg5.win 3).blk t).view.emb j) 1))
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega

/-- An index of the output array is in point `t`'s block iff each coordinate is in the block's range. -/
theorem mem_blk5 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v76).slice (win5_3.rect t)).set ↔ _
  rw [View.set_slice_whole, Rect.mem_set_unit]
  exact Iff.rfl

/-- The ten row blocks cover the output: row `i` is in block `i / 5000`. -/
theorem cover5 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega

/-- The output array after the region: the dense layer of the arrays as the region finds them. -/
theorem final5 (c : Dev nD) : (dat5 V c).arrAt 3 cfg5.N = (linVal false (V c main_v74) (V c main_arg7) (V c main_v75)) :=
  (dat5 V c).arrAt_eq_of_cover 3 _ (fun t _ => flushed5 V c t) cover5

end Cert.SageNet.K

end
-- ==== Proof.RefStages.lean ====
/-
  The reference program's host operations as stage functions of @main's arguments.

  One definition per operation, in program order: the value the operation writes, as a function of the arguments it
  depends on, each stage built from the stages of its operands (so a value several later operations read is named
  once). x0 are the node features, x1 the edge list, x2 / x3 / x4 the stacked neighbour weights, root weights and
  biases of the three graph layers, x5 / x6 the stacked weights and biases of the two hidden dense layers, x7 / x8 the
  output layer's. Stages 16/19 (65/68, 114/117) are the gather by source and the scatter-add by destination of a
  round, 23 (72, 121) the neighbour counts, 39 / 52 / 88 / 101 / 132 / 136 the six layers' outputs.
-/
import proofs.«159729_j13743895347603_1_alg».proof.Proof.Gen.ReferenceIdeal
import Idealize.ShloMosaic.Lib.Pipeline.Value
import Idealize.ShloMosaic.Lib.ValueIdx
import Idealize.ShloMosaic.PureOps.Ideal.Laws

noncomputable section

namespace Cert.SageNet.RefStage

open Cert.ReferenceIdeal Cert.ReferenceIdeal.Gen Idealize.ShloMosaic Idealize.ShloMosaic.TcCoe Idealize.SL.Sem Idealize.ShloMosaic.StableHlo

variable {F : FTy → Type} [FloatOps F]

def val_main_v0 (x1 : (⟨S2x800000, .i32⟩ : BufTy).Contents (Elt F)) : (⟨S1x800000, .i32⟩ : BufTy).Contents (Elt F) :=
  extractStridedSlice S1x800000 ![0, 0] (x1) slices_S2x800000_S1x800000_0_0

def val_main_v1 (x1 : (⟨S2x800000, .i32⟩ : BufTy).Contents (Elt F)) : (⟨S800000, .i32⟩ : BufTy).Contents (Elt F) :=
  shapeCast _ (val_main_v0 (F := F) x1) shapeCasts_S1x800000_S800000

def val_main_v2 (x1 : (⟨S2x800000, .i32⟩ : BufTy).Contents (Elt F)) : (⟨S1x800000, .i32⟩ : BufTy).Contents (Elt F) :=
  extractStridedSlice S1x800000 ![1, 0] (x1) slices_S2x800000_S1x800000_1_0

def val_main_v3 (x1 : (⟨S2x800000, .i32⟩ : BufTy).Contents (Elt F)) : (⟨S800000, .i32⟩ : BufTy).Contents (Elt F) :=
  shapeCast _ (val_main_v2 (F := F) x1) shapeCasts_S1x800000_S800000

def val_main_v4 (x2 : (⟨S3x128x128, .f32⟩ : BufTy).Contents (Elt F)) : (⟨S1x128x128, .f32⟩ : BufTy).Contents (Elt F) :=
  extractStridedSlice S1x128x128 ![0, 0, 0] (x2) slices_S3x128x128_S1x128x128_0_0_0

def val_main_v5 (x2 : (⟨S3x128x128, .f32⟩ : BufTy).Contents (Elt F)) : (⟨S128x128, .f32⟩ : BufTy).Contents (Elt F) :=
  shapeCast _ (val_main_v4 (F := F) x2) shapeCasts_S1x128x128_S128x128

def val_main_v6 (x3 : (⟨S3x128x128, .f32⟩ : BufTy).Contents (Elt F)) : (⟨S1x128x128, .f32⟩ : BufTy).Contents (Elt F) :=
  extractStridedSlice S1x128x128 ![0, 0, 0] (x3) slices_S3x128x128_S1x128x128_0_0_0

def val_main_v7 (x3 : (⟨S3x128x128, .f32⟩ : BufTy).Contents (Elt F)) : (⟨S128x128, .f32⟩ : BufTy).Contents (Elt F) :=
  shapeCast _ (val_main_v6 (F := F) x3) shapeCasts_S1x128x128_S128x128

def val_main_v8 (x4 : (⟨S3x128, .f32⟩ : BufTy).Contents (Elt F)) : (⟨S1x128, .f32⟩ : BufTy).Contents (Elt F) :=
  extractStridedSlice S1x128 ![0, 0] (x4) slices_S3x128_S1x128_0_0

def val_main_v9 (x4 : (⟨S3x128, .f32⟩ : BufTy).Contents (Elt F)) : (⟨S128, .f32⟩ : BufTy).Contents (Elt F) :=
  shapeCast _ (val_main_v8 (F := F) x4) shapeCasts_S1x128_S128

def val_main_c : (⟨S_, .i32⟩ : BufTy).Contents (Elt F) :=
  constantI S_ 32 0#32

def val_main_v10 : (⟨S800000, .i32⟩ : BufTy).Contents (Elt F) :=
  broadcastInDim S800000 ![] bcast_S_S800000 (val_main_c (F := F))

def val_main_v11 (x1 : (⟨S2x800000, .i32⟩ : BufTy).Contents (Elt F)) : (⟨S800000, .i1⟩ : BufTy).Contents (Elt F) :=
  cmpi .slt (val_main_v1 (F := F) x1) (val_main_v10 (F := F))

def val_main_c_0 : (⟨S_, .i32⟩ : BufTy).Contents (Elt F) :=
  constantI S_ 32 50000#32

def val_main_v12 : (⟨S800000, .i32⟩ : BufTy).Contents (Elt F) :=
  broadcastInDim S800000 ![] bcast_S_S800000 (val_main_c_0 (F := F))

def val_main_v13 (x1 : (⟨S2x800000, .i32⟩ : BufTy).Contents (Elt F)) : (⟨S800000, .i32⟩ : BufTy).Contents (Elt F) :=
  addi (val_main_v1 (F := F) x1) (val_main_v12 (F := F))

def val_main_v14 (x1 : (⟨S2x800000, .i32⟩ : BufTy).Contents (Elt F)) : (⟨S800000, .i32⟩ : BufTy).Contents (Elt F) :=
  select (val_main_v11 (F := F) x1) (val_main_v13 (F := F) x1) (val_main_v1 (F := F) x1)

def val_main_v15 (x1 : (⟨S2x800000, .i32⟩ : BufTy).Contents (Elt F)) : (⟨S800000x1, .i32⟩ : BufTy).Contents (Elt F) :=
  broadcastInDim S800000x1 ![0] bcast_S800000_S800000x1_0 (val_main_v14 (F := F) x1)

def val_main_v16 (x0 : (⟨S50000x128, .f32⟩ : BufTy).Contents (Elt F)) (x1 : (⟨S2x800000, .i32⟩ : BufTy).Contents (Elt F)) : (⟨S800000x128, .f32⟩ : BufTy).Contents (Elt F) :=
  Host.gather gather_S50000x128_S800000x1_S800000x128_1_0_n_n_0_1_1128 (x0) (val_main_v15 (F := F) x1)

def val_main_cst : (⟨S_, .f32⟩ : BufTy).Contents (Elt F) :=
  constant S_ .f32 0x00000000#32

def val_main_v17 : (⟨S50000x128, .f32⟩ : BufTy).Contents (Elt F) :=
  broadcastInDim S50000x128 ![] bcast_S_S50000x128 (val_main_cst (F := F))

def val_main_v18 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v19 (x0 : (⟨S50000x128, .f32⟩ : BufTy).Contents (Elt F)) (x1 : (⟨S2x800000, .i32⟩ : BufTy).Contents (Elt F)) : (⟨S50000x128, .f32⟩ : BufTy).Contents (Elt F) :=
  Host.scatterAdd scatter_S50000x128_S800000x1_S800000x128_1_0_0_1 (val_main_v17 (F := F)) (val_main_v18 (F := F) x1) (val_main_v16 (F := F) x0 x1)

def val_main_cst_1 : (⟨S_, .f32⟩ : BufTy).Contents (Elt F) :=
  constant S_ .f32 0x3F800000#32

def val_main_v20 : (⟨S800000, .f32⟩ : BufTy).Contents (Elt F) :=
  broadcastInDim S800000 ![] bcast_S_S800000 (val_main_cst_1 (F := F))

def val_main_cst_2 : (⟨S_, .f32⟩ : BufTy).Contents (Elt F) :=
  constant S_ .f32 0x00000000#32

def val_main_v21 : (⟨S50000, .f32⟩ : BufTy).Contents (Elt F) :=
  broadcastInDim S50000 ![] bcast_S_S50000 (val_main_cst_2 (F := F))

def val_main_v22 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v23 (x1 : (⟨S2x800000, .i32⟩ : BufTy).Contents (Elt F)) : (⟨S50000, .f32⟩ : BufTy).Contents (Elt F) :=
  Host.scatterAdd scatter_S50000_S800000x1_S800000_n_0_0_1 (val_main_v21 (F := F)) (val_main_v22 (F := F) x1) (val_main_v20 (F := F))

def val_main_cst_3 : (⟨S_, .f32⟩ : BufTy).Contents (Elt F) :=
  constant S_ .f32 0x3F800000#32

def val_main_v24 : (⟨S50000, .f32⟩ : BufTy).Contents (Elt F) :=
  broadcastInDim S50000 ![] bcast_S_S50000 (val_main_cst_3 (F := F))

def val_main_v25 (x1 : (⟨S2x800000, .i32⟩ : BufTy).Contents (Elt F)) : (⟨S50000, .f32⟩ : BufTy).Contents (Elt F) :=
  maximumf (val_main_v23 (F := F) x1) (val_main_v24 (F := F))

def val_main_v26 (x1 : (⟨S2x800000, .i32⟩ : BufTy).Contents (Elt F)) : (⟨S50000x1, .f32⟩ : BufTy).Contents (Elt F) :=
  broadcastInDim S50000x1 ![0] bcast_S50000_S50000x1_0 (val_main_v25 (F := F) x1)

def val_main_v27 (x1 : (⟨S2x800000, .i32⟩ : BufTy).Contents (Elt F)) : (⟨S50000x128, .f32⟩ : BufTy).Contents (Elt F) :=
  broadcastInDim S50000x128 ![0, 1] bcast_S50000x1_S50000x128_0_1 (val_main_v26 (F := F) x1)

def val_main_v28 (x0 : (⟨S50000x128, .f32⟩ : BufTy).Contents (Elt F)) (x1 : (⟨S2x800000, .i32⟩ : BufTy).Contents (Elt F)) : (⟨S50000x128, .f32⟩ : BufTy).Contents (Elt F) :=
  Host.divf (val_main_v19 (F := F) x0 x1) (val_main_v27 (F := F) x1)

def val_main_v29 (x0 : (⟨S50000x128, .f32⟩ : BufTy).Contents (Elt F)) (x1 : (⟨S2x800000, .i32⟩ : BufTy).Contents (Elt F)) (x2 : (⟨S3x128x128, .f32⟩ : BufTy).Contents (Elt F)) : (⟨S50000x128, .f32⟩ : BufTy).Contents (Elt F) :=
  Host.dotGeneral dot_S50000x128_S128x128_S50000x128_1_0_0_1_n_n none (val_main_v28 (F := F) x0 x1) (val_main_v5 (F := F) x2)

def val_main_v30 (x0 : (⟨S50000x128, .f32⟩ : BufTy).Contents (Elt F)) (x3 : (⟨S3x128x128, .f32⟩ : BufTy).Contents (Elt F)) : (⟨S50000x128, .f32⟩ : BufTy).Contents (Elt F) :=
  Host.dotGeneral dot_S50000x128_S128x128_S50000x128_1_0_0_1_n_n none (x0) (val_main_v7 (F := F) x3)

def val_main_v31 (x0 : (⟨S50000x128, .f32⟩ : BufTy).Contents (Elt F)) (x1 : (⟨S2x800000, .i32⟩ : BufTy).Contents (Elt F)) (x2 x3 : (⟨S3x128x128, .f32⟩ : BufTy).Contents (Elt F)) : (⟨S50000x128, .f32⟩ : BufTy).Contents (Elt F) :=
  addf (val_main_v29 (F := F) x0 x1 x2) (val_main_v30 (F := F) x0 x3)

def val_main_v32 (x4 : (⟨S3x128, .f32⟩ : BufTy).Contents (Elt F)) : (⟨S1x128, .f32⟩ : BufTy).Contents (Elt F) :=
  broadcastInDim S1x128 ![1] bcast_S128_S1x128_1 (val_main_v9 (F := F) x4)

def val_main_v33 (x4 : (⟨S3x128, .f32⟩ : BufTy).Contents (Elt F)) : (⟨S50000x128, .f32⟩ : BufTy).Contents (Elt F) :=
  broadcastInDim S50000x128 ![0, 1] bcast_S1x128_S50000x128_0_1 (val_main_v32 (F := F) x4)

def val_main_v34 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) : (⟨S50000x128, .f32⟩ : BufTy).Contents (Elt F) :=
  addf (val_main_v31 (F := F) x0 x1 x2 x3) (val_main_v33 (F := F) x4)

def val_main_cst_4 : (⟨S_, .f32⟩ : BufTy).Contents (Elt F) :=
  constant S_ .f32 0x00000000#32

def val_main_v35 : (⟨S50000x128, .f32⟩ : BufTy).Contents (Elt F) :=
  broadcastInDim S50000x128 ![] bcast_S_S50000x128 (val_main_cst_4 (F := F))

def val_main_v36 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) : (⟨S50000x128, .i1⟩ : BufTy).Contents (Elt F) :=
  cmpf .ogt (val_main_v34 (F := F) x0 x1 x2 x3 x4) (val_main_v35 (F := F))

def val_main_cst_5 : (⟨S_, .f32⟩ : BufTy).Contents (Elt F) :=
  constant S_ .f32 0x3DCCCCCD#32

def val_main_v37 : (⟨S50000x128, .f32⟩ : BufTy).Contents (Elt F) :=
  broadcastInDim S50000x128 ![] bcast_S_S50000x128 (val_main_cst_5 (F := F))

def val_main_v38 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) : (⟨S50000x128, .f32⟩ : BufTy).Contents (Elt F) :=
  mulf (val_main_v37 (F := F)) (val_main_v34 (F := F) x0 x1 x2 x3 x4)

def val_main_v39 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) : (⟨S50000x128, .f32⟩ : BufTy).Contents (Elt F) :=
  select (val_main_v36 (F := F) x0 x1 x2 x3 x4) (val_main_v34 (F := F) x0 x1 x2 x3 x4) (val_main_v38 (F := F) x0 x1 x2 x3 x4)

def val_main_v40 (x5 : (⟨S2x128x128, .f32⟩ : BufTy).Contents (Elt F)) : (⟨S1x128x128, .f32⟩ : BufTy).Contents (Elt F) :=
  extractStridedSlice S1x128x128 ![0, 0, 0] (x5) slices_S2x128x128_S1x128x128_0_0_0

def val_main_v41 (x5 : (⟨S2x128x128, .f32⟩ : BufTy).Contents (Elt F)) : (⟨S128x128, .f32⟩ : BufTy).Contents (Elt F) :=
  shapeCast _ (val_main_v40 (F := F) x5) shapeCasts_S1x128x128_S128x128

def val_main_v42 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) : (⟨S50000x128, .f32⟩ : BufTy).Contents (Elt F) :=
  Host.dotGeneral dot_S50000x128_S128x128_S50000x128_1_0_0_1_n_n none (val_main_v39 (F := F) x0 x1 x2 x3 x4) (val_main_v41 (F := F) x5)

def val_main_v43 (x6 : (⟨S2x128, .f32⟩ : BufTy).Contents (Elt F)) : (⟨S1x128, .f32⟩ : BufTy).Contents (Elt F) :=
  extractStridedSlice S1x128 ![0, 0] (x6) slices_S2x128_S1x128_0_0

def val_main_v44 (x6 : (⟨S2x128, .f32⟩ : BufTy).Contents (Elt F)) : (⟨S128, .f32⟩ : BufTy).Contents (Elt F) :=
  shapeCast _ (val_main_v43 (F := F) x6) shapeCasts_S1x128_S128

def val_main_v45 (x6 : (⟨S2x128, .f32⟩ : BufTy).Contents (Elt F)) : (⟨S1x128, .f32⟩ : BufTy).Contents (Elt F) :=
  broadcastInDim S1x128 ![1] bcast_S128_S1x128_1 (val_main_v44 (F := F) x6)

def val_main_v46 (x6 : (⟨S2x128, .f32⟩ : BufTy).Contents (Elt F)) : (⟨S50000x128, .f32⟩ : BufTy).Contents (Elt F) :=
  broadcastInDim S50000x128 ![0, 1] bcast_S1x128_S50000x128_0_1 (val_main_v45 (F := F) x6)

def val_main_v47 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  addf (val_main_v42 (F := F) x0 x1 x2 x3 x4 x5) (val_main_v46 (F := F) x6)

def val_main_cst_6 : (⟨S_, .f32⟩ : BufTy).Contents (Elt F) :=
  constant S_ .f32 0x00000000#32

def val_main_v48 : (⟨S50000x128, .f32⟩ : BufTy).Contents (Elt F) :=
  broadcastInDim S50000x128 ![] bcast_S_S50000x128 (val_main_cst_6 (F := F))

def val_main_v49 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .i1⟩ : BufTy).Contents (Elt F) :=
  cmpf .ogt (val_main_v47 (F := F) x0 x1 x2 x3 x4 x5 x6) (val_main_v48 (F := F))

def val_main_cst_7 : (⟨S_, .f32⟩ : BufTy).Contents (Elt F) :=
  constant S_ .f32 0x3DCCCCCD#32

def val_main_v50 : (⟨S50000x128, .f32⟩ : BufTy).Contents (Elt F) :=
  broadcastInDim S50000x128 ![] bcast_S_S50000x128 (val_main_cst_7 (F := F))

def val_main_v51 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  mulf (val_main_v50 (F := F)) (val_main_v47 (F := F) x0 x1 x2 x3 x4 x5 x6)

def val_main_v52 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  select (val_main_v49 (F := F) x0 x1 x2 x3 x4 x5 x6) (val_main_v47 (F := F) x0 x1 x2 x3 x4 x5 x6) (val_main_v51 (F := F) x0 x1 x2 x3 x4 x5 x6)

def val_main_v53 (x2 : (⟨S3x128x128, .f32⟩ : BufTy).Contents (Elt F)) : (⟨S1x128x128, .f32⟩ : BufTy).Contents (Elt F) :=
  extractStridedSlice S1x128x128 ![1, 0, 0] (x2) slices_S3x128x128_S1x128x128_1_0_0

def val_main_v54 (x2 : (⟨S3x128x128, .f32⟩ : BufTy).Contents (Elt F)) : (⟨S128x128, .f32⟩ : BufTy).Contents (Elt F) :=
  shapeCast _ (val_main_v53 (F := F) x2) shapeCasts_S1x128x128_S128x128

def val_main_v55 (x3 : (⟨S3x128x128, .f32⟩ : BufTy).Contents (Elt F)) : (⟨S1x128x128, .f32⟩ : BufTy).Contents (Elt F) :=
  extractStridedSlice S1x128x128 ![1, 0, 0] (x3) slices_S3x128x128_S1x128x128_1_0_0

def val_main_v56 (x3 : (⟨S3x128x128, .f32⟩ : BufTy).Contents (Elt F)) : (⟨S128x128, .f32⟩ : BufTy).Contents (Elt F) :=
  shapeCast _ (val_main_v55 (F := F) x3) shapeCasts_S1x128x128_S128x128

def val_main_v57 (x4 : (⟨S3x128, .f32⟩ : BufTy).Contents (Elt F)) : (⟨S1x128, .f32⟩ : BufTy).Contents (Elt F) :=
  extractStridedSlice S1x128 ![1, 0] (x4) slices_S3x128_S1x128_1_0

def val_main_v58 (x4 : (⟨S3x128, .f32⟩ : BufTy).Contents (Elt F)) : (⟨S128, .f32⟩ : BufTy).Contents (Elt F) :=
  shapeCast _ (val_main_v57 (F := F) x4) shapeCasts_S1x128_S128

def val_main_c_8 : (⟨S_, .i32⟩ : BufTy).Contents (Elt F) :=
  constantI S_ 32 0#32

def val_main_v59 : (⟨S800000, .i32⟩ : BufTy).Contents (Elt F) :=
  broadcastInDim S800000 ![] bcast_S_S800000 (val_main_c_8 (F := F))

def val_main_v60 (x1 : (⟨S2x800000, .i32⟩ : BufTy).Contents (Elt F)) : (⟨S800000, .i1⟩ : BufTy).Contents (Elt F) :=
  cmpi .slt (val_main_v1 (F := F) x1) (val_main_v59 (F := F))

def val_main_c_9 : (⟨S_, .i32⟩ : BufTy).Contents (Elt F) :=
  constantI S_ 32 50000#32

def val_main_v61 : (⟨S800000, .i32⟩ : BufTy).Contents (Elt F) :=
  broadcastInDim S800000 ![] bcast_S_S800000 (val_main_c_9 (F := F))

def val_main_v62 (x1 : (⟨S2x800000, .i32⟩ : BufTy).Contents (Elt F)) : (⟨S800000, .i32⟩ : BufTy).Contents (Elt F) :=
  addi (val_main_v1 (F := F) x1) (val_main_v61 (F := F))

def val_main_v63 (x1 : (⟨S2x800000, .i32⟩ : BufTy).Contents (Elt F)) : (⟨S800000, .i32⟩ : BufTy).Contents (Elt F) :=
  select (val_main_v60 (F := F) x1) (val_main_v62 (F := F) x1) (val_main_v1 (F := F) x1)

def val_main_v64 (x1 : (⟨S2x800000, .i32⟩ : BufTy).Contents (Elt F)) : (⟨S800000x1, .i32⟩ : BufTy).Contents (Elt F) :=
  broadcastInDim S800000x1 ![0] bcast_S800000_S800000x1_0 (val_main_v63 (F := F) x1)

def val_main_v65 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S800000x128, .f32⟩ : BufTy).Contents (Elt F) :=
  Host.gather gather_S50000x128_S800000x1_S800000x128_1_0_n_n_0_1_1128 (val_main_v52 (F := F) x0 x1 x2 x3 x4 x5 x6) (val_main_v64 (F := F) x1)

def val_main_cst_10 : (⟨S_, .f32⟩ : BufTy).Contents (Elt F) :=
  constant S_ .f32 0x00000000#32

def val_main_v66 : (⟨S50000x128, .f32⟩ : BufTy).Contents (Elt F) :=
  broadcastInDim S50000x128 ![] bcast_S_S50000x128 (val_main_cst_10 (F := F))

def val_main_v67 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v68 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.scatterAdd scatter_S50000x128_S800000x1_S800000x128_1_0_0_1 (val_main_v66 (F := F)) (val_main_v67 (F := F) x1) (val_main_v65 (F := F) x0 x1 x2 x3 x4 x5 x6)

def val_main_cst_11 : (⟨S_, .f32⟩ : BufTy).Contents (Elt F) :=
  constant S_ .f32 0x3F800000#32

def val_main_v69 : (⟨S800000, .f32⟩ : BufTy).Contents (Elt F) :=
  broadcastInDim S800000 ![] bcast_S_S800000 (val_main_cst_11 (F := F))

def val_main_cst_12 : (⟨S_, .f32⟩ : BufTy).Contents (Elt F) :=
  constant S_ .f32 0x00000000#32

def val_main_v70 : (⟨S50000, .f32⟩ : BufTy).Contents (Elt F) :=
  broadcastInDim S50000 ![] bcast_S_S50000 (val_main_cst_12 (F := F))

def val_main_v71 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v72 (x1 : (⟨S2x800000, .i32⟩ : BufTy).Contents (Elt F)) : (⟨S50000, .f32⟩ : BufTy).Contents (Elt F) :=
  Host.scatterAdd scatter_S50000_S800000x1_S800000_n_0_0_1 (val_main_v70 (F := F)) (val_main_v71 (F := F) x1) (val_main_v69 (F := F))

def val_main_cst_13 : (⟨S_, .f32⟩ : BufTy).Contents (Elt F) :=
  constant S_ .f32 0x3F800000#32

def val_main_v73 : (⟨S50000, .f32⟩ : BufTy).Contents (Elt F) :=
  broadcastInDim S50000 ![] bcast_S_S50000 (val_main_cst_13 (F := F))

def val_main_v74 (x1 : (⟨S2x800000, .i32⟩ : BufTy).Contents (Elt F)) : (⟨S50000, .f32⟩ : BufTy).Contents (Elt F) :=
  maximumf (val_main_v72 (F := F) x1) (val_main_v73 (F := F))

def val_main_v75 (x1 : (⟨S2x800000, .i32⟩ : BufTy).Contents (Elt F)) : (⟨S50000x1, .f32⟩ : BufTy).Contents (Elt F) :=
  broadcastInDim S50000x1 ![0] bcast_S50000_S50000x1_0 (val_main_v74 (F := F) x1)

def val_main_v76 (x1 : (⟨S2x800000, .i32⟩ : BufTy).Contents (Elt F)) : (⟨S50000x128, .f32⟩ : BufTy).Contents (Elt F) :=
  broadcastInDim S50000x128 ![0, 1] bcast_S50000x1_S50000x128_0_1 (val_main_v75 (F := F) x1)

def val_main_v77 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.divf (val_main_v68 (F := F) x0 x1 x2 x3 x4 x5 x6) (val_main_v76 (F := F) x1)

def val_main_v78 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.dotGeneral dot_S50000x128_S128x128_S50000x128_1_0_0_1_n_n none (val_main_v77 (F := F) x0 x1 x2 x3 x4 x5 x6) (val_main_v54 (F := F) x2)

def val_main_v79 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.dotGeneral dot_S50000x128_S128x128_S50000x128_1_0_0_1_n_n none (val_main_v52 (F := F) x0 x1 x2 x3 x4 x5 x6) (val_main_v56 (F := F) x3)

def val_main_v80 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  addf (val_main_v78 (F := F) x0 x1 x2 x3 x4 x5 x6) (val_main_v79 (F := F) x0 x1 x2 x3 x4 x5 x6)

def val_main_v81 (x4 : (⟨S3x128, .f32⟩ : BufTy).Contents (Elt F)) : (⟨S1x128, .f32⟩ : BufTy).Contents (Elt F) :=
  broadcastInDim S1x128 ![1] bcast_S128_S1x128_1 (val_main_v58 (F := F) x4)

def val_main_v82 (x4 : (⟨S3x128, .f32⟩ : BufTy).Contents (Elt F)) : (⟨S50000x128, .f32⟩ : BufTy).Contents (Elt F) :=
  broadcastInDim S50000x128 ![0, 1] bcast_S1x128_S50000x128_0_1 (val_main_v81 (F := F) x4)

def val_main_v83 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  addf (val_main_v80 (F := F) x0 x1 x2 x3 x4 x5 x6) (val_main_v82 (F := F) x4)

def val_main_cst_14 : (⟨S_, .f32⟩ : BufTy).Contents (Elt F) :=
  constant S_ .f32 0x00000000#32

def val_main_v84 : (⟨S50000x128, .f32⟩ : BufTy).Contents (Elt F) :=
  broadcastInDim S50000x128 ![] bcast_S_S50000x128 (val_main_cst_14 (F := F))

def val_main_v85 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .i1⟩ : BufTy).Contents (Elt F) :=
  cmpf .ogt (val_main_v83 (F := F) x0 x1 x2 x3 x4 x5 x6) (val_main_v84 (F := F))

def val_main_cst_15 : (⟨S_, .f32⟩ : BufTy).Contents (Elt F) :=
  constant S_ .f32 0x3DCCCCCD#32

def val_main_v86 : (⟨S50000x128, .f32⟩ : BufTy).Contents (Elt F) :=
  broadcastInDim S50000x128 ![] bcast_S_S50000x128 (val_main_cst_15 (F := F))

def val_main_v87 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  mulf (val_main_v86 (F := F)) (val_main_v83 (F := F) x0 x1 x2 x3 x4 x5 x6)

def val_main_v88 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  select (val_main_v85 (F := F) x0 x1 x2 x3 x4 x5 x6) (val_main_v83 (F := F) x0 x1 x2 x3 x4 x5 x6) (val_main_v87 (F := F) x0 x1 x2 x3 x4 x5 x6)

def val_main_v89 (x5 : (⟨S2x128x128, .f32⟩ : BufTy).Contents (Elt F)) : (⟨S1x128x128, .f32⟩ : BufTy).Contents (Elt F) :=
  extractStridedSlice S1x128x128 ![1, 0, 0] (x5) slices_S2x128x128_S1x128x128_1_0_0

def val_main_v90 (x5 : (⟨S2x128x128, .f32⟩ : BufTy).Contents (Elt F)) : (⟨S128x128, .f32⟩ : BufTy).Contents (Elt F) :=
  shapeCast _ (val_main_v89 (F := F) x5) shapeCasts_S1x128x128_S128x128

def val_main_v91 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.dotGeneral dot_S50000x128_S128x128_S50000x128_1_0_0_1_n_n none (val_main_v88 (F := F) x0 x1 x2 x3 x4 x5 x6) (val_main_v90 (F := F) x5)

def val_main_v92 (x6 : (⟨S2x128, .f32⟩ : BufTy).Contents (Elt F)) : (⟨S1x128, .f32⟩ : BufTy).Contents (Elt F) :=
  extractStridedSlice S1x128 ![1, 0] (x6) slices_S2x128_S1x128_1_0

def val_main_v93 (x6 : (⟨S2x128, .f32⟩ : BufTy).Contents (Elt F)) : (⟨S128, .f32⟩ : BufTy).Contents (Elt F) :=
  shapeCast _ (val_main_v92 (F := F) x6) shapeCasts_S1x128_S128

def val_main_v94 (x6 : (⟨S2x128, .f32⟩ : BufTy).Contents (Elt F)) : (⟨S1x128, .f32⟩ : BufTy).Contents (Elt F) :=
  broadcastInDim S1x128 ![1] bcast_S128_S1x128_1 (val_main_v93 (F := F) x6)

def val_main_v95 (x6 : (⟨S2x128, .f32⟩ : BufTy).Contents (Elt F)) : (⟨S50000x128, .f32⟩ : BufTy).Contents (Elt F) :=
  broadcastInDim S50000x128 ![0, 1] bcast_S1x128_S50000x128_0_1 (val_main_v94 (F := F) x6)

def val_main_v96 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  addf (val_main_v91 (F := F) x0 x1 x2 x3 x4 x5 x6) (val_main_v95 (F := F) x6)

def val_main_cst_16 : (⟨S_, .f32⟩ : BufTy).Contents (Elt F) :=
  constant S_ .f32 0x00000000#32

def val_main_v97 : (⟨S50000x128, .f32⟩ : BufTy).Contents (Elt F) :=
  broadcastInDim S50000x128 ![] bcast_S_S50000x128 (val_main_cst_16 (F := F))

def val_main_v98 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .i1⟩ : BufTy).Contents (Elt F) :=
  cmpf .ogt (val_main_v96 (F := F) x0 x1 x2 x3 x4 x5 x6) (val_main_v97 (F := F))

def val_main_cst_17 : (⟨S_, .f32⟩ : BufTy).Contents (Elt F) :=
  constant S_ .f32 0x3DCCCCCD#32

def val_main_v99 : (⟨S50000x128, .f32⟩ : BufTy).Contents (Elt F) :=
  broadcastInDim S50000x128 ![] bcast_S_S50000x128 (val_main_cst_17 (F := F))

def val_main_v100 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  mulf (val_main_v99 (F := F)) (val_main_v96 (F := F) x0 x1 x2 x3 x4 x5 x6)

def val_main_v101 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  select (val_main_v98 (F := F) x0 x1 x2 x3 x4 x5 x6) (val_main_v96 (F := F) x0 x1 x2 x3 x4 x5 x6) (val_main_v100 (F := F) x0 x1 x2 x3 x4 x5 x6)

def val_main_v102 (x2 : (⟨S3x128x128, .f32⟩ : BufTy).Contents (Elt F)) : (⟨S1x128x128, .f32⟩ : BufTy).Contents (Elt F) :=
  extractStridedSlice S1x128x128 ![2, 0, 0] (x2) slices_S3x128x128_S1x128x128_2_0_0

def val_main_v103 (x2 : (⟨S3x128x128, .f32⟩ : BufTy).Contents (Elt F)) : (⟨S128x128, .f32⟩ : BufTy).Contents (Elt F) :=
  shapeCast _ (val_main_v102 (F := F) x2) shapeCasts_S1x128x128_S128x128

def val_main_v104 (x3 : (⟨S3x128x128, .f32⟩ : BufTy).Contents (Elt F)) : (⟨S1x128x128, .f32⟩ : BufTy).Contents (Elt F) :=
  extractStridedSlice S1x128x128 ![2, 0, 0] (x3) slices_S3x128x128_S1x128x128_2_0_0

def val_main_v105 (x3 : (⟨S3x128x128, .f32⟩ : BufTy).Contents (Elt F)) : (⟨S128x128, .f32⟩ : BufTy).Contents (Elt F) :=
  shapeCast _ (val_main_v104 (F := F) x3) shapeCasts_S1x128x128_S128x128

def val_main_v106 (x4 : (⟨S3x128, .f32⟩ : BufTy).Contents (Elt F)) : (⟨S1x128, .f32⟩ : BufTy).Contents (Elt F) :=
  extractStridedSlice S1x128 ![2, 0] (x4) slices_S3x128_S1x128_2_0

def val_main_v107 (x4 : (⟨S3x128, .f32⟩ : BufTy).Contents (Elt F)) : (⟨S128, .f32⟩ : BufTy).Contents (Elt F) :=
  shapeCast _ (val_main_v106 (F := F) x4) shapeCasts_S1x128_S128

def val_main_c_18 : (⟨S_, .i32⟩ : BufTy).Contents (Elt F) :=
  constantI S_ 32 0#32

def val_main_v108 : (⟨S800000, .i32⟩ : BufTy).Contents (Elt F) :=
  broadcastInDim S800000 ![] bcast_S_S800000 (val_main_c_18 (F := F))

def val_main_v109 (x1 : (⟨S2x800000, .i32⟩ : BufTy).Contents (Elt F)) : (⟨S800000, .i1⟩ : BufTy).Contents (Elt F) :=
  cmpi .slt (val_main_v1 (F := F) x1) (val_main_v108 (F := F))

def val_main_c_19 : (⟨S_, .i32⟩ : BufTy).Contents (Elt F) :=
  constantI S_ 32 50000#32

def val_main_v110 : (⟨S800000, .i32⟩ : BufTy).Contents (Elt F) :=
  broadcastInDim S800000 ![] bcast_S_S800000 (val_main_c_19 (F := F))

def val_main_v111 (x1 : (⟨S2x800000, .i32⟩ : BufTy).Contents (Elt F)) : (⟨S800000, .i32⟩ : BufTy).Contents (Elt F) :=
  addi (val_main_v1 (F := F) x1) (val_main_v110 (F := F))

def val_main_v112 (x1 : (⟨S2x800000, .i32⟩ : BufTy).Contents (Elt F)) : (⟨S800000, .i32⟩ : BufTy).Contents (Elt F) :=
  select (val_main_v109 (F := F) x1) (val_main_v111 (F := F) x1) (val_main_v1 (F := F) x1)

def val_main_v113 (x1 : (⟨S2x800000, .i32⟩ : BufTy).Contents (Elt F)) : (⟨S800000x1, .i32⟩ : BufTy).Contents (Elt F) :=
  broadcastInDim S800000x1 ![0] bcast_S800000_S800000x1_0 (val_main_v112 (F := F) x1)

def val_main_v114 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S800000x128, .f32⟩ : BufTy).Contents (Elt F) :=
  Host.gather gather_S50000x128_S800000x1_S800000x128_1_0_n_n_0_1_1128 (val_main_v101 (F := F) x0 x1 x2 x3 x4 x5 x6) (val_main_v113 (F := F) x1)

def val_main_cst_20 : (⟨S_, .f32⟩ : BufTy).Contents (Elt F) :=
  constant S_ .f32 0x00000000#32

def val_main_v115 : (⟨S50000x128, .f32⟩ : BufTy).Contents (Elt F) :=
  broadcastInDim S50000x128 ![] bcast_S_S50000x128 (val_main_cst_20 (F := F))

def val_main_v116 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v117 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.scatterAdd scatter_S50000x128_S800000x1_S800000x128_1_0_0_1 (val_main_v115 (F := F)) (val_main_v116 (F := F) x1) (val_main_v114 (F := F) x0 x1 x2 x3 x4 x5 x6)

def val_main_cst_21 : (⟨S_, .f32⟩ : BufTy).Contents (Elt F) :=
  constant S_ .f32 0x3F800000#32

def val_main_v118 : (⟨S800000, .f32⟩ : BufTy).Contents (Elt F) :=
  broadcastInDim S800000 ![] bcast_S_S800000 (val_main_cst_21 (F := F))

def val_main_cst_22 : (⟨S_, .f32⟩ : BufTy).Contents (Elt F) :=
  constant S_ .f32 0x00000000#32

def val_main_v119 : (⟨S50000, .f32⟩ : BufTy).Contents (Elt F) :=
  broadcastInDim S50000 ![] bcast_S_S50000 (val_main_cst_22 (F := F))

def val_main_v120 (x1 : (⟨S2x800000, .i32⟩ : BufTy).Contents (Elt F)) : (⟨S800000x1, .i32⟩ : BufTy).Contents (Elt F) :=
  broadcastInDim S800000x1 ![0] bcast_S800000_S800000x1_0 (val_main_v3 (F := F) x1)

def val_main_v121 (x1 : (⟨S2x800000, .i32⟩ : BufTy).Contents (Elt F)) : (⟨S50000, .f32⟩ : BufTy).Contents (Elt F) :=
  Host.scatterAdd scatter_S50000_S800000x1_S800000_n_0_0_1 (val_main_v119 (F := F)) (val_main_v120 (F := F) x1) (val_main_v118 (F := F))

def val_main_cst_23 : (⟨S_, .f32⟩ : BufTy).Contents (Elt F) :=
  constant S_ .f32 0x3F800000#32

def val_main_v122 : (⟨S50000, .f32⟩ : BufTy).Contents (Elt F) :=
  broadcastInDim S50000 ![] bcast_S_S50000 (val_main_cst_23 (F := F))

def val_main_v123 (x1 : (⟨S2x800000, .i32⟩ : BufTy).Contents (Elt F)) : (⟨S50000, .f32⟩ : BufTy).Contents (Elt F) :=
  maximumf (val_main_v121 (F := F) x1) (val_main_v122 (F := F))

def val_main_v124 (x1 : (⟨S2x800000, .i32⟩ : BufTy).Contents (Elt F)) : (⟨S50000x1, .f32⟩ : BufTy).Contents (Elt F) :=
  broadcastInDim S50000x1 ![0] bcast_S50000_S50000x1_0 (val_main_v123 (F := F) x1)

def val_main_v125 (x1 : (⟨S2x800000, .i32⟩ : BufTy).Contents (Elt F)) : (⟨S50000x128, .f32⟩ : BufTy).Contents (Elt F) :=
  broadcastInDim S50000x128 ![0, 1] bcast_S50000x1_S50000x128_0_1 (val_main_v124 (F := F) x1)

def val_main_v126 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.divf (val_main_v117 (F := F) x0 x1 x2 x3 x4 x5 x6) (val_main_v125 (F := F) x1)

def val_main_v127 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.dotGeneral dot_S50000x128_S128x128_S50000x128_1_0_0_1_n_n none (val_main_v126 (F := F) x0 x1 x2 x3 x4 x5 x6) (val_main_v103 (F := F) x2)

def val_main_v128 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  Host.dotGeneral dot_S50000x128_S128x128_S50000x128_1_0_0_1_n_n none (val_main_v101 (F := F) x0 x1 x2 x3 x4 x5 x6) (val_main_v105 (F := F) x3)

def val_main_v129 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  addf (val_main_v127 (F := F) x0 x1 x2 x3 x4 x5 x6) (val_main_v128 (F := F) x0 x1 x2 x3 x4 x5 x6)

def val_main_v130 (x4 : (⟨S3x128, .f32⟩ : BufTy).Contents (Elt F)) : (⟨S1x128, .f32⟩ : BufTy).Contents (Elt F) :=
  broadcastInDim S1x128 ![1] bcast_S128_S1x128_1 (val_main_v107 (F := F) x4)

def val_main_v131 (x4 : (⟨S3x128, .f32⟩ : BufTy).Contents (Elt F)) : (⟨S50000x128, .f32⟩ : BufTy).Contents (Elt F) :=
  broadcastInDim S50000x128 ![0, 1] bcast_S1x128_S50000x128_0_1 (val_main_v130 (F := F) x4)

def val_main_v132 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) : (⟨S50000x128, .f32⟩ : BufTy).Contents (Elt F) :=
  addf (val_main_v129 (F := F) x0 x1 x2 x3 x4 x5 x6) (val_main_v131 (F := F) x4)

def val_main_v133 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) (x7 : (⟨S128x64, .f32⟩ : BufTy).Contents (Elt F)) : (⟨S50000x64, .f32⟩ : BufTy).Contents (Elt F) :=
  Host.dotGeneral dot_S50000x128_S128x64_S50000x64_1_0_0_1_n_n none (val_main_v132 (F := F) x0 x1 x2 x3 x4 x5 x6) (x7)

def val_main_v134 (x8 : (⟨S64, .f32⟩ : BufTy).Contents (Elt F)) : (⟨S1x64, .f32⟩ : BufTy).Contents (Elt F) :=
  broadcastInDim S1x64 ![1] bcast_S64_S1x64_1 (x8)

def val_main_v135 (x8 : (⟨S64, .f32⟩ : BufTy).Contents (Elt F)) : (⟨S50000x64, .f32⟩ : BufTy).Contents (Elt F) :=
  broadcastInDim S50000x64 ![0, 1] bcast_S1x64_S50000x64_0_1 (val_main_v134 (F := F) x8)

def val_main_v136 (x0 : (⟨S50000x128, .f32⟩ : BufTy).Contents (Elt F)) (x1 : (⟨S2x800000, .i32⟩ : BufTy).Contents (Elt F)) (x2 x3 : (⟨S3x128x128, .f32⟩ : BufTy).Contents (Elt F)) (x4 : (⟨S3x128, .f32⟩ : BufTy).Contents (Elt F)) (x5 : (⟨S2x128x128, .f32⟩ : BufTy).Contents (Elt F)) (x6 : (⟨S2x128, .f32⟩ : BufTy).Contents (Elt F)) (x7 : (⟨S128x64, .f32⟩ : BufTy).Contents (Elt F)) (x8 : (⟨S64, .f32⟩ : BufTy).Contents (Elt F)) : (⟨S50000x64, .f32⟩ : BufTy).Contents (Elt F) :=
  addf (val_main_v133 (F := F) x0 x1 x2 x3 x4 x5 x6 x7) (val_main_v135 (F := F) x8)

end Cert.SageNet.RefStage

end
-- ==== Proof.RefAggr.lean ====
/-
  The neighbour aggregation both programs share, spelt over the reference's stages.

  Given the edge list x1 (row 0 the source nodes, row 1 the destination nodes) and node features h, every edge
  gathers its source node's row (a negative source index counted from the end) and the rows are summed into their
  destination nodes, starting from the zero array.
-/
import proofs.«159729_j13743895347603_1_alg».proof.Proof.RefStages

noncomputable section

namespace Cert.SageNet.Ref

open Cert.ReferenceIdeal Cert.SageNet.RefStage Idealize.ShloMosaic

/-- The summed neighbour rows of node features `h`. -/
def aggr (x1 : (⟨S2x800000, .i32⟩ : BufTy).Contents (Elt Ideal)) (h : S50000x128.Idx → EReal) : S50000x128.Idx → EReal :=
  Host.scatterAdd (F := Ideal) (φ := .f32) scatter_S50000x128_S800000x1_S800000x128_1_0_0_1 (val_main_v17 (F := Ideal)) (val_main_v18 (F := Ideal) x1)
    (Host.gather gather_S50000x128_S800000x1_S800000x128_1_0_n_n_0_1_1128 h (val_main_v15 (F := Ideal) x1))

end Cert.SageNet.Ref

end
-- ==== Proof.KernelNet.lean ====
/-
  The idealized kernel's result buffer as the network of the launch arguments.

  At the entry of each region every array it stages is read back: an operand the preceding stretch of host operations
  computed is that operation applied to buffers produced earlier (walked back to the arguments), and the node features
  are the previous region's output array. With each region's output array the layer of Spec.lean of the arrays it
  finds, the six boundary equations compose to the whole network. The host terms are spelt with the reference's own
  stage functions, which are the same operations of the same arguments, so that the two programs' results are one
  expression.
-/
import proofs.«159729_j13743895347603_1_alg».proof.Proof.Gen.KernelIdeal.Frame
import proofs.«159729_j13743895347603_1_alg».proof.Proof.KernelKeep
import proofs.«159729_j13743895347603_1_alg».proof.Proof.Region0
import proofs.«159729_j13743895347603_1_alg».proof.Proof.Region1
import proofs.«159729_j13743895347603_1_alg».proof.Proof.Region2
import proofs.«159729_j13743895347603_1_alg».proof.Proof.Region3
import proofs.«159729_j13743895347603_1_alg».proof.Proof.Region4
import proofs.«159729_j13743895347603_1_alg».proof.Proof.Region5
import proofs.«159729_j13743895347603_1_alg».proof.Proof.RefAggr
import Idealize.ShloMosaic.Lib.StableHlo.Run

set_option maxRecDepth 16384

noncomputable section

namespace Cert.SageNet.K

open Cert.KernelIdeal Cert.KernelIdeal.Gen Cert.SageNet
open Idealize.ShloMosaic Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

theorem W1_v1 (c : Dev nD) : W1 m ρ c (Proc.devRef .tc main_v1) = (Cert.SageNet.RefStage.val_main_v1 (F := Ideal) (m ((c : Thread nD τ).loc main_arg1))) := by
  show StableHlo.after (hostOps0 (F := Ideal)) (W0 m ρ c) (Proc.devRef .tc main_v1) = _
  after_results
  all_goals rfl
theorem W1_v3 (c : Dev nD) : W1 m ρ c (Proc.devRef .tc main_v3) = (Cert.SageNet.RefStage.val_main_v3 (F := Ideal) (m ((c : Thread nD τ).loc main_arg1))) := by
  show StableHlo.after (hostOps0 (F := Ideal)) (W0 m ρ c) (Proc.devRef .tc main_v3) = _
  after_results
  all_goals rfl
set_option maxHeartbeats 4000000 in
theorem V1_v24 (c : Dev nD) : V1 m ρ c main_v24 = (Cert.SageNet.Ref.aggr (m ((c : Thread nD τ).loc main_arg1)) (m ((c : Thread nD τ).loc main_arg0))) := by
  show StableHlo.after (hostOps0 (F := Ideal)) (W0 m ρ c) (Proc.devRef .tc main_v24) = _
  after_results_simp
  all_goals rfl
theorem V1_v8 (c : Dev nD) : V1 m ρ c main_v8 = (shapeCast S50000x1 (Cert.SageNet.RefStage.val_main_v23 (F := Ideal) (m ((c : Thread nD τ).loc main_arg1))) shapeCasts_S50000_S50000x1) := by
  show StableHlo.after (hostOps0 (F := Ideal)) (W0 m ρ c) (Proc.devRef .tc main_v8) = _
  after_results
  all_goals rfl
theorem V1_v10 (c : Dev nD) : V1 m ρ c main_v10 = (Cert.SageNet.RefStage.val_main_v5 (F := Ideal) (m ((c : Thread nD τ).loc main_arg2))) := by
  show StableHlo.after (hostOps0 (F := Ideal)) (W0 m ρ c) (Proc.devRef .tc main_v10) = _
  after_results
  all_goals rfl
theorem V1_v12 (c : Dev nD) : V1 m ρ c main_v12 = (Cert.SageNet.RefStage.val_main_v7 (F := Ideal) (m ((c : Thread nD τ).loc main_arg3))) := by
  show StableHlo.after (hostOps0 (F := Ideal)) (W0 m ρ c) (Proc.devRef .tc main_v12) = _
  after_results
  all_goals rfl
theorem V1_v25 (c : Dev nD) : V1 m ρ c main_v25 = (shapeCast S1x128 (Cert.SageNet.RefStage.val_main_v9 (F := Ideal) (m ((c : Thread nD τ).loc main_arg4))) shapeCasts_S128_S1x128) := by
  show StableHlo.after (hostOps0 (F := Ideal)) (W0 m ρ c) (Proc.devRef .tc main_v25) = _
  after_results
  all_goals rfl
/-- After the first graph layer. -/
theorem L0 (c : Dev nD) : (W2 m ρ c (Proc.devRef .tc main_v26)) = (sageVal true (Cert.SageNet.Ref.aggr (m ((c : Thread nD τ).loc main_arg1)) (m ((c : Thread nD τ).loc main_arg0))) (shapeCast S50000x1 (Cert.SageNet.RefStage.val_main_v23 (F := Ideal) (m ((c : Thread nD τ).loc main_arg1))) shapeCasts_S50000_S50000x1) (m ((c : Thread nD τ).loc main_arg0)) (Cert.SageNet.RefStage.val_main_v5 (F := Ideal) (m ((c : Thread nD τ).loc main_arg2))) (Cert.SageNet.RefStage.val_main_v7 (F := Ideal) (m ((c : Thread nD τ).loc main_arg3))) (shapeCast S1x128 (Cert.SageNet.RefStage.val_main_v9 (F := Ideal) (m ((c : Thread nD τ).loc main_arg4))) shapeCasts_S128_S1x128)) :=
  (W2_arr m ρ c 6).trans ((final0 (V1 m ρ) c).trans (by
    rw [V1_v24 m ρ c, V1_v8 m ρ c, W1_arg0 m ρ c, V1_v10 m ρ c, V1_v12 m ρ c, V1_v25 m ρ c]))
theorem V3_v26 (c : Dev nD) : V3 m ρ c main_v26 = (W2 m ρ c (Proc.devRef .tc main_v26)) := by
  show StableHlo.after (hostOps1 (F := Ideal)) (W2 m ρ c) (Proc.devRef .tc main_v26) = _
  after_results
  all_goals rfl
theorem V3_v28 (c : Dev nD) : V3 m ρ c main_v28 = (Cert.SageNet.RefStage.val_main_v41 (F := Ideal) (m ((c : Thread nD τ).loc main_arg5))) := by
  show StableHlo.after (hostOps1 (F := Ideal)) (W2 m ρ c) (Proc.devRef .tc main_v28) = _
  after_results
  rw [W2_arg5 m ρ c]
  all_goals rfl
theorem V3_v31 (c : Dev nD) : V3 m ρ c main_v31 = (shapeCast S1x128 (Cert.SageNet.RefStage.val_main_v44 (F := Ideal) (m ((c : Thread nD τ).loc main_arg6))) shapeCasts_S128_S1x128) := by
  show StableHlo.after (hostOps1 (F := Ideal)) (W2 m ρ c) (Proc.devRef .tc main_v31) = _
  after_results
  rw [W2_arg6 m ρ c]
  all_goals rfl
/-- After the first dense layer. -/
theorem L1 (c : Dev nD) : (W4 m ρ c (Proc.devRef .tc main_v32)) = (linVal true (W2 m ρ c (Proc.devRef .tc main_v26)) (Cert.SageNet.RefStage.val_main_v41 (F := Ideal) (m ((c : Thread nD τ).loc main_arg5))) (shapeCast S1x128 (Cert.SageNet.RefStage.val_main_v44 (F := Ideal) (m ((c : Thread nD τ).loc main_arg6))) shapeCasts_S128_S1x128)) :=
  (W4_arr m ρ c 3).trans ((final1 (V3 m ρ) c).trans (by rw [V3_v26 m ρ c, V3_v28 m ρ c, V3_v31 m ρ c]))
set_option maxHeartbeats 4000000 in
theorem V5_v48 (c : Dev nD) : V5 m ρ c main_v48 = (Cert.SageNet.Ref.aggr (m ((c : Thread nD τ).loc main_arg1)) (W4 m ρ c (Proc.devRef .tc main_v32))) := by
  show StableHlo.after (hostOps2 (F := Ideal)) (W4 m ρ c) (Proc.devRef .tc main_v48) = _
  after_results_simp
  rw [W4_v1 m ρ c, W4_v3 m ρ c, W1_v1 m ρ c, W1_v3 m ρ c]
  all_goals rfl
theorem V5_v8 (c : Dev nD) : V5 m ρ c main_v8 = (shapeCast S50000x1 (Cert.SageNet.RefStage.val_main_v23 (F := Ideal) (m ((c : Thread nD τ).loc main_arg1))) shapeCasts_S50000_S50000x1) :=
  (keep2_v8 (W4 m ρ c)).trans ((W4_v8 m ρ c).trans (V1_v8 m ρ c))
theorem V5_v32 (c : Dev nD) : V5 m ρ c main_v32 = (W4 m ρ c (Proc.devRef .tc main_v32)) := by
  show StableHlo.after (hostOps2 (F := Ideal)) (W4 m ρ c) (Proc.devRef .tc main_v32) = _
  after_results
  all_goals rfl
theorem V5_v34 (c : Dev nD) : V5 m ρ c main_v34 = (Cert.SageNet.RefStage.val_main_v54 (F := Ideal) (m ((c : Thread nD τ).loc main_arg2))) := by
  show StableHlo.after (hostOps2 (F := Ideal)) (W4 m ρ c) (Proc.devRef .tc main_v34) = _
  after_results
  rw [W4_arg2 m ρ c]
  all_goals rfl
theorem V5_v36 (c : Dev nD) : V5 m ρ c main_v36 = (Cert.SageNet.RefStage.val_main_v56 (F := Ideal) (m ((c : Thread nD τ).loc main_arg3))) := by
  show StableHlo.after (hostOps2 (F := Ideal)) (W4 m ρ c) (Proc.devRef .tc main_v36) = _
  after_results
  rw [W4_arg3 m ρ c]
  all_goals rfl
theorem V5_v49 (c : Dev nD) : V5 m ρ c main_v49 = (shapeCast S1x128 (Cert.SageNet.RefStage.val_main_v58 (F := Ideal) (m ((c : Thread nD τ).loc main_arg4))) shapeCasts_S128_S1x128) := by
  show StableHlo.after (hostOps2 (F := Ideal)) (W4 m ρ c) (Proc.devRef .tc main_v49) = _
  after_results
  rw [W4_arg4 m ρ c]
  all_goals rfl
/-- After the second graph layer. -/
theorem L2 (c : Dev nD) : (W6 m ρ c (Proc.devRef .tc main_v50)) = (sageVal true (Cert.SageNet.Ref.aggr (m ((c : Thread nD τ).loc main_arg1)) (W4 m ρ c (Proc.devRef .tc main_v32))) (shapeCast S50000x1 (Cert.SageNet.RefStage.val_main_v23 (F := Ideal) (m ((c : Thread nD τ).loc main_arg1))) shapeCasts_S50000_S50000x1) (W4 m ρ c (Proc.devRef .tc main_v32)) (Cert.SageNet.RefStage.val_main_v54 (F := Ideal) (m ((c : Thread nD τ).loc main_arg2))) (Cert.SageNet.RefStage.val_main_v56 (F := Ideal) (m ((c : Thread nD τ).loc main_arg3))) (shapeCast S1x128 (Cert.SageNet.RefStage.val_main_v58 (F := Ideal) (m ((c : Thread nD τ).loc main_arg4))) shapeCasts_S128_S1x128)) :=
  (W6_arr m ρ c 6).trans ((final2 (V5 m ρ) c).trans (by
    rw [V5_v48 m ρ c, V5_v8 m ρ c, V5_v32 m ρ c, V5_v34 m ρ c, V5_v36 m ρ c, V5_v49 m ρ c]))
theorem V7_v50 (c : Dev nD) : V7 m ρ c main_v50 = (W6 m ρ c (Proc.devRef .tc main_v50)) := by
  show StableHlo.after (hostOps3 (F := Ideal)) (W6 m ρ c) (Proc.devRef .tc main_v50) = _
  after_results
  all_goals rfl
theorem V7_v52 (c : Dev nD) : V7 m ρ c main_v52 = (Cert.SageNet.RefStage.val_main_v90 (F := Ideal) (m ((c : Thread nD τ).loc main_arg5))) := by
  show StableHlo.after (hostOps3 (F := Ideal)) (W6 m ρ c) (Proc.devRef .tc main_v52) = _
  after_results
  rw [W6_arg5 m ρ c]
  all_goals rfl
theorem V7_v55 (c : Dev nD) : V7 m ρ c main_v55 = (shapeCast S1x128 (Cert.SageNet.RefStage.val_main_v93 (F := Ideal) (m ((c : Thread nD τ).loc main_arg6))) shapeCasts_S128_S1x128) := by
  show StableHlo.after (hostOps3 (F := Ideal)) (W6 m ρ c) (Proc.devRef .tc main_v55) = _
  after_results
  rw [W6_arg6 m ρ c]
  all_goals rfl
/-- After the second dense layer. -/
theorem L3 (c : Dev nD) : (W8 m ρ c (Proc.devRef .tc main_v56)) = (linVal true (W6 m ρ c (Proc.devRef .tc main_v50)) (Cert.SageNet.RefStage.val_main_v90 (F := Ideal) (m ((c : Thread nD τ).loc main_arg5))) (shapeCast S1x128 (Cert.SageNet.RefStage.val_main_v93 (F := Ideal) (m ((c : Thread nD τ).loc main_arg6))) shapeCasts_S128_S1x128)) :=
  (W8_arr m ρ c 3).trans ((final3 (V7 m ρ) c).trans (by rw [V7_v50 m ρ c, V7_v52 m ρ c, V7_v55 m ρ c]))
set_option maxHeartbeats 4000000 in
theorem V9_v72 (c : Dev nD) : V9 m ρ c main_v72 = (Cert.SageNet.Ref.aggr (m ((c : Thread nD τ).loc main_arg1)) (W8 m ρ c (Proc.devRef .tc main_v56))) := by
  show StableHlo.after (hostOps4 (F := Ideal)) (W8 m ρ c) (Proc.devRef .tc main_v72) = _
  after_results_simp
  rw [W8_v1 m ρ c, W8_v3 m ρ c, W1_v1 m ρ c, W1_v3 m ρ c]
  all_goals rfl
theorem V9_v8 (c : Dev nD) : V9 m ρ c main_v8 = (shapeCast S50000x1 (Cert.SageNet.RefStage.val_main_v23 (F := Ideal) (m ((c : Thread nD τ).loc main_arg1))) shapeCasts_S50000_S50000x1) :=
  (keep4_v8 (W8 m ρ c)).trans ((W8_v8 m ρ c).trans (V1_v8 m ρ c))
theorem V9_v56 (c : Dev nD) : V9 m ρ c main_v56 = (W8 m ρ c (Proc.devRef .tc main_v56)) := by
  show StableHlo.after (hostOps4 (F := Ideal)) (W8 m ρ c) (Proc.devRef .tc main_v56) = _
  after_results
  all_goals rfl
theorem V9_v58 (c : Dev nD) : V9 m ρ c main_v58 = (Cert.SageNet.RefStage.val_main_v103 (F := Ideal) (m ((c : Thread nD τ).loc main_arg2))) := by
  show StableHlo.after (hostOps4 (F := Ideal)) (W8 m ρ c) (Proc.devRef .tc main_v58) = _
  after_results
  rw [W8_arg2 m ρ c]
  all_goals rfl
theorem V9_v60 (c : Dev nD) : V9 m ρ c main_v60 = (Cert.SageNet.RefStage.val_main_v105 (F := Ideal) (m ((c : Thread nD τ).loc main_arg3))) := by
  show StableHlo.after (hostOps4 (F := Ideal)) (W8 m ρ c) (Proc.devRef .tc main_v60) = _
  after_results
  rw [W8_arg3 m ρ c]
  all_goals rfl
theorem V9_v73 (c : Dev nD) : V9 m ρ c main_v73 = (shapeCast S1x128 (Cert.SageNet.RefStage.val_main_v107 (F := Ideal) (m ((c : Thread nD τ).loc main_arg4))) shapeCasts_S128_S1x128) := by
  show StableHlo.after (hostOps4 (F := Ideal)) (W8 m ρ c) (Proc.devRef .tc main_v73) = _
  after_results
  rw [W8_arg4 m ρ c]
  all_goals rfl
/-- After the third graph layer (not rectified). -/
theorem L4 (c : Dev nD) : (W10 m ρ c (Proc.devRef .tc main_v74)) = (sageVal false (Cert.SageNet.Ref.aggr (m ((c : Thread nD τ).loc main_arg1)) (W8 m ρ c (Proc.devRef .tc main_v56))) (shapeCast S50000x1 (Cert.SageNet.RefStage.val_main_v23 (F := Ideal) (m ((c : Thread nD τ).loc main_arg1))) shapeCasts_S50000_S50000x1) (W8 m ρ c (Proc.devRef .tc main_v56)) (Cert.SageNet.RefStage.val_main_v103 (F := Ideal) (m ((c : Thread nD τ).loc main_arg2))) (Cert.SageNet.RefStage.val_main_v105 (F := Ideal) (m ((c : Thread nD τ).loc main_arg3))) (shapeCast S1x128 (Cert.SageNet.RefStage.val_main_v107 (F := Ideal) (m ((c : Thread nD τ).loc main_arg4))) shapeCasts_S128_S1x128)) :=
  (W10_arr m ρ c 6).trans ((final4 (V9 m ρ) c).trans (by
    rw [V9_v72 m ρ c, V9_v8 m ρ c, V9_v56 m ρ c, V9_v58 m ρ c, V9_v60 m ρ c, V9_v73 m ρ c]))
theorem V11_v74 (c : Dev nD) : V11 m ρ c main_v74 = (W10 m ρ c (Proc.devRef .tc main_v74)) := by
  show StableHlo.after (hostOps5 (F := Ideal)) (W10 m ρ c) (Proc.devRef .tc main_v74) = _
  after_results
  all_goals rfl
theorem V11_v75 (c : Dev nD) : V11 m ρ c main_v75 = (shapeCast S1x64 (m ((c : Thread nD τ).loc main_arg8)) shapeCasts_S64_S1x64) := by
  show StableHlo.after (hostOps5 (F := Ideal)) (W10 m ρ c) (Proc.devRef .tc main_v75) = _
  after_results
  rw [W10_arg8 m ρ c]
  all_goals rfl
/-- After the last dense layer (not rectified): the result buffer. -/
theorem L5 (c : Dev nD) : (W12 m ρ c (Proc.devRef .tc main_v76)) = (linVal false (W10 m ρ c (Proc.devRef .tc main_v74)) (m ((c : Thread nD τ).loc main_arg7)) (shapeCast S1x64 (m ((c : Thread nD τ).loc main_arg8)) shapeCasts_S64_S1x64)) :=
  (W12_arr m ρ c 3).trans ((final5 (V11 m ρ) c).trans (by rw [V11_v74 m ρ c, V11_arg7 m ρ c, V11_v75 m ρ c]))

/-- The result buffer at the last boundary is the whole network of the launch arguments. -/
theorem result (c : Dev nD) : (W12 m ρ c (Proc.devRef .tc main_v76)) =
    netVal (Cert.SageNet.Ref.aggr (m ((c : Thread nD τ).loc main_arg1))) (shapeCast S50000x1 (Cert.SageNet.RefStage.val_main_v23 (F := Ideal) (m ((c : Thread nD τ).loc main_arg1))) shapeCasts_S50000_S50000x1) (m ((c : Thread nD τ).loc main_arg0))
      (Cert.SageNet.RefStage.val_main_v5 (F := Ideal) (m ((c : Thread nD τ).loc main_arg2))) (Cert.SageNet.RefStage.val_main_v7 (F := Ideal) (m ((c : Thread nD τ).loc main_arg3))) (shapeCast S1x128 (Cert.SageNet.RefStage.val_main_v9 (F := Ideal) (m ((c : Thread nD τ).loc main_arg4))) shapeCasts_S128_S1x128)
      (Cert.SageNet.RefStage.val_main_v41 (F := Ideal) (m ((c : Thread nD τ).loc main_arg5))) (shapeCast S1x128 (Cert.SageNet.RefStage.val_main_v44 (F := Ideal) (m ((c : Thread nD τ).loc main_arg6))) shapeCasts_S128_S1x128)
      (Cert.SageNet.RefStage.val_main_v54 (F := Ideal) (m ((c : Thread nD τ).loc main_arg2))) (Cert.SageNet.RefStage.val_main_v56 (F := Ideal) (m ((c : Thread nD τ).loc main_arg3))) (shapeCast S1x128 (Cert.SageNet.RefStage.val_main_v58 (F := Ideal) (m ((c : Thread nD τ).loc main_arg4))) shapeCasts_S128_S1x128)
      (Cert.SageNet.RefStage.val_main_v90 (F := Ideal) (m ((c : Thread nD τ).loc main_arg5))) (shapeCast S1x128 (Cert.SageNet.RefStage.val_main_v93 (F := Ideal) (m ((c : Thread nD τ).loc main_arg6))) shapeCasts_S128_S1x128)
      (Cert.SageNet.RefStage.val_main_v103 (F := Ideal) (m ((c : Thread nD τ).loc main_arg2))) (Cert.SageNet.RefStage.val_main_v105 (F := Ideal) (m ((c : Thread nD τ).loc main_arg3))) (shapeCast S1x128 (Cert.SageNet.RefStage.val_main_v107 (F := Ideal) (m ((c : Thread nD τ).loc main_arg4))) shapeCasts_S128_S1x128)
      (m ((c : Thread nD τ).loc main_arg7)) (shapeCast S1x64 (m ((c : Thread nD τ).loc main_arg8)) shapeCasts_S64_S1x64) := by
  rw [L5 m ρ c, L4 m ρ c, L3 m ρ c, L2 m ρ c, L1 m ρ c, L0 m ρ c]
  rfl

end Cert.SageNet.K

end
-- ==== Proof.LibBroadcastInDim.lean ====
/-
  THE HOST'S `broadcast_in_dim` BETWEEN A VECTOR AND A MATRIX, READ AT AN INDEX.

  The keepdims steps of a host program, for every extent and element type:
  * `bid_vec_col_apply`: a vector `[a]` placed on axis 0 of a column `[a, 1]` reads, at `(p, 0)`, the vector at `p`;
  * `bid_col_mat_apply`: a column `[a, 1]` placed on axes `(0, 1)` of `[a, b]` reads, at `(p, q)`, the column at `(p, 0)`;
  * `bid_vec_row_apply`: a vector `[b]` placed on axis 1 of a row `[1, b]` reads, at `(0, q)`, the vector at `q`;
  * `bid_row_mat_apply`: a row `[1, b]` placed on axes `(0, 1)` of `[a, b]` reads, at `(p, q)`, the row at `(0, q)`;
  * `bid_scalar_apply`: a rank-0 value broadcast to any shape reads, everywhere, that value.
-/
import Idealize.ShloMosaic.Lib.Pipeline.Value
import Idealize.ShloMosaic.Lib.ValueIdx

noncomputable section

namespace Cert.Lib.BroadcastInDim

open Idealize.ShloMosaic Idealize.ShloMosaic.ValueIdx

variable {α : Type} {a b : Nat}

/-- A vector placed on axis 0 of a column. -/
theorem bid_vec_col_apply (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p 0) = v (ix1 p) :=
  broadcastInDim_apply _ h v (ix2 p 0) (ix1 p) (fun ax => by
    match ax with
    | ⟨0, _⟩ =>
      show p.val = if a = 1 then 0 else p.val
      by_cases ha : a = 1
      · rw [if_pos ha]; have := p.isLt; omega
      · rw [if_neg ha])

/-- A column placed on axes `(0, 1)` of a matrix. -/
theorem bid_col_mat_apply (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p 0) :=
  broadcastInDim_apply _ h x (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A vector placed on axis 1 of a row. -/
theorem bid_vec_row_apply (v : (⟨1, ![b]⟩ : Shape).Idx → α)
    (h : (⟨1, ![b]⟩ : Shape).BroadcastsInDim ⟨2, ![1, b]⟩ ![1]) (q : Fin b) :
    broadcastInDim ⟨2, ![1, b]⟩ ![1] h v (ix2 0 q) = v (ix1 q) :=
  broadcastInDim_apply _ h v (ix2 0 q) (ix1 q) (fun ax => by
    match ax with
    | ⟨0, _⟩ =>
      show q.val = if b = 1 then 0 else q.val
      by_cases hb : b = 1
      · rw [if_pos hb]; have := q.isLt; omega
      · rw [if_neg hb])

/-- A row placed on axes `(0, 1)` of a matrix. -/
theorem bid_row_mat_apply (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 0 q) :=
  broadcastInDim_apply _ h x (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A rank-0 value broadcast to any shape. -/
theorem bid_scalar_apply {t : Shape} (x : (⟨0, ![]⟩ : Shape).Idx → α)
    (h : (⟨0, ![]⟩ : Shape).BroadcastsInDim t ![]) (j : t.Idx) :
    broadcastInDim t ![] h x j = x (fun ax => ax.elim0) :=
  broadcastInDim_apply _ h x j (fun ax => ax.elim0) (fun ax => ax.elim0)

end Cert.Lib.BroadcastInDim

end
-- ==== Proof.HostForms.lean ====
/-
  One layer of the reference, as a whole array.

  The reference builds a layer out of whole-array operations. For the graph layer: the neighbour count is clamped below
  by one, laid out as a column and repeated along the features; the summed neighbour rows are divided by it element by
  element and contracted with the neighbour weights; the node's own rows are contracted with the root weights; the two
  products are added; and the bias, laid out as a row and repeated down the nodes, is added last. For the dense layer:
  one contraction and the same bias. A layer may end with the leaky rectifier, written as a choice between `v` and
  `s · v` on the comparison `v > 0`, both constants repeated over the whole array.

  Read at row `p`, column `q`, each of these trees is the formula of `sageAt` / `linAt`:
    (∑ₖ agg[p,k] / max(cnt[p], 1) · wl[k,q]  +  ∑ₖ x[p,k] · wr[k,q])  +  b[q]     and     ∑ₖ x[p,k] · w[k,q]  +  b[q],
  so the trees are `sageVal` / `linVal` as arrays. All of it holds for every number of nodes `N`, input width `D`
  and output width `E`, and for any record of the plain matrix product's dimension numbers.
-/
import Idealize.ShloMosaic.PureOps.Ideal
import Idealize.ShloMosaic.Lib.ValueIdx
import Idealize.ShloMosaic.Lib.IdealHost
import Idealize.ShloMosaic.Lib.Pipeline.Value
import proofs.«159729_j13743895347603_1_alg».proof.Proof.Spec
import proofs.«159729_j13743895347603_1_alg».proof.Proof.LibPlainMatmul
import proofs.«159729_j13743895347603_1_alg».proof.Proof.LibBroadcastInDim
import proofs.«159729_j13743895347603_1_alg».proof.Proof.LibColumnForms

noncomputable section

open scoped BigOperators

namespace Cert.SageNet

open Idealize.ShloMosaic Idealize.ShloMosaic.ValueIdx
open Cert.Lib.PlainMatmul Cert.Lib.BroadcastInDim Cert.Lib.ColumnForms

variable {N D E : Nat}

/-! ## The pieces of a layer, read at an index -/

/-- The bias vector written as a row and repeated down the rows reads `b[q]` at `(p, q)`: the value the vector
    reshaped to a row has at `(0, q)`. -/
theorem biasRows_apply (h4 : (⟨2, ![1, E]⟩ : Shape).BroadcastsInDim ⟨2, ![N, E]⟩ ![0, 1])
    (h5 : (⟨1, ![E]⟩ : Shape).BroadcastsInDim ⟨2, ![1, E]⟩ ![1])
    (hr : (⟨1, ![E]⟩ : Shape).ShapeCasts ⟨2, ![1, E]⟩)
    (bv : FVec Ideal ⟨1, ![E]⟩ .f32) (p : Fin N) (q : Fin E) :
    broadcastInDim ⟨2, ![N, E]⟩ ![0, 1] h4 (broadcastInDim ⟨2, ![1, E]⟩ ![1] h5 bv) (ix2 p q)
      = shapeCast ⟨2, ![1, E]⟩ bv hr (ix2 0 q) := by
  rw [bid_row_mat_apply, bid_vec_row_apply, shapeCast_row_apply]

/-- The count clamped below by one, written as a column and repeated along the features, reads `max(cnt[p], 1)` at
    `(p, k)`, with `cnt[p]` the value the count reshaped to a column has at `(p, 0)`. -/
theorem clampedCount_apply (h1 : (⟨2, ![N, 1]⟩ : Shape).BroadcastsInDim ⟨2, ![N, D]⟩ ![0, 1])
    (h2 : (⟨1, ![N]⟩ : Shape).BroadcastsInDim ⟨2, ![N, 1]⟩ ![0])
    (h3 : (⟨0, ![]⟩ : Shape).BroadcastsInDim ⟨1, ![N]⟩ ![])
    (hc : (⟨1, ![N]⟩ : Shape).ShapeCasts ⟨2, ![N, 1]⟩)
    (cntv : FVec Ideal ⟨1, ![N]⟩ .f32) (p : Fin N) (k : Fin D) :
    broadcastInDim ⟨2, ![N, D]⟩ ![0, 1] h1 (broadcastInDim ⟨2, ![N, 1]⟩ ![0] h2
        (maximumf cntv (broadcastInDim ⟨1, ![N]⟩ ![] h3 (constant (F := Ideal) ⟨0, ![]⟩ .f32 0x3F800000#32)))) (ix2 p k)
      = max (shapeCast ⟨2, ![N, 1]⟩ cntv hc (ix2 p 0)) (Ideal.ofBits .f32 0x3F800000#32) := by
  rw [bid_col_mat_apply, bid_vec_col_apply, maximumf_apply, bid_scalar_apply, constant_apply, shapeCast_col_apply]

/-- The rectifier's choice at one element: where `v > 0` the value `v`, elsewhere `s · v`. -/
theorem rectified_apply (h6 : (⟨0, ![]⟩ : Shape).BroadcastsInDim ⟨2, ![N, E]⟩ ![])
    (v : FVec Ideal ⟨2, ![N, E]⟩ .f32) (i : (⟨2, ![N, E]⟩ : Shape).Idx) :
    select (cmpf .ogt v (broadcastInDim ⟨2, ![N, E]⟩ ![] h6 (constant (F := Ideal) ⟨0, ![]⟩ .f32 0x00000000#32))) v
        (mulf (broadcastInDim ⟨2, ![N, E]⟩ ![] h6 (constant (F := Ideal) ⟨0, ![]⟩ .f32 0x3DCCCCCD#32)) v) i
      = rect true (v i) := by
  rw [select_apply, cmpf_apply, mulf_apply, bid_scalar_apply, bid_scalar_apply, constant_apply, constant_apply, rect_true]

/-- The graph layer before the rectifier, at `(p, q)`. -/
theorem sagePre_apply (d : DotDims ⟨2, ![N, D]⟩ ⟨2, ![D, E]⟩ ⟨2, ![N, E]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (h1 : (⟨2, ![N, 1]⟩ : Shape).BroadcastsInDim ⟨2, ![N, D]⟩ ![0, 1])
    (h2 : (⟨1, ![N]⟩ : Shape).BroadcastsInDim ⟨2, ![N, 1]⟩ ![0])
    (h3 : (⟨0, ![]⟩ : Shape).BroadcastsInDim ⟨1, ![N]⟩ ![])
    (h4 : (⟨2, ![1, E]⟩ : Shape).BroadcastsInDim ⟨2, ![N, E]⟩ ![0, 1])
    (h5 : (⟨1, ![E]⟩ : Shape).BroadcastsInDim ⟨2, ![1, E]⟩ ![1])
    (hc : (⟨1, ![N]⟩ : Shape).ShapeCasts ⟨2, ![N, 1]⟩) (hr : (⟨1, ![E]⟩ : Shape).ShapeCasts ⟨2, ![1, E]⟩)
    (agg x : FVec Ideal ⟨2, ![N, D]⟩ .f32) (cntv : FVec Ideal ⟨1, ![N]⟩ .f32)
    (wl wr : FVec Ideal ⟨2, ![D, E]⟩ .f32) (bv : FVec Ideal ⟨1, ![E]⟩ .f32) (p : Fin N) (q : Fin E) :
    addf (addf
        (Host.dotGeneral d none (Host.divf agg (broadcastInDim ⟨2, ![N, D]⟩ ![0, 1] h1 (broadcastInDim ⟨2, ![N, 1]⟩ ![0] h2
          (maximumf cntv (broadcastInDim ⟨1, ![N]⟩ ![] h3 (constant (F := Ideal) ⟨0, ![]⟩ .f32 0x3F800000#32)))))) wl)
        (Host.dotGeneral d none x wr))
      (broadcastInDim ⟨2, ![N, E]⟩ ![0, 1] h4 (broadcastInDim ⟨2, ![1, E]⟩ ![1] h5 bv)) (ix2 p q)
      = sageAt false agg (shapeCast ⟨2, ![N, 1]⟩ cntv hc) x wl wr (shapeCast ⟨2, ![1, E]⟩ bv hr) p q := by
  rw [addf_apply, addf_apply, biasRows_apply h4 h5 hr bv p q]
  show FloatOps.dotGeneral d none .single _ wl (ix2 p q) + FloatOps.dotGeneral d none .single x wr (ix2 p q) + _ = _
  rw [dotGeneral_plain_apply d hd1 hd2 hd3 hd4 hd5 hd6 none .single _ wl p q,
    dotGeneral_plain_apply d hd1 hd2 hd3 hd4 hd5 hd6 none .single x wr p q]
  unfold sageAt
  rw [rect_false]
  refine congrArg (· + _) (congrArg (· + _) (Finset.sum_congr rfl fun k _ => ?_))
  rw [hostDivf_apply, clampedCount_apply h1 h2 h3 hc cntv p k]

/-- The dense layer before the rectifier, at `(p, q)`. -/
theorem linPre_apply (d : DotDims ⟨2, ![N, D]⟩ ⟨2, ![D, E]⟩ ⟨2, ![N, E]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (h4 : (⟨2, ![1, E]⟩ : Shape).BroadcastsInDim ⟨2, ![N, E]⟩ ![0, 1])
    (h5 : (⟨1, ![E]⟩ : Shape).BroadcastsInDim ⟨2, ![1, E]⟩ ![1])
    (hr : (⟨1, ![E]⟩ : Shape).ShapeCasts ⟨2, ![1, E]⟩)
    (x : FVec Ideal ⟨2, ![N, D]⟩ .f32) (w : FVec Ideal ⟨2, ![D, E]⟩ .f32) (bv : FVec Ideal ⟨1, ![E]⟩ .f32)
    (p : Fin N) (q : Fin E) :
    addf (Host.dotGeneral d none x w)
      (broadcastInDim ⟨2, ![N, E]⟩ ![0, 1] h4 (broadcastInDim ⟨2, ![1, E]⟩ ![1] h5 bv)) (ix2 p q)
      = linAt false x w (shapeCast ⟨2, ![1, E]⟩ bv hr) p q := by
  rw [addf_apply, biasRows_apply h4 h5 hr bv p q]
  show FloatOps.dotGeneral d none .single x w (ix2 p q) + _ = _
  rw [dotGeneral_plain_apply d hd1 hd2 hd3 hd4 hd5 hd6 none .single x w p q]
  unfold linAt
  rw [rect_false]

/-- With the rectifier a layer's element is the rectifier of the element without it. -/
theorem sageAt_true (agg : (⟨2, ![N, D]⟩ : Shape).Idx → EReal) (cnt : (⟨2, ![N, 1]⟩ : Shape).Idx → EReal)
    (x : (⟨2, ![N, D]⟩ : Shape).Idx → EReal) (wl wr : (⟨2, ![D, E]⟩ : Shape).Idx → EReal)
    (b : (⟨2, ![1, E]⟩ : Shape).Idx → EReal) (p : Fin N) (q : Fin E) :
    sageAt true agg cnt x wl wr b p q = rect true (sageAt false agg cnt x wl wr b p q) := rfl

theorem linAt_true (x : (⟨2, ![N, D]⟩ : Shape).Idx → EReal) (w : (⟨2, ![D, E]⟩ : Shape).Idx → EReal)
    (b : (⟨2, ![1, E]⟩ : Shape).Idx → EReal) (p : Fin N) (q : Fin E) :
    linAt true x w b p q = rect true (linAt false x w b p q) := rfl

/-! ## The layers as whole arrays -/

/-- THE GRAPH LAYER WITHOUT THE RECTIFIER: the reference's tree is `sageVal false`. -/
theorem sage_plain (d : DotDims ⟨2, ![N, D]⟩ ⟨2, ![D, E]⟩ ⟨2, ![N, E]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (h1 : (⟨2, ![N, 1]⟩ : Shape).BroadcastsInDim ⟨2, ![N, D]⟩ ![0, 1])
    (h2 : (⟨1, ![N]⟩ : Shape).BroadcastsInDim ⟨2, ![N, 1]⟩ ![0])
    (h3 : (⟨0, ![]⟩ : Shape).BroadcastsInDim ⟨1, ![N]⟩ ![])
    (h4 : (⟨2, ![1, E]⟩ : Shape).BroadcastsInDim ⟨2, ![N, E]⟩ ![0, 1])
    (h5 : (⟨1, ![E]⟩ : Shape).BroadcastsInDim ⟨2, ![1, E]⟩ ![1])
    (hc : (⟨1, ![N]⟩ : Shape).ShapeCasts ⟨2, ![N, 1]⟩) (hr : (⟨1, ![E]⟩ : Shape).ShapeCasts ⟨2, ![1, E]⟩)
    (agg x : FVec Ideal ⟨2, ![N, D]⟩ .f32) (cntv : FVec Ideal ⟨1, ![N]⟩ .f32)
    (wl wr : FVec Ideal ⟨2, ![D, E]⟩ .f32) (bv : FVec Ideal ⟨1, ![E]⟩ .f32) :
    addf (addf
        (Host.dotGeneral d none (Host.divf agg (broadcastInDim ⟨2, ![N, D]⟩ ![0, 1] h1 (broadcastInDim ⟨2, ![N, 1]⟩ ![0] h2
          (maximumf cntv (broadcastInDim ⟨1, ![N]⟩ ![] h3 (constant (F := Ideal) ⟨0, ![]⟩ .f32 0x3F800000#32)))))) wl)
        (Host.dotGeneral d none x wr))
      (broadcastInDim ⟨2, ![N, E]⟩ ![0, 1] h4 (broadcastInDim ⟨2, ![1, E]⟩ ![1] h5 bv))
      = sageVal false agg (shapeCast ⟨2, ![N, 1]⟩ cntv hc) x wl wr (shapeCast ⟨2, ![1, E]⟩ bv hr) := by
  funext i
  obtain ⟨p, q, rfl⟩ : ∃ (p : Fin N) (q : Fin E), i = ix2 p q := ⟨i 0, i 1, eq_ix2 i⟩
  rw [sageVal_ix2]
  exact sagePre_apply d hd1 hd2 hd3 hd4 hd5 hd6 h1 h2 h3 h4 h5 hc hr agg x cntv wl wr bv p q

/-- THE GRAPH LAYER WITH THE RECTIFIER: the choice between the layer's value `v` and `s · v` is `sageVal true`. -/
theorem sage_rect (d : DotDims ⟨2, ![N, D]⟩ ⟨2, ![D, E]⟩ ⟨2, ![N, E]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (h1 : (⟨2, ![N, 1]⟩ : Shape).BroadcastsInDim ⟨2, ![N, D]⟩ ![0, 1])
    (h2 : (⟨1, ![N]⟩ : Shape).BroadcastsInDim ⟨2, ![N, 1]⟩ ![0])
    (h3 : (⟨0, ![]⟩ : Shape).BroadcastsInDim ⟨1, ![N]⟩ ![])
    (h4 : (⟨2, ![1, E]⟩ : Shape).BroadcastsInDim ⟨2, ![N, E]⟩ ![0, 1])
    (h5 : (⟨1, ![E]⟩ : Shape).BroadcastsInDim ⟨2, ![1, E]⟩ ![1])
    (h6 : (⟨0, ![]⟩ : Shape).BroadcastsInDim ⟨2, ![N, E]⟩ ![])
    (hc : (⟨1, ![N]⟩ : Shape).ShapeCasts ⟨2, ![N, 1]⟩) (hr : (⟨1, ![E]⟩ : Shape).ShapeCasts ⟨2, ![1, E]⟩)
    (agg x : FVec Ideal ⟨2, ![N, D]⟩ .f32) (cntv : FVec Ideal ⟨1, ![N]⟩ .f32)
    (wl wr : FVec Ideal ⟨2, ![D, E]⟩ .f32) (bv : FVec Ideal ⟨1, ![E]⟩ .f32) :
    select
        (cmpf .ogt
          (addf (addf
            (Host.dotGeneral d none (Host.divf agg (broadcastInDim ⟨2, ![N, D]⟩ ![0, 1] h1 (broadcastInDim ⟨2, ![N, 1]⟩ ![0] h2
              (maximumf cntv (broadcastInDim ⟨1, ![N]⟩ ![] h3 (constant (F := Ideal) ⟨0, ![]⟩ .f32 0x3F800000#32)))))) wl)
            (Host.dotGeneral d none x wr))
          (broadcastInDim ⟨2, ![N, E]⟩ ![0, 1] h4 (broadcastInDim ⟨2, ![1, E]⟩ ![1] h5 bv)))
          (broadcastInDim ⟨2, ![N, E]⟩ ![] h6 (constant (F := Ideal) ⟨0, ![]⟩ .f32 0x00000000#32)))
        (addf (addf
            (Host.dotGeneral d none (Host.divf agg (broadcastInDim ⟨2, ![N, D]⟩ ![0, 1] h1 (broadcastInDim ⟨2, ![N, 1]⟩ ![0] h2
              (maximumf cntv (broadcastInDim ⟨1, ![N]⟩ ![] h3 (constant (F := Ideal) ⟨0, ![]⟩ .f32 0x3F800000#32)))))) wl)
            (Host.dotGeneral d none x wr))
          (broadcastInDim ⟨2, ![N, E]⟩ ![0, 1] h4 (broadcastInDim ⟨2, ![1, E]⟩ ![1] h5 bv)))
        (mulf (broadcastInDim ⟨2, ![N, E]⟩ ![] h6 (constant (F := Ideal) ⟨0, ![]⟩ .f32 0x3DCCCCCD#32))
          (addf (addf
            (Host.dotGeneral d none (Host.divf agg (broadcastInDim ⟨2, ![N, D]⟩ ![0, 1] h1 (broadcastInDim ⟨2, ![N, 1]⟩ ![0] h2
              (maximumf cntv (broadcastInDim ⟨1, ![N]⟩ ![] h3 (constant (F := Ideal) ⟨0, ![]⟩ .f32 0x3F800000#32)))))) wl)
            (Host.dotGeneral d none x wr))
          (broadcastInDim ⟨2, ![N, E]⟩ ![0, 1] h4 (broadcastInDim ⟨2, ![1, E]⟩ ![1] h5 bv))))
      = sageVal true agg (shapeCast ⟨2, ![N, 1]⟩ cntv hc) x wl wr (shapeCast ⟨2, ![1, E]⟩ bv hr) := by
  funext i
  obtain ⟨p, q, rfl⟩ : ∃ (p : Fin N) (q : Fin E), i = ix2 p q := ⟨i 0, i 1, eq_ix2 i⟩
  rw [rectified_apply h6 _ (ix2 p q), sageVal_ix2, sageAt_true,
    sagePre_apply d hd1 hd2 hd3 hd4 hd5 hd6 h1 h2 h3 h4 h5 hc hr agg x cntv wl wr bv p q]

/-- THE DENSE LAYER WITHOUT THE RECTIFIER: the reference's tree is `linVal false`. -/
theorem lin_plain (d : DotDims ⟨2, ![N, D]⟩ ⟨2, ![D, E]⟩ ⟨2, ![N, E]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (h4 : (⟨2, ![1, E]⟩ : Shape).BroadcastsInDim ⟨2, ![N, E]⟩ ![0, 1])
    (h5 : (⟨1, ![E]⟩ : Shape).BroadcastsInDim ⟨2, ![1, E]⟩ ![1])
    (hr : (⟨1, ![E]⟩ : Shape).ShapeCasts ⟨2, ![1, E]⟩)
    (x : FVec Ideal ⟨2, ![N, D]⟩ .f32) (w : FVec Ideal ⟨2, ![D, E]⟩ .f32) (bv : FVec Ideal ⟨1, ![E]⟩ .f32) :
    addf (Host.dotGeneral d none x w)
      (broadcastInDim ⟨2, ![N, E]⟩ ![0, 1] h4 (broadcastInDim ⟨2, ![1, E]⟩ ![1] h5 bv))
      = linVal false x w (shapeCast ⟨2, ![1, E]⟩ bv hr) := by
  funext i
  obtain ⟨p, q, rfl⟩ : ∃ (p : Fin N) (q : Fin E), i = ix2 p q := ⟨i 0, i 1, eq_ix2 i⟩
  rw [linVal_ix2]
  exact linPre_apply d hd1 hd2 hd3 hd4 hd5 hd6 h4 h5 hr x w bv p q

/-- THE DENSE LAYER WITH THE RECTIFIER: the choice between the layer's value `v` and `s · v` is `linVal true`. -/
theorem lin_rect (d : DotDims ⟨2, ![N, D]⟩ ⟨2, ![D, E]⟩ ⟨2, ![N, E]⟩)
    (hd1 : d.lhsContracting = [1]) (hd2 : d.rhsContracting = [0]) (hd3 : d.lhsNonContracting = [0])
    (hd4 : d.rhsNonContracting = [1]) (hd5 : d.lhsBatch = []) (hd6 : d.rhsBatch = [])
    (h4 : (⟨2, ![1, E]⟩ : Shape).BroadcastsInDim ⟨2, ![N, E]⟩ ![0, 1])
    (h5 : (⟨1, ![E]⟩ : Shape).BroadcastsInDim ⟨2, ![1, E]⟩ ![1])
    (h6 : (⟨0, ![]⟩ : Shape).BroadcastsInDim ⟨2, ![N, E]⟩ ![])
    (hr : (⟨1, ![E]⟩ : Shape).ShapeCasts ⟨2, ![1, E]⟩)
    (x : FVec Ideal ⟨2, ![N, D]⟩ .f32) (w : FVec Ideal ⟨2, ![D, E]⟩ .f32) (bv : FVec Ideal ⟨1, ![E]⟩ .f32) :
    select
        (cmpf .ogt
          (addf (Host.dotGeneral d none x w)
            (broadcastInDim ⟨2, ![N, E]⟩ ![0, 1] h4 (broadcastInDim ⟨2, ![1, E]⟩ ![1] h5 bv)))
          (broadcastInDim ⟨2, ![N, E]⟩ ![] h6 (constant (F := Ideal) ⟨0, ![]⟩ .f32 0x00000000#32)))
        (addf (Host.dotGeneral d none x w)
          (broadcastInDim ⟨2, ![N, E]⟩ ![0, 1] h4 (broadcastInDim ⟨2, ![1, E]⟩ ![1] h5 bv)))
        (mulf (broadcastInDim ⟨2, ![N, E]⟩ ![] h6 (constant (F := Ideal) ⟨0, ![]⟩ .f32 0x3DCCCCCD#32))
          (addf (Host.dotGeneral d none x w)
            (broadcastInDim ⟨2, ![N, E]⟩ ![0, 1] h4 (broadcastInDim ⟨2, ![1, E]⟩ ![1] h5 bv))))
      = linVal true x w (shapeCast ⟨2, ![1, E]⟩ bv hr) := by
  funext i
  obtain ⟨p, q, rfl⟩ : ∃ (p : Fin N) (q : Fin E), i = ix2 p q := ⟨i 0, i 1, eq_ix2 i⟩
  rw [rectified_apply h6 _ (ix2 p q), linVal_ix2, linAt_true,
    linPre_apply d hd1 hd2 hd3 hd4 hd5 hd6 h4 h5 hr x w bv p q]

end Cert.SageNet

end
-- ==== Proof.RefNet.lean ====
/-
  The reference's whole computation is the three-round network of Spec.lean.

  The reference runs three rounds. A round sums, for every node, the feature rows of its neighbours (the rows are fetched
  along the edge list and added into the row of each edge's target, starting from the zero array), counts the neighbours
  the same way (ones added into a zero vector), and applies a graph layer and then a dense layer to the result. Every
  layer but the last two ends with the leaky rectifier; the last dense layer maps the 128 features to 64.

  Each round recomputes the edge list's two index arrays, the zero array and the neighbour count from the edge list
  alone, by the same operations, so the three copies of each are one array: one summing map `aggr` (RefAggr.lean) and
  one count serve all three rounds. Each layer's output is then the corresponding layer of Spec.lean (HostForms.lean, at
  50000 nodes and 128 features), and putting the six layers inside one another is `netVal`.
-/
import proofs.«159729_j13743895347603_1_alg».proof.Proof.Spec
import proofs.«159729_j13743895347603_1_alg».proof.Proof.HostForms
import proofs.«159729_j13743895347603_1_alg».proof.Proof.RefAggr
import proofs.«159729_j13743895347603_1_alg».proof.Proof.RefStages

noncomputable section

namespace Cert.SageNet.Ref

open Idealize.ShloMosaic Idealize.ShloMosaic.ValueIdx
open Cert.ReferenceIdeal Cert.SageNet.RefStage

/-! ## The later rounds' copies of the index arrays, the zero array and the count are the first round's -/

/-- The source-node index array of the second round is that of the first. -/
theorem gatherIdx_round2 (x1 : (⟨S2x800000, .i32⟩ : BufTy).Contents (Elt Ideal)) : val_main_v64 (F := Ideal) x1 = val_main_v15 (F := Ideal) x1 := rfl

/-- The source-node index array of the third round is that of the first. -/
theorem gatherIdx_round3 (x1 : (⟨S2x800000, .i32⟩ : BufTy).Contents (Elt Ideal)) : val_main_v113 (F := Ideal) x1 = val_main_v15 (F := Ideal) x1 := rfl

/-- The target-node index array of the second round is that of the first. -/
theorem scatterIdx_round2 (x1 : (⟨S2x800000, .i32⟩ : BufTy).Contents (Elt Ideal)) : val_main_v67 (F := Ideal) x1 = val_main_v18 (F := Ideal) x1 := rfl

/-- The target-node index array of the third round is that of the first. -/
theorem scatterIdx_round3 (x1 : (⟨S2x800000, .i32⟩ : BufTy).Contents (Elt Ideal)) : val_main_v116 (F := Ideal) x1 = val_main_v18 (F := Ideal) x1 := rfl

/-- The zero array the second round sums into is the first round's. -/
theorem zeros_round2 : val_main_v66 (F := Ideal) = val_main_v17 (F := Ideal) := rfl

/-- The zero array the third round sums into is the first round's. -/
theorem zeros_round3 : val_main_v115 (F := Ideal) = val_main_v17 (F := Ideal) := rfl

/-- The neighbour count of the second round is that of the first. -/
theorem count_round2 (x1 : (⟨S2x800000, .i32⟩ : BufTy).Contents (Elt Ideal)) : val_main_v72 (F := Ideal) x1 = val_main_v23 (F := Ideal) x1 := rfl

/-- The neighbour count of the third round is that of the first. -/
theorem count_round3 (x1 : (⟨S2x800000, .i32⟩ : BufTy).Contents (Elt Ideal)) : val_main_v121 (F := Ideal) x1 = val_main_v23 (F := Ideal) x1 := rfl

/-- The first round sums the neighbour rows of the input features. -/
theorem aggr_round1 (x0 : (⟨S50000x128, .f32⟩ : BufTy).Contents (Elt Ideal)) (x1 : (⟨S2x800000, .i32⟩ : BufTy).Contents (Elt Ideal)) : val_main_v19 (F := Ideal) x0 x1 = aggr x1 x0 := rfl

/-- The second round sums the neighbour rows of the first round's output. -/
theorem aggr_round2 (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal)) :
    val_main_v68 (F := Ideal) x0 x1 x2 x3 x4 x5 x6 = aggr x1 (val_main_v52 (F := Ideal) x0 x1 x2 x3 x4 x5 x6) := by
  unfold val_main_v68 val_main_v65 aggr
  rw [zeros_round2, scatterIdx_round2, gatherIdx_round2]

/-- The third round sums the neighbour rows of the second round's output. -/
theorem aggr_round3 (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal)) :
    val_main_v117 (F := Ideal) x0 x1 x2 x3 x4 x5 x6 = aggr x1 (val_main_v101 (F := Ideal) x0 x1 x2 x3 x4 x5 x6) := by
  unfold val_main_v117 val_main_v114 aggr
  rw [zeros_round3, scatterIdx_round3, gatherIdx_round3]

/-! ## The six layers -/

/-- Round one, graph layer (rectified): on the input features. -/
theorem graph_round1 (hc : S50000.ShapeCasts S50000x1) (hr : S128.ShapeCasts S1x128)
    (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal)) :
    val_main_v39 (F := Ideal) x0 x1 x2 x3 x4
      = sageVal true (aggr x1 x0) (shapeCast S50000x1 (val_main_v23 (F := Ideal) x1) hc) x0
          (val_main_v5 (F := Ideal) x2) (val_main_v7 (F := Ideal) x3) (shapeCast S1x128 (val_main_v9 (F := Ideal) x4) hr) := by
  unfold val_main_v39 val_main_v38 val_main_v37 val_main_v36 val_main_v35 val_main_v34 val_main_v33 val_main_v32
    val_main_v31 val_main_v30 val_main_v29 val_main_v28 val_main_v27 val_main_v26 val_main_v25 val_main_v24
    val_main_cst_3 val_main_cst_4 val_main_cst_5
  rw [aggr_round1]
  exact sage_rect (N := 50000) (D := 128) (E := 128) dot_S50000x128_S128x128_S50000x128_1_0_0_1_n_n rfl rfl rfl rfl rfl rfl
    _ _ _ _ _ _ hc hr (aggr x1 x0) x0 (val_main_v23 (F := Ideal) x1) (val_main_v5 (F := Ideal) x2) (val_main_v7 (F := Ideal) x3) (val_main_v9 (F := Ideal) x4)

/-- Round one, dense layer (rectified): on the graph layer's output. -/
theorem dense_round1 (hr : S128.ShapeCasts S1x128)
    (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal)) :
    val_main_v52 (F := Ideal) x0 x1 x2 x3 x4 x5 x6
      = linVal true (val_main_v39 (F := Ideal) x0 x1 x2 x3 x4) (val_main_v41 (F := Ideal) x5) (shapeCast S1x128 (val_main_v44 (F := Ideal) x6) hr) := by
  unfold val_main_v52 val_main_v51 val_main_v50 val_main_v49 val_main_v48 val_main_v47 val_main_v46 val_main_v45
    val_main_v42 val_main_cst_6 val_main_cst_7
  exact lin_rect (N := 50000) (D := 128) (E := 128) dot_S50000x128_S128x128_S50000x128_1_0_0_1_n_n rfl rfl rfl rfl rfl rfl
    _ _ _ hr (val_main_v39 (F := Ideal) x0 x1 x2 x3 x4) (val_main_v41 (F := Ideal) x5) (val_main_v44 (F := Ideal) x6)

/-- Round two, graph layer (rectified): on the first round's output. -/
theorem graph_round2 (hc : S50000.ShapeCasts S50000x1) (hr : S128.ShapeCasts S1x128)
    (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal)) :
    val_main_v88 (F := Ideal) x0 x1 x2 x3 x4 x5 x6
      = sageVal true (aggr x1 (val_main_v52 (F := Ideal) x0 x1 x2 x3 x4 x5 x6)) (shapeCast S50000x1 (val_main_v23 (F := Ideal) x1) hc) (val_main_v52 (F := Ideal) x0 x1 x2 x3 x4 x5 x6)
          (val_main_v54 (F := Ideal) x2) (val_main_v56 (F := Ideal) x3) (shapeCast S1x128 (val_main_v58 (F := Ideal) x4) hr) := by
  unfold val_main_v88 val_main_v87 val_main_v86 val_main_v85 val_main_v84 val_main_v83 val_main_v82 val_main_v81
    val_main_v80 val_main_v79 val_main_v78 val_main_v77 val_main_v76 val_main_v75 val_main_v74 val_main_v73
    val_main_cst_13 val_main_cst_14 val_main_cst_15
  rw [aggr_round2, count_round2]
  exact sage_rect (N := 50000) (D := 128) (E := 128) dot_S50000x128_S128x128_S50000x128_1_0_0_1_n_n rfl rfl rfl rfl rfl rfl
    _ _ _ _ _ _ hc hr (aggr x1 (val_main_v52 (F := Ideal) x0 x1 x2 x3 x4 x5 x6)) (val_main_v52 (F := Ideal) x0 x1 x2 x3 x4 x5 x6) (val_main_v23 (F := Ideal) x1)
    (val_main_v54 (F := Ideal) x2) (val_main_v56 (F := Ideal) x3) (val_main_v58 (F := Ideal) x4)

/-- Round two, dense layer (rectified). -/
theorem dense_round2 (hr : S128.ShapeCasts S1x128)
    (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal)) :
    val_main_v101 (F := Ideal) x0 x1 x2 x3 x4 x5 x6
      = linVal true (val_main_v88 (F := Ideal) x0 x1 x2 x3 x4 x5 x6) (val_main_v90 (F := Ideal) x5) (shapeCast S1x128 (val_main_v93 (F := Ideal) x6) hr) := by
  unfold val_main_v101 val_main_v100 val_main_v99 val_main_v98 val_main_v97 val_main_v96 val_main_v95 val_main_v94
    val_main_v91 val_main_cst_16 val_main_cst_17
  exact lin_rect (N := 50000) (D := 128) (E := 128) dot_S50000x128_S128x128_S50000x128_1_0_0_1_n_n rfl rfl rfl rfl rfl rfl
    _ _ _ hr (val_main_v88 (F := Ideal) x0 x1 x2 x3 x4 x5 x6) (val_main_v90 (F := Ideal) x5) (val_main_v93 (F := Ideal) x6)

/-- Round three, graph layer (not rectified): on the second round's output. -/
theorem graph_round3 (hc : S50000.ShapeCasts S50000x1) (hr : S128.ShapeCasts S1x128)
    (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal)) :
    val_main_v132 (F := Ideal) x0 x1 x2 x3 x4 x5 x6
      = sageVal false (aggr x1 (val_main_v101 (F := Ideal) x0 x1 x2 x3 x4 x5 x6)) (shapeCast S50000x1 (val_main_v23 (F := Ideal) x1) hc) (val_main_v101 (F := Ideal) x0 x1 x2 x3 x4 x5 x6)
          (val_main_v103 (F := Ideal) x2) (val_main_v105 (F := Ideal) x3) (shapeCast S1x128 (val_main_v107 (F := Ideal) x4) hr) := by
  unfold val_main_v132 val_main_v131 val_main_v130 val_main_v129 val_main_v128 val_main_v127 val_main_v126
    val_main_v125 val_main_v124 val_main_v123 val_main_v122 val_main_cst_23
  rw [aggr_round3, count_round3]
  exact sage_plain (N := 50000) (D := 128) (E := 128) dot_S50000x128_S128x128_S50000x128_1_0_0_1_n_n rfl rfl rfl rfl rfl rfl
    _ _ _ _ _ hc hr (aggr x1 (val_main_v101 (F := Ideal) x0 x1 x2 x3 x4 x5 x6)) (val_main_v101 (F := Ideal) x0 x1 x2 x3 x4 x5 x6) (val_main_v23 (F := Ideal) x1)
    (val_main_v103 (F := Ideal) x2) (val_main_v105 (F := Ideal) x3) (val_main_v107 (F := Ideal) x4)

/-- The output layer (dense, 128 features to 64, not rectified). -/
theorem dense_out (hr' : S64.ShapeCasts S1x64)
    (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal))
    (x7 : (⟨S128x64, .f32⟩ : BufTy).Contents (Elt Ideal)) (x8 : (⟨S64, .f32⟩ : BufTy).Contents (Elt Ideal)) :
    val_main_v136 (F := Ideal) x0 x1 x2 x3 x4 x5 x6 x7 x8
      = linVal false (val_main_v132 (F := Ideal) x0 x1 x2 x3 x4 x5 x6) x7 (shapeCast S1x64 x8 hr') := by
  unfold val_main_v136 val_main_v135 val_main_v134 val_main_v133
  exact lin_plain (N := 50000) (D := 128) (E := 64) dot_S50000x128_S128x64_S50000x64_1_0_0_1_n_n rfl rfl rfl rfl rfl rfl
    _ _ hr' (val_main_v132 (F := Ideal) x0 x1 x2 x3 x4 x5 x6) x7 x8

/-! ## The network -/

/-- THE REFERENCE'S RESULT IS THE NETWORK: the six layers, each applied to the one before it, with one summing map and
    one neighbour count for the three rounds. -/
theorem result_eq (hc : S50000.ShapeCasts S50000x1) (hr : S128.ShapeCasts S1x128) (hr' : S64.ShapeCasts S1x64)
    (x0 : (⟨S50000x128, .f32⟩ : BufTy).Contents (Elt Ideal)) (x1 : (⟨S2x800000, .i32⟩ : BufTy).Contents (Elt Ideal))
    (x2 x3 : (⟨S3x128x128, .f32⟩ : BufTy).Contents (Elt Ideal)) (x4 : (⟨S3x128, .f32⟩ : BufTy).Contents (Elt Ideal))
    (x5 : (⟨S2x128x128, .f32⟩ : BufTy).Contents (Elt Ideal)) (x6 : (⟨S2x128, .f32⟩ : BufTy).Contents (Elt Ideal))
    (x7 : (⟨S128x64, .f32⟩ : BufTy).Contents (Elt Ideal)) (x8 : (⟨S64, .f32⟩ : BufTy).Contents (Elt Ideal)) :
    val_main_v136 (F := Ideal) x0 x1 x2 x3 x4 x5 x6 x7 x8 =
      netVal (aggr x1) (shapeCast S50000x1 (val_main_v23 (F := Ideal) x1) hc) x0
        (val_main_v5 (F := Ideal) x2) (val_main_v7 (F := Ideal) x3) (shapeCast S1x128 (val_main_v9 (F := Ideal) x4) hr)
        (val_main_v41 (F := Ideal) x5) (shapeCast S1x128 (val_main_v44 (F := Ideal) x6) hr)
        (val_main_v54 (F := Ideal) x2) (val_main_v56 (F := Ideal) x3) (shapeCast S1x128 (val_main_v58 (F := Ideal) x4) hr)
        (val_main_v90 (F := Ideal) x5) (shapeCast S1x128 (val_main_v93 (F := Ideal) x6) hr)
        (val_main_v103 (F := Ideal) x2) (val_main_v105 (F := Ideal) x3) (shapeCast S1x128 (val_main_v107 (F := Ideal) x4) hr)
        x7 (shapeCast S1x64 x8 hr') := by
  rw [dense_out hr', graph_round3 hc hr, dense_round2 hr, graph_round2 hc hr, dense_round1 hr, graph_round1 hc hr]
  rfl

end Cert.SageNet.Ref

end
-- ==== Proof.RefRunOps.lean ====
/-
  The reference program as a list of operations, cut layer by layer.

  @main is a straight line of 163 host operations. The line is cut after each of the six layers' outputs into segments
  seg0 … seg5. Running a list after another is running their concatenation, so the buffer contents after the whole line
  are reached segment by segment: Y0 (the launch memory), Y1 … Y6. A segment writes only its own intermediate buffers,
  so the arguments, and the two edge-index vectors of the first segment, keep their contents through the later segments.
-/
import proofs.«159729_j13743895347603_1_alg».proof.Proof.Gen.ReferenceIdeal
import proofs.«159729_j13743895347603_1_alg».proof.Proof.RefStages
import Idealize.ShloMosaic.Lib.StableHlo.Run

noncomputable section

namespace Cert.SageNet.Ref

open Cert.ReferenceIdeal Cert.ReferenceIdeal.Gen Cert.SageNet.RefStage
open Idealize.ShloMosaic Idealize.ShloMosaic.TcCoe Idealize.SL.Sem Idealize.ShloMosaic.StableHlo

variable {F : FTy → Type} [FloatOps F]

/-- Layer 0's operations. -/
abbrev seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v4 main_v5 rfl shapeCasts_S1x128x128_S128x128,
    unary main_arg3 main_v6 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v6 main_v7 rfl shapeCasts_S1x128x128_S128x128,
    unary main_arg4 main_v8 ((extractStridedSlice S1x128 ![0, 0] · slices_S3x128_S1x128_0_0) : (⟨S3x128, .f32⟩ : BufTy).Contents (Elt F) → (⟨S1x128, .f32⟩ : BufTy).Contents (Elt F)),
    reshape main_v8 main_v9 rfl shapeCasts_S1x128_S128,
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v1 main_v10 main_v11 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v12 (broadcastInDim S800000 ![] bcast_S_S800000 : (⟨S_, .i32⟩ : BufTy).Contents (Elt F) → (⟨S800000, .i32⟩ : BufTy).Contents (Elt F)),
    binary main_v1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_arg0 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v17 (broadcastInDim S50000x128 ![] bcast_S_S50000x128 : (⟨S_, .f32⟩ : BufTy).Contents (Elt F) → (⟨S50000x128, .f32⟩ : BufTy).Contents (Elt F)),
    unary main_v3 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v20 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v21 (broadcastInDim S50000 ![] bcast_S_S50000 : (⟨S_, .f32⟩ : BufTy).Contents (Elt F) → (⟨S50000, .f32⟩ : BufTy).Contents (Elt F)),
    unary main_v3 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v24 (broadcastInDim S50000 ![] bcast_S_S50000 : (⟨S_, .f32⟩ : BufTy).Contents (Elt F) → (⟨S50000, .f32⟩ : BufTy).Contents (Elt F)),
    binary main_v23 main_v24 main_v25 (maximumf : (⟨S50000, .f32⟩ : BufTy).Contents (Elt F) → (⟨S50000, .f32⟩ : BufTy).Contents (Elt F) → (⟨S50000, .f32⟩ : BufTy).Contents (Elt F)),
    unary main_v25 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v19 main_v27 main_v28 (Host.divf : (⟨S50000x128, .f32⟩ : BufTy).Contents (Elt F) → (⟨S50000x128, .f32⟩ : BufTy).Contents (Elt F) → (⟨S50000x128, .f32⟩ : BufTy).Contents (Elt F)),
    binary main_v28 main_v5 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_v7 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v29 main_v30 main_v31 (addf : (⟨S50000x128, .f32⟩ : BufTy).Contents (Elt F) → (⟨S50000x128, .f32⟩ : BufTy).Contents (Elt F) → (⟨S50000x128, .f32⟩ : BufTy).Contents (Elt F)),
    unary main_v9 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v31 main_v33 main_v34 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    unary main_cst_4 main_v35 (broadcastInDim S50000x128 ![] bcast_S_S50000x128 : (⟨S_, .f32⟩ : BufTy).Contents (Elt F) → (⟨S50000x128, .f32⟩ : BufTy).Contents (Elt F)),
    binary main_v34 main_v35 main_v36 (cmpf .ogt : (⟨S50000x128, .f32⟩ : BufTy).Contents (Elt F) → (⟨S50000x128, .f32⟩ : BufTy).Contents (Elt F) → (⟨S50000x128, .i1⟩ : BufTy).Contents (Elt F)),
    nullary main_cst_5 (constant S_ .f32 0x3DCCCCCD#32),
    unary main_cst_5 main_v37 (broadcastInDim S50000x128 ![] bcast_S_S50000x128 : (⟨S_, .f32⟩ : BufTy).Contents (Elt F) → (⟨S50000x128, .f32⟩ : BufTy).Contents (Elt F)),
    binary main_v37 main_v34 main_v38 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v36) (TRef.of (T := ⟨S50000x128, .f32⟩) main_v34) (TRef.of (T := ⟨S50000x128, .f32⟩) main_v38) (TRef.of (T := ⟨S50000x128, .f32⟩) main_v39) select ]

/-- Layer 1's operations. -/
abbrev seg1 : List (HloOp τ sig (Elt F)) :=
  [ unary main_arg5 main_v40 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v40 main_v41 rfl shapeCasts_S1x128x128_S128x128,
    binary main_v39 main_v41 main_v42 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v43 ((extractStridedSlice S1x128 ![0, 0] · slices_S2x128_S1x128_0_0) : (⟨S2x128, .f32⟩ : BufTy).Contents (Elt F) → (⟨S1x128, .f32⟩ : BufTy).Contents (Elt F)),
    reshape main_v43 main_v44 rfl shapeCasts_S1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v42 main_v46 main_v47 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    unary main_cst_6 main_v48 (broadcastInDim S50000x128 ![] bcast_S_S50000x128 : (⟨S_, .f32⟩ : BufTy).Contents (Elt F) → (⟨S50000x128, .f32⟩ : BufTy).Contents (Elt F)),
    binary main_v47 main_v48 main_v49 (cmpf .ogt : (⟨S50000x128, .f32⟩ : BufTy).Contents (Elt F) → (⟨S50000x128, .f32⟩ : BufTy).Contents (Elt F) → (⟨S50000x128, .i1⟩ : BufTy).Contents (Elt F)),
    nullary main_cst_7 (constant S_ .f32 0x3DCCCCCD#32),
    unary main_cst_7 main_v50 (broadcastInDim S50000x128 ![] bcast_S_S50000x128 : (⟨S_, .f32⟩ : BufTy).Contents (Elt F) → (⟨S50000x128, .f32⟩ : BufTy).Contents (Elt F)),
    binary main_v50 main_v47 main_v51 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v49) (TRef.of (T := ⟨S50000x128, .f32⟩) main_v47) (TRef.of (T := ⟨S50000x128, .f32⟩) main_v51) (TRef.of (T := ⟨S50000x128, .f32⟩) main_v52) select ]

/-- Layer 2's operations. -/
abbrev seg2 : List (HloOp τ sig (Elt F)) :=
  [ unary main_arg2 main_v53 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v53 main_v54 rfl shapeCasts_S1x128x128_S128x128,
    unary main_arg3 main_v55 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v55 main_v56 rfl shapeCasts_S1x128x128_S128x128,
    unary main_arg4 main_v57 ((extractStridedSlice S1x128 ![1, 0] · slices_S3x128_S1x128_1_0) : (⟨S3x128, .f32⟩ : BufTy).Contents (Elt F) → (⟨S1x128, .f32⟩ : BufTy).Contents (Elt F)),
    reshape main_v57 main_v58 rfl shapeCasts_S1x128_S128,
    nullary main_c_8 (constantI S_ 32 0#32),
    unary main_c_8 main_v59 (broadcastInDim S800000 ![] bcast_S_S800000 : (⟨S_, .i32⟩ : BufTy).Contents (Elt F) → (⟨S800000, .i32⟩ : BufTy).Contents (Elt F)),
    binary main_v1 main_v59 main_v60 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v61 (broadcastInDim S800000 ![] bcast_S_S800000 : (⟨S_, .i32⟩ : BufTy).Contents (Elt F) → (⟨S800000, .i32⟩ : BufTy).Contents (Elt F)),
    binary main_v1 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    binary main_v52 main_v64 main_v65 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v66 (broadcastInDim S50000x128 ![] bcast_S_S50000x128 : (⟨S_, .f32⟩ : BufTy).Contents (Elt F) → (⟨S50000x128, .f32⟩ : BufTy).Contents (Elt F)),
    unary main_v3 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_11 (constant S_ .f32 0x3F800000#32),
    unary main_cst_11 main_v69 (broadcastInDim S800000 ![] bcast_S_S800000 : (⟨S_, .f32⟩ : BufTy).Contents (Elt F) → (⟨S800000, .f32⟩ : BufTy).Contents (Elt F)),
    nullary main_cst_12 (constant S_ .f32 0x00000000#32),
    unary main_cst_12 main_v70 (broadcastInDim S50000 ![] bcast_S_S50000 : (⟨S_, .f32⟩ : BufTy).Contents (Elt F) → (⟨S50000, .f32⟩ : BufTy).Contents (Elt F)),
    unary main_v3 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_13 (constant S_ .f32 0x3F800000#32),
    unary main_cst_13 main_v73 (broadcastInDim S50000 ![] bcast_S_S50000 : (⟨S_, .f32⟩ : BufTy).Contents (Elt F) → (⟨S50000, .f32⟩ : BufTy).Contents (Elt F)),
    binary main_v72 main_v73 main_v74 (maximumf : (⟨S50000, .f32⟩ : BufTy).Contents (Elt F) → (⟨S50000, .f32⟩ : BufTy).Contents (Elt F) → (⟨S50000, .f32⟩ : BufTy).Contents (Elt F)),
    unary main_v74 main_v75 (broadcastInDim S50000x1 ![0] bcast_S50000_S50000x1_0 : (⟨S50000, .f32⟩ : BufTy).Contents (Elt F) → (⟨S50000x1, .f32⟩ : BufTy).Contents (Elt F)),
    unary main_v75 main_v76 (broadcastInDim S50000x128 ![0, 1] bcast_S50000x1_S50000x128_0_1 : (⟨S50000x1, .f32⟩ : BufTy).Contents (Elt F) → (⟨S50000x128, .f32⟩ : BufTy).Contents (Elt F)),
    binary main_v68 main_v76 main_v77 (Host.divf : (⟨S50000x128, .f32⟩ : BufTy).Contents (Elt F) → (⟨S50000x128, .f32⟩ : BufTy).Contents (Elt F) → (⟨S50000x128, .f32⟩ : BufTy).Contents (Elt F)),
    binary main_v77 main_v54 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v52 main_v56 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v78 main_v79 main_v80 (addf : (⟨S50000x128, .f32⟩ : BufTy).Contents (Elt F) → (⟨S50000x128, .f32⟩ : BufTy).Contents (Elt F) → (⟨S50000x128, .f32⟩ : BufTy).Contents (Elt F)),
    unary main_v58 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v80 main_v82 main_v83 (addf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    unary main_cst_14 main_v84 (broadcastInDim S50000x128 ![] bcast_S_S50000x128 : (⟨S_, .f32⟩ : BufTy).Contents (Elt F) → (⟨S50000x128, .f32⟩ : BufTy).Contents (Elt F)),
    binary main_v83 main_v84 main_v85 (cmpf .ogt : (⟨S50000x128, .f32⟩ : BufTy).Contents (Elt F) → (⟨S50000x128, .f32⟩ : BufTy).Contents (Elt F) → (⟨S50000x128, .i1⟩ : BufTy).Contents (Elt F)),
    nullary main_cst_15 (constant S_ .f32 0x3DCCCCCD#32),
    unary main_cst_15 main_v86 (broadcastInDim S50000x128 ![] bcast_S_S50000x128 : (⟨S_, .f32⟩ : BufTy).Contents (Elt F) → (⟨S50000x128, .f32⟩ : BufTy).Contents (Elt F)),
    binary main_v86 main_v83 main_v87 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v85) (TRef.of (T := ⟨S50000x128, .f32⟩) main_v83) (TRef.of (T := ⟨S50000x128, .f32⟩) main_v87) (TRef.of (T := ⟨S50000x128, .f32⟩) main_v88) select ]

/-- Layer 3's operations. -/
abbrev seg3 : List (HloOp τ sig (Elt F)) :=
  [ unary main_arg5 main_v89 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v89 main_v90 rfl shapeCasts_S1x128x128_S128x128,
    binary main_v88 main_v90 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v92 ((extractStridedSlice S1x128 ![1, 0] · slices_S2x128_S1x128_1_0) : (⟨S2x128, .f32⟩ : BufTy).Contents (Elt F) → (⟨S1x128, .f32⟩ : BufTy).Contents (Elt F)),
    reshape main_v92 main_v93 rfl shapeCasts_S1x128_S128,
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v91 main_v95 main_v96 (addf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    unary main_cst_16 main_v97 (broadcastInDim S50000x128 ![] bcast_S_S50000x128 : (⟨S_, .f32⟩ : BufTy).Contents (Elt F) → (⟨S50000x128, .f32⟩ : BufTy).Contents (Elt F)),
    binary main_v96 main_v97 main_v98 (cmpf .ogt : (⟨S50000x128, .f32⟩ : BufTy).Contents (Elt F) → (⟨S50000x128, .f32⟩ : BufTy).Contents (Elt F) → (⟨S50000x128, .i1⟩ : BufTy).Contents (Elt F)),
    nullary main_cst_17 (constant S_ .f32 0x3DCCCCCD#32),
    unary main_cst_17 main_v99 (broadcastInDim S50000x128 ![] bcast_S_S50000x128 : (⟨S_, .f32⟩ : BufTy).Contents (Elt F) → (⟨S50000x128, .f32⟩ : BufTy).Contents (Elt F)),
    binary main_v99 main_v96 main_v100 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v98) (TRef.of (T := ⟨S50000x128, .f32⟩) main_v96) (TRef.of (T := ⟨S50000x128, .f32⟩) main_v100) (TRef.of (T := ⟨S50000x128, .f32⟩) main_v101) select ]

/-- Layer 4's operations. -/
abbrev seg4 : List (HloOp τ sig (Elt F)) :=
  [ unary main_arg2 main_v102 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v102 main_v103 rfl shapeCasts_S1x128x128_S128x128,
    unary main_arg3 main_v104 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v104 main_v105 rfl shapeCasts_S1x128x128_S128x128,
    unary main_arg4 main_v106 ((extractStridedSlice S1x128 ![2, 0] · slices_S3x128_S1x128_2_0) : (⟨S3x128, .f32⟩ : BufTy).Contents (Elt F) → (⟨S1x128, .f32⟩ : BufTy).Contents (Elt F)),
    reshape main_v106 main_v107 rfl shapeCasts_S1x128_S128,
    nullary main_c_18 (constantI S_ 32 0#32),
    unary main_c_18 main_v108 (broadcastInDim S800000 ![] bcast_S_S800000 : (⟨S_, .i32⟩ : BufTy).Contents (Elt F) → (⟨S800000, .i32⟩ : BufTy).Contents (Elt F)),
    binary main_v1 main_v108 main_v109 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v110 (broadcastInDim S800000 ![] bcast_S_S800000 : (⟨S_, .i32⟩ : BufTy).Contents (Elt F) → (⟨S800000, .i32⟩ : BufTy).Contents (Elt F)),
    binary main_v1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v101 main_v113 main_v114 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_20 (constant S_ .f32 0x00000000#32),
    unary main_cst_20 main_v115 (broadcastInDim S50000x128 ![] bcast_S_S50000x128 : (⟨S_, .f32⟩ : BufTy).Contents (Elt F) → (⟨S50000x128, .f32⟩ : BufTy).Contents (Elt F)),
    unary main_v3 main_v116 (broadcastInDim S800000x1 ![0] bcast_S800000_S800000x1_0 : (⟨S800000, .i32⟩ : BufTy).Contents (Elt F) → (⟨S800000x1, .i32⟩ : BufTy).Contents (Elt F)),
    ternary main_v115 main_v116 main_v114 main_v117 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_21 (constant S_ .f32 0x3F800000#32),
    unary main_cst_21 main_v118 (broadcastInDim S800000 ![] bcast_S_S800000 : (⟨S_, .f32⟩ : BufTy).Contents (Elt F) → (⟨S800000, .f32⟩ : BufTy).Contents (Elt F)),
    nullary main_cst_22 (constant S_ .f32 0x00000000#32),
    unary main_cst_22 main_v119 (broadcastInDim S50000 ![] bcast_S_S50000 : (⟨S_, .f32⟩ : BufTy).Contents (Elt F) → (⟨S50000, .f32⟩ : BufTy).Contents (Elt F)),
    unary main_v3 main_v120 (broadcastInDim S800000x1 ![0] bcast_S800000_S800000x1_0 : (⟨S800000, .i32⟩ : BufTy).Contents (Elt F) → (⟨S800000x1, .i32⟩ : BufTy).Contents (Elt F)),
    ternary main_v119 main_v120 main_v118 main_v121 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_23 (constant S_ .f32 0x3F800000#32),
    unary main_cst_23 main_v122 (broadcastInDim S50000 ![] bcast_S_S50000 : (⟨S_, .f32⟩ : BufTy).Contents (Elt F) → (⟨S50000, .f32⟩ : BufTy).Contents (Elt F)),
    binary main_v121 main_v122 main_v123 (maximumf : (⟨S50000, .f32⟩ : BufTy).Contents (Elt F) → (⟨S50000, .f32⟩ : BufTy).Contents (Elt F) → (⟨S50000, .f32⟩ : BufTy).Contents (Elt F)),
    unary main_v123 main_v124 (broadcastInDim S50000x1 ![0] bcast_S50000_S50000x1_0 : (⟨S50000, .f32⟩ : BufTy).Contents (Elt F) → (⟨S50000x1, .f32⟩ : BufTy).Contents (Elt F)),
    unary main_v124 main_v125 (broadcastInDim S50000x128 ![0, 1] bcast_S50000x1_S50000x128_0_1 : (⟨S50000x1, .f32⟩ : BufTy).Contents (Elt F) → (⟨S50000x128, .f32⟩ : BufTy).Contents (Elt F)),
    binary main_v117 main_v125 main_v126 (Host.divf : (⟨S50000x128, .f32⟩ : BufTy).Contents (Elt F) → (⟨S50000x128, .f32⟩ : BufTy).Contents (Elt F) → (⟨S50000x128, .f32⟩ : BufTy).Contents (Elt F)),
    binary main_v126 main_v103 main_v127 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v101 main_v105 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v127 main_v128 main_v129 (addf : (⟨S50000x128, .f32⟩ : BufTy).Contents (Elt F) → (⟨S50000x128, .f32⟩ : BufTy).Contents (Elt F) → (⟨S50000x128, .f32⟩ : BufTy).Contents (Elt F)),
    unary main_v107 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v129 main_v131 main_v132 (addf : (⟨S50000x128, .f32⟩ : BufTy).Contents (Elt F) → (⟨S50000x128, .f32⟩ : BufTy).Contents (Elt F) → (⟨S50000x128, .f32⟩ : BufTy).Contents (Elt F)) ]

/-- Layer 5's operations. -/
abbrev seg5 : List (HloOp τ sig (Elt F)) :=
  [ binary main_v132 main_arg7 main_v133 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg8 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (addf : (⟨S50000x64, .f32⟩ : BufTy).Contents (Elt F) → (⟨S50000x64, .f32⟩ : BufTy).Contents (Elt F) → (⟨S50000x64, .f32⟩ : BufTy).Contents (Elt F)) ]

/-- @main's operations, in order. -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v4 main_v5 rfl shapeCasts_S1x128x128_S128x128,
    unary main_arg3 main_v6 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v6 main_v7 rfl shapeCasts_S1x128x128_S128x128,
    unary main_arg4 main_v8 ((extractStridedSlice S1x128 ![0, 0] · slices_S3x128_S1x128_0_0) : (⟨S3x128, .f32⟩ : BufTy).Contents (Elt F) → (⟨S1x128, .f32⟩ : BufTy).Contents (Elt F)),
    reshape main_v8 main_v9 rfl shapeCasts_S1x128_S128,
    nullary main_c (constantI S_ 32 0#32),
    unary main_c main_v10 (broadcastInDim S800000 ![] bcast_S_S800000 : (⟨S_, .i32⟩ : BufTy).Contents (Elt F) → (⟨S800000, .i32⟩ : BufTy).Contents (Elt F)),
    binary main_v1 main_v10 main_v11 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v12 (broadcastInDim S800000 ![] bcast_S_S800000 : (⟨S_, .i32⟩ : BufTy).Contents (Elt F) → (⟨S800000, .i32⟩ : BufTy).Contents (Elt F)),
    binary main_v1 main_v12 main_v13 (addi : (⟨S800000, .i32⟩ : BufTy).Contents (Elt F) → (⟨S800000, .i32⟩ : BufTy).Contents (Elt F) → (⟨S800000, .i32⟩ : BufTy).Contents (Elt F)),
    ternary main_v11 main_v13 main_v1 main_v14 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v14 main_v15 (broadcastInDim S800000x1 ![0] bcast_S800000_S800000x1_0 : (⟨S800000, .i32⟩ : BufTy).Contents (Elt F) → (⟨S800000x1, .i32⟩ : BufTy).Contents (Elt F)),
    binary main_arg0 main_v15 main_v16 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v17 (broadcastInDim S50000x128 ![] bcast_S_S50000x128 : (⟨S_, .f32⟩ : BufTy).Contents (Elt F) → (⟨S50000x128, .f32⟩ : BufTy).Contents (Elt F)),
    unary main_v3 main_v18 (broadcastInDim S800000x1 ![0] bcast_S800000_S800000x1_0 : (⟨S800000, .i32⟩ : BufTy).Contents (Elt F) → (⟨S800000x1, .i32⟩ : BufTy).Contents (Elt F)),
    ternary main_v17 main_v18 main_v16 main_v19 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v20 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v21 (broadcastInDim S50000 ![] bcast_S_S50000 : (⟨S_, .f32⟩ : BufTy).Contents (Elt F) → (⟨S50000, .f32⟩ : BufTy).Contents (Elt F)),
    unary main_v3 main_v22 (broadcastInDim S800000x1 ![0] bcast_S800000_S800000x1_0 : (⟨S800000, .i32⟩ : BufTy).Contents (Elt F) → (⟨S800000x1, .i32⟩ : BufTy).Contents (Elt F)),
    ternary main_v21 main_v22 main_v20 main_v23 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v24 (broadcastInDim S50000 ![] bcast_S_S50000 : (⟨S_, .f32⟩ : BufTy).Contents (Elt F) → (⟨S50000, .f32⟩ : BufTy).Contents (Elt F)),
    binary main_v23 main_v24 main_v25 (maximumf : (⟨S50000, .f32⟩ : BufTy).Contents (Elt F) → (⟨S50000, .f32⟩ : BufTy).Contents (Elt F) → (⟨S50000, .f32⟩ : BufTy).Contents (Elt F)),
    unary main_v25 main_v26 (broadcastInDim S50000x1 ![0] bcast_S50000_S50000x1_0 : (⟨S50000, .f32⟩ : BufTy).Contents (Elt F) → (⟨S50000x1, .f32⟩ : BufTy).Contents (Elt F)),
    unary main_v26 main_v27 (broadcastInDim S50000x128 ![0, 1] bcast_S50000x1_S50000x128_0_1 : (⟨S50000x1, .f32⟩ : BufTy).Contents (Elt F) → (⟨S50000x128, .f32⟩ : BufTy).Contents (Elt F)),
    binary main_v19 main_v27 main_v28 (Host.divf : (⟨S50000x128, .f32⟩ : BufTy).Contents (Elt F) → (⟨S50000x128, .f32⟩ : BufTy).Contents (Elt F) → (⟨S50000x128, .f32⟩ : BufTy).Contents (Elt F)),
    binary main_v28 main_v5 main_v29 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_arg0 main_v7 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v29 main_v30 main_v31 (addf : (⟨S50000x128, .f32⟩ : BufTy).Contents (Elt F) → (⟨S50000x128, .f32⟩ : BufTy).Contents (Elt F) → (⟨S50000x128, .f32⟩ : BufTy).Contents (Elt F)),
    unary main_v9 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v31 main_v33 main_v34 (addf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x00000000#32),
    unary main_cst_4 main_v35 (broadcastInDim S50000x128 ![] bcast_S_S50000x128 : (⟨S_, .f32⟩ : BufTy).Contents (Elt F) → (⟨S50000x128, .f32⟩ : BufTy).Contents (Elt F)),
    binary main_v34 main_v35 main_v36 (cmpf .ogt : (⟨S50000x128, .f32⟩ : BufTy).Contents (Elt F) → (⟨S50000x128, .f32⟩ : BufTy).Contents (Elt F) → (⟨S50000x128, .i1⟩ : BufTy).Contents (Elt F)),
    nullary main_cst_5 (constant S_ .f32 0x3DCCCCCD#32),
    unary main_cst_5 main_v37 (broadcastInDim S50000x128 ![] bcast_S_S50000x128 : (⟨S_, .f32⟩ : BufTy).Contents (Elt F) → (⟨S50000x128, .f32⟩ : BufTy).Contents (Elt F)),
    binary main_v37 main_v34 main_v38 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v36) (TRef.of (T := ⟨S50000x128, .f32⟩) main_v34) (TRef.of (T := ⟨S50000x128, .f32⟩) main_v38) (TRef.of (T := ⟨S50000x128, .f32⟩) main_v39) select,
    unary main_arg5 main_v40 ((extractStridedSlice S1x128x128 ![0, 0, 0] · slices_S2x128x128_S1x128x128_0_0_0) : (⟨S2x128x128, .f32⟩ : BufTy).Contents (Elt F) → (⟨S1x128x128, .f32⟩ : BufTy).Contents (Elt F)),
    reshape main_v40 main_v41 rfl shapeCasts_S1x128x128_S128x128,
    binary main_v39 main_v41 main_v42 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v43 ((extractStridedSlice S1x128 ![0, 0] · slices_S2x128_S1x128_0_0) : (⟨S2x128, .f32⟩ : BufTy).Contents (Elt F) → (⟨S1x128, .f32⟩ : BufTy).Contents (Elt F)),
    reshape main_v43 main_v44 rfl shapeCasts_S1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v42 main_v46 main_v47 (addf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x00000000#32),
    unary main_cst_6 main_v48 (broadcastInDim S50000x128 ![] bcast_S_S50000x128 : (⟨S_, .f32⟩ : BufTy).Contents (Elt F) → (⟨S50000x128, .f32⟩ : BufTy).Contents (Elt F)),
    binary main_v47 main_v48 main_v49 (cmpf .ogt : (⟨S50000x128, .f32⟩ : BufTy).Contents (Elt F) → (⟨S50000x128, .f32⟩ : BufTy).Contents (Elt F) → (⟨S50000x128, .i1⟩ : BufTy).Contents (Elt F)),
    nullary main_cst_7 (constant S_ .f32 0x3DCCCCCD#32),
    unary main_cst_7 main_v50 (broadcastInDim S50000x128 ![] bcast_S_S50000x128 : (⟨S_, .f32⟩ : BufTy).Contents (Elt F) → (⟨S50000x128, .f32⟩ : BufTy).Contents (Elt F)),
    binary main_v50 main_v47 main_v51 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v49) (TRef.of (T := ⟨S50000x128, .f32⟩) main_v47) (TRef.of (T := ⟨S50000x128, .f32⟩) main_v51) (TRef.of (T := ⟨S50000x128, .f32⟩) main_v52) select,
    unary main_arg2 main_v53 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v53 main_v54 rfl shapeCasts_S1x128x128_S128x128,
    unary main_arg3 main_v55 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v55 main_v56 rfl shapeCasts_S1x128x128_S128x128,
    unary main_arg4 main_v57 ((extractStridedSlice S1x128 ![1, 0] · slices_S3x128_S1x128_1_0) : (⟨S3x128, .f32⟩ : BufTy).Contents (Elt F) → (⟨S1x128, .f32⟩ : BufTy).Contents (Elt F)),
    reshape main_v57 main_v58 rfl shapeCasts_S1x128_S128,
    nullary main_c_8 (constantI S_ 32 0#32),
    unary main_c_8 main_v59 (broadcastInDim S800000 ![] bcast_S_S800000 : (⟨S_, .i32⟩ : BufTy).Contents (Elt F) → (⟨S800000, .i32⟩ : BufTy).Contents (Elt F)),
    binary main_v1 main_v59 main_v60 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v61 (broadcastInDim S800000 ![] bcast_S_S800000 : (⟨S_, .i32⟩ : BufTy).Contents (Elt F) → (⟨S800000, .i32⟩ : BufTy).Contents (Elt F)),
    binary main_v1 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_v1 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    binary main_v52 main_v64 main_v65 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_10 (constant S_ .f32 0x00000000#32),
    unary main_cst_10 main_v66 (broadcastInDim S50000x128 ![] bcast_S_S50000x128 : (⟨S_, .f32⟩ : BufTy).Contents (Elt F) → (⟨S50000x128, .f32⟩ : BufTy).Contents (Elt F)),
    unary main_v3 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_11 (constant S_ .f32 0x3F800000#32),
    unary main_cst_11 main_v69 (broadcastInDim S800000 ![] bcast_S_S800000 : (⟨S_, .f32⟩ : BufTy).Contents (Elt F) → (⟨S800000, .f32⟩ : BufTy).Contents (Elt F)),
    nullary main_cst_12 (constant S_ .f32 0x00000000#32),
    unary main_cst_12 main_v70 (broadcastInDim S50000 ![] bcast_S_S50000 : (⟨S_, .f32⟩ : BufTy).Contents (Elt F) → (⟨S50000, .f32⟩ : BufTy).Contents (Elt F)),
    unary main_v3 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_13 (constant S_ .f32 0x3F800000#32),
    unary main_cst_13 main_v73 (broadcastInDim S50000 ![] bcast_S_S50000 : (⟨S_, .f32⟩ : BufTy).Contents (Elt F) → (⟨S50000, .f32⟩ : BufTy).Contents (Elt F)),
    binary main_v72 main_v73 main_v74 (maximumf : (⟨S50000, .f32⟩ : BufTy).Contents (Elt F) → (⟨S50000, .f32⟩ : BufTy).Contents (Elt F) → (⟨S50000, .f32⟩ : BufTy).Contents (Elt F)),
    unary main_v74 main_v75 (broadcastInDim S50000x1 ![0] bcast_S50000_S50000x1_0 : (⟨S50000, .f32⟩ : BufTy).Contents (Elt F) → (⟨S50000x1, .f32⟩ : BufTy).Contents (Elt F)),
    unary main_v75 main_v76 (broadcastInDim S50000x128 ![0, 1] bcast_S50000x1_S50000x128_0_1 : (⟨S50000x1, .f32⟩ : BufTy).Contents (Elt F) → (⟨S50000x128, .f32⟩ : BufTy).Contents (Elt F)),
    binary main_v68 main_v76 main_v77 (Host.divf : (⟨S50000x128, .f32⟩ : BufTy).Contents (Elt F) → (⟨S50000x128, .f32⟩ : BufTy).Contents (Elt F) → (⟨S50000x128, .f32⟩ : BufTy).Contents (Elt F)),
    binary main_v77 main_v54 main_v78 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v52 main_v56 main_v79 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v78 main_v79 main_v80 (addf : (⟨S50000x128, .f32⟩ : BufTy).Contents (Elt F) → (⟨S50000x128, .f32⟩ : BufTy).Contents (Elt F) → (⟨S50000x128, .f32⟩ : BufTy).Contents (Elt F)),
    unary main_v58 main_v81 (broadcastInDim S1x128 ![1] bcast_S128_S1x128_1 : (⟨S128, .f32⟩ : BufTy).Contents (Elt F) → (⟨S1x128, .f32⟩ : BufTy).Contents (Elt F)),
    unary main_v81 main_v82 (broadcastInDim S50000x128 ![0, 1] bcast_S1x128_S50000x128_0_1 : (⟨S1x128, .f32⟩ : BufTy).Contents (Elt F) → (⟨S50000x128, .f32⟩ : BufTy).Contents (Elt F)),
    binary main_v80 main_v82 main_v83 (addf : (⟨S50000x128, .f32⟩ : BufTy).Contents (Elt F) → (⟨S50000x128, .f32⟩ : BufTy).Contents (Elt F) → (⟨S50000x128, .f32⟩ : BufTy).Contents (Elt F)),
    nullary main_cst_14 (constant S_ .f32 0x00000000#32),
    unary main_cst_14 main_v84 (broadcastInDim S50000x128 ![] bcast_S_S50000x128 : (⟨S_, .f32⟩ : BufTy).Contents (Elt F) → (⟨S50000x128, .f32⟩ : BufTy).Contents (Elt F)),
    binary main_v83 main_v84 main_v85 (cmpf .ogt : (⟨S50000x128, .f32⟩ : BufTy).Contents (Elt F) → (⟨S50000x128, .f32⟩ : BufTy).Contents (Elt F) → (⟨S50000x128, .i1⟩ : BufTy).Contents (Elt F)),
    nullary main_cst_15 (constant S_ .f32 0x3DCCCCCD#32),
    unary main_cst_15 main_v86 (broadcastInDim S50000x128 ![] bcast_S_S50000x128 : (⟨S_, .f32⟩ : BufTy).Contents (Elt F) → (⟨S50000x128, .f32⟩ : BufTy).Contents (Elt F)),
    binary main_v86 main_v83 main_v87 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v85) (TRef.of (T := ⟨S50000x128, .f32⟩) main_v83) (TRef.of (T := ⟨S50000x128, .f32⟩) main_v87) (TRef.of (T := ⟨S50000x128, .f32⟩) main_v88) select,
    unary main_arg5 main_v89 ((extractStridedSlice S1x128x128 ![1, 0, 0] · slices_S2x128x128_S1x128x128_1_0_0) : (⟨S2x128x128, .f32⟩ : BufTy).Contents (Elt F) → (⟨S1x128x128, .f32⟩ : BufTy).Contents (Elt F)),
    reshape main_v89 main_v90 rfl shapeCasts_S1x128x128_S128x128,
    binary main_v88 main_v90 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg6 main_v92 ((extractStridedSlice S1x128 ![1, 0] · slices_S2x128_S1x128_1_0) : (⟨S2x128, .f32⟩ : BufTy).Contents (Elt F) → (⟨S1x128, .f32⟩ : BufTy).Contents (Elt F)),
    reshape main_v92 main_v93 rfl shapeCasts_S1x128_S128,
    unary main_v93 main_v94 (broadcastInDim S1x128 ![1] bcast_S128_S1x128_1 : (⟨S128, .f32⟩ : BufTy).Contents (Elt F) → (⟨S1x128, .f32⟩ : BufTy).Contents (Elt F)),
    unary main_v94 main_v95 (broadcastInDim S50000x128 ![0, 1] bcast_S1x128_S50000x128_0_1 : (⟨S1x128, .f32⟩ : BufTy).Contents (Elt F) → (⟨S50000x128, .f32⟩ : BufTy).Contents (Elt F)),
    binary main_v91 main_v95 main_v96 (addf : (⟨S50000x128, .f32⟩ : BufTy).Contents (Elt F) → (⟨S50000x128, .f32⟩ : BufTy).Contents (Elt F) → (⟨S50000x128, .f32⟩ : BufTy).Contents (Elt F)),
    nullary main_cst_16 (constant S_ .f32 0x00000000#32),
    unary main_cst_16 main_v97 (broadcastInDim S50000x128 ![] bcast_S_S50000x128 : (⟨S_, .f32⟩ : BufTy).Contents (Elt F) → (⟨S50000x128, .f32⟩ : BufTy).Contents (Elt F)),
    binary main_v96 main_v97 main_v98 (cmpf .ogt : (⟨S50000x128, .f32⟩ : BufTy).Contents (Elt F) → (⟨S50000x128, .f32⟩ : BufTy).Contents (Elt F) → (⟨S50000x128, .i1⟩ : BufTy).Contents (Elt F)),
    nullary main_cst_17 (constant S_ .f32 0x3DCCCCCD#32),
    unary main_cst_17 main_v99 (broadcastInDim S50000x128 ![] bcast_S_S50000x128 : (⟨S_, .f32⟩ : BufTy).Contents (Elt F) → (⟨S50000x128, .f32⟩ : BufTy).Contents (Elt F)),
    binary main_v99 main_v96 main_v100 (mulf : (⟨S50000x128, .f32⟩ : BufTy).Contents (Elt F) → (⟨S50000x128, .f32⟩ : BufTy).Contents (Elt F) → (⟨S50000x128, .f32⟩ : BufTy).Contents (Elt F)),
    TRef.ternary (TRef.of (T := ⟨S50000x128, .i1⟩) main_v98) (TRef.of (T := ⟨S50000x128, .f32⟩) main_v96) (TRef.of (T := ⟨S50000x128, .f32⟩) main_v100) (TRef.of (T := ⟨S50000x128, .f32⟩) main_v101) select,
    unary main_arg2 main_v102 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v102 main_v103 rfl shapeCasts_S1x128x128_S128x128,
    unary main_arg3 main_v104 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v104 main_v105 rfl shapeCasts_S1x128x128_S128x128,
    unary main_arg4 main_v106 ((extractStridedSlice S1x128 ![2, 0] · slices_S3x128_S1x128_2_0) : (⟨S3x128, .f32⟩ : BufTy).Contents (Elt F) → (⟨S1x128, .f32⟩ : BufTy).Contents (Elt F)),
    reshape main_v106 main_v107 rfl shapeCasts_S1x128_S128,
    nullary main_c_18 (constantI S_ 32 0#32),
    unary main_c_18 main_v108 (broadcastInDim S800000 ![] bcast_S_S800000 : (⟨S_, .i32⟩ : BufTy).Contents (Elt F) → (⟨S800000, .i32⟩ : BufTy).Contents (Elt F)),
    binary main_v1 main_v108 main_v109 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v110 (broadcastInDim S800000 ![] bcast_S_S800000 : (⟨S_, .i32⟩ : BufTy).Contents (Elt F) → (⟨S800000, .i32⟩ : BufTy).Contents (Elt F)),
    binary main_v1 main_v110 main_v111 (addi : (⟨S800000, .i32⟩ : BufTy).Contents (Elt F) → (⟨S800000, .i32⟩ : BufTy).Contents (Elt F) → (⟨S800000, .i32⟩ : BufTy).Contents (Elt F)),
    ternary main_v109 main_v111 main_v1 main_v112 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v112 main_v113 (broadcastInDim S800000x1 ![0] bcast_S800000_S800000x1_0 : (⟨S800000, .i32⟩ : BufTy).Contents (Elt F) → (⟨S800000x1, .i32⟩ : BufTy).Contents (Elt F)),
    binary main_v101 main_v113 main_v114 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst_20 (constant S_ .f32 0x00000000#32),
    unary main_cst_20 main_v115 (broadcastInDim S50000x128 ![] bcast_S_S50000x128 : (⟨S_, .f32⟩ : BufTy).Contents (Elt F) → (⟨S50000x128, .f32⟩ : BufTy).Contents (Elt F)),
    unary main_v3 main_v116 (broadcastInDim S800000x1 ![0] bcast_S800000_S800000x1_0 : (⟨S800000, .i32⟩ : BufTy).Contents (Elt F) → (⟨S800000x1, .i32⟩ : BufTy).Contents (Elt F)),
    ternary main_v115 main_v116 main_v114 main_v117 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_21 (constant S_ .f32 0x3F800000#32),
    unary main_cst_21 main_v118 (broadcastInDim S800000 ![] bcast_S_S800000 : (⟨S_, .f32⟩ : BufTy).Contents (Elt F) → (⟨S800000, .f32⟩ : BufTy).Contents (Elt F)),
    nullary main_cst_22 (constant S_ .f32 0x00000000#32),
    unary main_cst_22 main_v119 (broadcastInDim S50000 ![] bcast_S_S50000 : (⟨S_, .f32⟩ : BufTy).Contents (Elt F) → (⟨S50000, .f32⟩ : BufTy).Contents (Elt F)),
    unary main_v3 main_v120 (broadcastInDim S800000x1 ![0] bcast_S800000_S800000x1_0 : (⟨S800000, .i32⟩ : BufTy).Contents (Elt F) → (⟨S800000x1, .i32⟩ : BufTy).Contents (Elt F)),
    ternary main_v119 main_v120 main_v118 main_v121 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_23 (constant S_ .f32 0x3F800000#32),
    unary main_cst_23 main_v122 (broadcastInDim S50000 ![] bcast_S_S50000 : (⟨S_, .f32⟩ : BufTy).Contents (Elt F) → (⟨S50000, .f32⟩ : BufTy).Contents (Elt F)),
    binary main_v121 main_v122 main_v123 (maximumf : (⟨S50000, .f32⟩ : BufTy).Contents (Elt F) → (⟨S50000, .f32⟩ : BufTy).Contents (Elt F) → (⟨S50000, .f32⟩ : BufTy).Contents (Elt F)),
    unary main_v123 main_v124 (broadcastInDim S50000x1 ![0] bcast_S50000_S50000x1_0 : (⟨S50000, .f32⟩ : BufTy).Contents (Elt F) → (⟨S50000x1, .f32⟩ : BufTy).Contents (Elt F)),
    unary main_v124 main_v125 (broadcastInDim S50000x128 ![0, 1] bcast_S50000x1_S50000x128_0_1 : (⟨S50000x1, .f32⟩ : BufTy).Contents (Elt F) → (⟨S50000x128, .f32⟩ : BufTy).Contents (Elt F)),
    binary main_v117 main_v125 main_v126 (Host.divf : (⟨S50000x128, .f32⟩ : BufTy).Contents (Elt F) → (⟨S50000x128, .f32⟩ : BufTy).Contents (Elt F) → (⟨S50000x128, .f32⟩ : BufTy).Contents (Elt F)),
    binary main_v126 main_v103 main_v127 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v101 main_v105 main_v128 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v127 main_v128 main_v129 (addf : (⟨S50000x128, .f32⟩ : BufTy).Contents (Elt F) → (⟨S50000x128, .f32⟩ : BufTy).Contents (Elt F) → (⟨S50000x128, .f32⟩ : BufTy).Contents (Elt F)),
    unary main_v107 main_v130 (broadcastInDim S1x128 ![1] bcast_S128_S1x128_1 : (⟨S128, .f32⟩ : BufTy).Contents (Elt F) → (⟨S1x128, .f32⟩ : BufTy).Contents (Elt F)),
    unary main_v130 main_v131 (broadcastInDim S50000x128 ![0, 1] bcast_S1x128_S50000x128_0_1 : (⟨S1x128, .f32⟩ : BufTy).Contents (Elt F) → (⟨S50000x128, .f32⟩ : BufTy).Contents (Elt F)),
    binary main_v129 main_v131 main_v132 (addf : (⟨S50000x128, .f32⟩ : BufTy).Contents (Elt F) → (⟨S50000x128, .f32⟩ : BufTy).Contents (Elt F) → (⟨S50000x128, .f32⟩ : BufTy).Contents (Elt F)),
    binary main_v132 main_arg7 main_v133 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg8 main_v134 (broadcastInDim S1x64 ![1] bcast_S64_S1x64_1 : (⟨S64, .f32⟩ : BufTy).Contents (Elt F) → (⟨S1x64, .f32⟩ : BufTy).Contents (Elt F)),
    unary main_v134 main_v135 (broadcastInDim S50000x64 ![0, 1] bcast_S1x64_S50000x64_0_1 : (⟨S1x64, .f32⟩ : BufTy).Contents (Elt F) → (⟨S50000x64, .f32⟩ : BufTy).Contents (Elt F)),
    binary main_v133 main_v135 main_v136 (addf : (⟨S50000x64, .f32⟩ : BufTy).Contents (Elt F) → (⟨S50000x64, .f32⟩ : BufTy).Contents (Elt F) → (⟨S50000x64, .f32⟩ : BufTy).Contents (Elt F)) ]

theorem ops_split : (ops : List (HloOp τ sig (Elt F))) = seg0 ++ (seg1 ++ (seg2 ++ (seg3 ++ (seg4 ++ seg5)))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., binary_bufs_sub .., unary_bufs_sub .., unary_bufs_sub .., binary_bufs_sub ..⟩

/-- Running one list of operations after another. -/
theorem after_append (A B : List (HloOp τ sig (Elt F))) (V : Valuation τ sig (Elt F)) :
    after (A ++ B) V = after B (after A V) := by
  induction A generalizing V with
  | nil => rfl
  | cons a A ih => exact ih _

/-! ## A segment does not write these buffers -/

theorem keepR0_arg2 (W : Valuation τ sig (Elt F)) : after (seg0 (F := F)) W (Proc.devRef .tc main_arg2) = W (Proc.devRef .tc main_arg2) :=
  after_of_forall_not_mem (b := Proc.devRef .tc main_arg2) _ _ (List.forall_iff_forall_mem.mp (by
    simp only [seg0, List.Forall, nullary_writes, unary_writes, binary_writes, ternary_writes, quaternary_writes, reshape_writes, binaryIndexed_writes, Finset.mem_singleton]
    repeat' apply And.intro
    all_goals exact devRef_ne_of_ne (by decide)))
theorem keepR0_arg3 (W : Valuation τ sig (Elt F)) : after (seg0 (F := F)) W (Proc.devRef .tc main_arg3) = W (Proc.devRef .tc main_arg3) :=
  after_of_forall_not_mem (b := Proc.devRef .tc main_arg3) _ _ (List.forall_iff_forall_mem.mp (by
    simp only [seg0, List.Forall, nullary_writes, unary_writes, binary_writes, ternary_writes, quaternary_writes, reshape_writes, binaryIndexed_writes, Finset.mem_singleton]
    repeat' apply And.intro
    all_goals exact devRef_ne_of_ne (by decide)))
theorem keepR0_arg4 (W : Valuation τ sig (Elt F)) : after (seg0 (F := F)) W (Proc.devRef .tc main_arg4) = W (Proc.devRef .tc main_arg4) :=
  after_of_forall_not_mem (b := Proc.devRef .tc main_arg4) _ _ (List.forall_iff_forall_mem.mp (by
    simp only [seg0, List.Forall, nullary_writes, unary_writes, binary_writes, ternary_writes, quaternary_writes, reshape_writes, binaryIndexed_writes, Finset.mem_singleton]
    repeat' apply And.intro
    all_goals exact devRef_ne_of_ne (by decide)))
theorem keepR0_arg5 (W : Valuation τ sig (Elt F)) : after (seg0 (F := F)) W (Proc.devRef .tc main_arg5) = W (Proc.devRef .tc main_arg5) :=
  after_of_forall_not_mem (b := Proc.devRef .tc main_arg5) _ _ (List.forall_iff_forall_mem.mp (by
    simp only [seg0, List.Forall, nullary_writes, unary_writes, binary_writes, ternary_writes, quaternary_writes, reshape_writes, binaryIndexed_writes, Finset.mem_singleton]
    repeat' apply And.intro
    all_goals exact devRef_ne_of_ne (by decide)))
theorem keepR0_arg6 (W : Valuation τ sig (Elt F)) : after (seg0 (F := F)) W (Proc.devRef .tc main_arg6) = W (Proc.devRef .tc main_arg6) :=
  after_of_forall_not_mem (b := Proc.devRef .tc main_arg6) _ _ (List.forall_iff_forall_mem.mp (by
    simp only [seg0, List.Forall, nullary_writes, unary_writes, binary_writes, ternary_writes, quaternary_writes, reshape_writes, binaryIndexed_writes, Finset.mem_singleton]
    repeat' apply And.intro
    all_goals exact devRef_ne_of_ne (by decide)))
theorem keepR0_arg7 (W : Valuation τ sig (Elt F)) : after (seg0 (F := F)) W (Proc.devRef .tc main_arg7) = W (Proc.devRef .tc main_arg7) :=
  after_of_forall_not_mem (b := Proc.devRef .tc main_arg7) _ _ (List.forall_iff_forall_mem.mp (by
    simp only [seg0, List.Forall, nullary_writes, unary_writes, binary_writes, ternary_writes, quaternary_writes, reshape_writes, binaryIndexed_writes, Finset.mem_singleton]
    repeat' apply And.intro
    all_goals exact devRef_ne_of_ne (by decide)))
theorem keepR0_arg8 (W : Valuation τ sig (Elt F)) : after (seg0 (F := F)) W (Proc.devRef .tc main_arg8) = W (Proc.devRef .tc main_arg8) :=
  after_of_forall_not_mem (b := Proc.devRef .tc main_arg8) _ _ (List.forall_iff_forall_mem.mp (by
    simp only [seg0, List.Forall, nullary_writes, unary_writes, binary_writes, ternary_writes, quaternary_writes, reshape_writes, binaryIndexed_writes, Finset.mem_singleton]
    repeat' apply And.intro
    all_goals exact devRef_ne_of_ne (by decide)))
theorem keepR1_arg2 (W : Valuation τ sig (Elt F)) : after (seg1 (F := F)) W (Proc.devRef .tc main_arg2) = W (Proc.devRef .tc main_arg2) :=
  after_of_forall_not_mem (b := Proc.devRef .tc main_arg2) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_arg3 (W : Valuation τ sig (Elt F)) : after (seg1 (F := F)) W (Proc.devRef .tc main_arg3) = W (Proc.devRef .tc main_arg3) :=
  after_of_forall_not_mem (b := Proc.devRef .tc main_arg3) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_arg4 (W : Valuation τ sig (Elt F)) : after (seg1 (F := F)) W (Proc.devRef .tc main_arg4) = W (Proc.devRef .tc main_arg4) :=
  after_of_forall_not_mem (b := Proc.devRef .tc main_arg4) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_arg5 (W : Valuation τ sig (Elt F)) : after (seg1 (F := F)) W (Proc.devRef .tc main_arg5) = W (Proc.devRef .tc main_arg5) :=
  after_of_forall_not_mem (b := Proc.devRef .tc main_arg5) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_arg6 (W : Valuation τ sig (Elt F)) : after (seg1 (F := F)) W (Proc.devRef .tc main_arg6) = W (Proc.devRef .tc main_arg6) :=
  after_of_forall_not_mem (b := Proc.devRef .tc main_arg6) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_arg7 (W : Valuation τ sig (Elt F)) : after (seg1 (F := F)) W (Proc.devRef .tc main_arg7) = W (Proc.devRef .tc main_arg7) :=
  after_of_forall_not_mem (b := Proc.devRef .tc main_arg7) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_arg8 (W : Valuation τ sig (Elt F)) : after (seg1 (F := F)) W (Proc.devRef .tc main_arg8) = W (Proc.devRef .tc main_arg8) :=
  after_of_forall_not_mem (b := Proc.devRef .tc main_arg8) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_v1 (W : Valuation τ sig (Elt F)) : after (seg1 (F := F)) W (Proc.devRef .tc main_v1) = W (Proc.devRef .tc main_v1) :=
  after_of_forall_not_mem (b := Proc.devRef .tc main_v1) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR1_v3 (W : Valuation τ sig (Elt F)) : after (seg1 (F := F)) W (Proc.devRef .tc main_v3) = W (Proc.devRef .tc main_v3) :=
  after_of_forall_not_mem (b := Proc.devRef .tc main_v3) _ _ (List.forall_iff_forall_mem.mp (by
    simp only [seg1, List.Forall, nullary_writes, unary_writes, binary_writes, ternary_writes, quaternary_writes, reshape_writes, binaryIndexed_writes, Finset.mem_singleton]
    repeat' apply And.intro
    all_goals exact devRef_ne_of_ne (by decide)))
theorem keepR2_arg2 (W : Valuation τ sig (Elt F)) : after (seg2 (F := F)) W (Proc.devRef .tc main_arg2) = W (Proc.devRef .tc main_arg2) :=
  after_of_forall_not_mem (b := Proc.devRef .tc main_arg2) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_arg3 (W : Valuation τ sig (Elt F)) : after (seg2 (F := F)) W (Proc.devRef .tc main_arg3) = W (Proc.devRef .tc main_arg3) :=
  after_of_forall_not_mem (b := Proc.devRef .tc main_arg3) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_arg4 (W : Valuation τ sig (Elt F)) : after (seg2 (F := F)) W (Proc.devRef .tc main_arg4) = W (Proc.devRef .tc main_arg4) :=
  after_of_forall_not_mem (b := Proc.devRef .tc main_arg4) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_arg5 (W : Valuation τ sig (Elt F)) : after (seg2 (F := F)) W (Proc.devRef .tc main_arg5) = W (Proc.devRef .tc main_arg5) :=
  after_of_forall_not_mem (b := Proc.devRef .tc main_arg5) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_arg6 (W : Valuation τ sig (Elt F)) : after (seg2 (F := F)) W (Proc.devRef .tc main_arg6) = W (Proc.devRef .tc main_arg6) :=
  after_of_forall_not_mem (b := Proc.devRef .tc main_arg6) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_arg7 (W : Valuation τ sig (Elt F)) : after (seg2 (F := F)) W (Proc.devRef .tc main_arg7) = W (Proc.devRef .tc main_arg7) :=
  after_of_forall_not_mem (b := Proc.devRef .tc main_arg7) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_arg8 (W : Valuation τ sig (Elt F)) : after (seg2 (F := F)) W (Proc.devRef .tc main_arg8) = W (Proc.devRef .tc main_arg8) :=
  after_of_forall_not_mem (b := Proc.devRef .tc main_arg8) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_v1 (W : Valuation τ sig (Elt F)) : after (seg2 (F := F)) W (Proc.devRef .tc main_v1) = W (Proc.devRef .tc main_v1) :=
  after_of_forall_not_mem (b := Proc.devRef .tc main_v1) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR2_v3 (W : Valuation τ sig (Elt F)) : after (seg2 (F := F)) W (Proc.devRef .tc main_v3) = W (Proc.devRef .tc main_v3) :=
  after_of_forall_not_mem (b := Proc.devRef .tc main_v3) _ _ (List.forall_iff_forall_mem.mp (by
    simp only [seg2, List.Forall, nullary_writes, unary_writes, binary_writes, ternary_writes, quaternary_writes, reshape_writes, binaryIndexed_writes, Finset.mem_singleton]
    repeat' apply And.intro
    all_goals exact devRef_ne_of_ne (by decide)))
theorem keepR3_arg2 (W : Valuation τ sig (Elt F)) : after (seg3 (F := F)) W (Proc.devRef .tc main_arg2) = W (Proc.devRef .tc main_arg2) :=
  after_of_forall_not_mem (b := Proc.devRef .tc main_arg2) _ _ (List.forall_iff_forall_mem.mp (by
    simp only [seg3, List.Forall, nullary_writes, unary_writes, binary_writes, ternary_writes, quaternary_writes, reshape_writes, binaryIndexed_writes, Finset.mem_singleton]
    repeat' apply And.intro
    all_goals exact devRef_ne_of_ne (by decide)))
theorem keepR3_arg3 (W : Valuation τ sig (Elt F)) : after (seg3 (F := F)) W (Proc.devRef .tc main_arg3) = W (Proc.devRef .tc main_arg3) :=
  after_of_forall_not_mem (b := Proc.devRef .tc main_arg3) _ _ (List.forall_iff_forall_mem.mp (by
    simp only [seg3, List.Forall, nullary_writes, unary_writes, binary_writes, ternary_writes, quaternary_writes, reshape_writes, binaryIndexed_writes, Finset.mem_singleton]
    repeat' apply And.intro
    all_goals exact devRef_ne_of_ne (by decide)))
theorem keepR3_arg4 (W : Valuation τ sig (Elt F)) : after (seg3 (F := F)) W (Proc.devRef .tc main_arg4) = W (Proc.devRef .tc main_arg4) :=
  after_of_forall_not_mem (b := Proc.devRef .tc main_arg4) _ _ (List.forall_iff_forall_mem.mp (by
    simp only [seg3, List.Forall, nullary_writes, unary_writes, binary_writes, ternary_writes, quaternary_writes, reshape_writes, binaryIndexed_writes, Finset.mem_singleton]
    repeat' apply And.intro
    all_goals exact devRef_ne_of_ne (by decide)))
theorem keepR3_arg7 (W : Valuation τ sig (Elt F)) : after (seg3 (F := F)) W (Proc.devRef .tc main_arg7) = W (Proc.devRef .tc main_arg7) :=
  after_of_forall_not_mem (b := Proc.devRef .tc main_arg7) _ _ (List.forall_iff_forall_mem.mp (by
    simp only [seg3, List.Forall, nullary_writes, unary_writes, binary_writes, ternary_writes, quaternary_writes, reshape_writes, binaryIndexed_writes, Finset.mem_singleton]
    repeat' apply And.intro
    all_goals exact devRef_ne_of_ne (by decide)))
theorem keepR3_arg8 (W : Valuation τ sig (Elt F)) : after (seg3 (F := F)) W (Proc.devRef .tc main_arg8) = W (Proc.devRef .tc main_arg8) :=
  after_of_forall_not_mem (b := Proc.devRef .tc main_arg8) _ _ (List.forall_iff_forall_mem.mp (by
    simp only [seg3, List.Forall, nullary_writes, unary_writes, binary_writes, ternary_writes, quaternary_writes, reshape_writes, binaryIndexed_writes, Finset.mem_singleton]
    repeat' apply And.intro
    all_goals exact devRef_ne_of_ne (by decide)))
theorem keepR3_v1 (W : Valuation τ sig (Elt F)) : after (seg3 (F := F)) W (Proc.devRef .tc main_v1) = W (Proc.devRef .tc main_v1) :=
  after_of_forall_not_mem (b := Proc.devRef .tc main_v1) _ _ (List.forall_iff_forall_mem.mp (by
    simp only [seg3, List.Forall, nullary_writes, unary_writes, binary_writes, ternary_writes, quaternary_writes, reshape_writes, binaryIndexed_writes, Finset.mem_singleton]
    repeat' apply And.intro
    all_goals exact devRef_ne_of_ne (by decide)))
theorem keepR3_v3 (W : Valuation τ sig (Elt F)) : after (seg3 (F := F)) W (Proc.devRef .tc main_v3) = W (Proc.devRef .tc main_v3) :=
  after_of_forall_not_mem (b := Proc.devRef .tc main_v3) _ _ (List.forall_iff_forall_mem.mp (by
    simp only [seg3, List.Forall, nullary_writes, unary_writes, binary_writes, ternary_writes, quaternary_writes, reshape_writes, binaryIndexed_writes, Finset.mem_singleton]
    repeat' apply And.intro
    all_goals exact devRef_ne_of_ne (by decide)))
theorem keepR4_arg7 (W : Valuation τ sig (Elt F)) : after (seg4 (F := F)) W (Proc.devRef .tc main_arg7) = W (Proc.devRef .tc main_arg7) :=
  after_of_forall_not_mem (b := Proc.devRef .tc main_arg7) _ _ (List.forall_iff_forall_mem.mp (by
    simp only [seg4, List.Forall, nullary_writes, unary_writes, binary_writes, ternary_writes, quaternary_writes, reshape_writes, binaryIndexed_writes, Finset.mem_singleton]
    repeat' apply And.intro
    all_goals exact devRef_ne_of_ne (by decide)))
theorem keepR4_arg8 (W : Valuation τ sig (Elt F)) : after (seg4 (F := F)) W (Proc.devRef .tc main_arg8) = W (Proc.devRef .tc main_arg8) :=
  after_of_forall_not_mem (b := Proc.devRef .tc main_arg8) _ _ (List.forall_iff_forall_mem.mp (by
    simp only [seg4, List.Forall, nullary_writes, unary_writes, binary_writes, ternary_writes, quaternary_writes, reshape_writes, binaryIndexed_writes, Finset.mem_singleton]
    repeat' apply And.intro
    all_goals exact devRef_ne_of_ne (by decide)))

theorem keepAll_arg0 (W : Valuation τ sig (Elt F)) : after (ops (F := F)) W (Proc.devRef .tc main_arg0) = W (Proc.devRef .tc main_arg0) :=
  after_of_forall_not_mem (b := Proc.devRef .tc main_arg0) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg1 (W : Valuation τ sig (Elt F)) : after (ops (F := F)) W (Proc.devRef .tc main_arg1) = W (Proc.devRef .tc main_arg1) :=
  after_of_forall_not_mem (b := Proc.devRef .tc main_arg1) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg2 (W : Valuation τ sig (Elt F)) : after (ops (F := F)) W (Proc.devRef .tc main_arg2) = W (Proc.devRef .tc main_arg2) :=
  after_of_forall_not_mem (b := Proc.devRef .tc main_arg2) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg3 (W : Valuation τ sig (Elt F)) : after (ops (F := F)) W (Proc.devRef .tc main_arg3) = W (Proc.devRef .tc main_arg3) :=
  after_of_forall_not_mem (b := Proc.devRef .tc main_arg3) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg4 (W : Valuation τ sig (Elt F)) : after (ops (F := F)) W (Proc.devRef .tc main_arg4) = W (Proc.devRef .tc main_arg4) :=
  after_of_forall_not_mem (b := Proc.devRef .tc main_arg4) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg5 (W : Valuation τ sig (Elt F)) : after (ops (F := F)) W (Proc.devRef .tc main_arg5) = W (Proc.devRef .tc main_arg5) :=
  after_of_forall_not_mem (b := Proc.devRef .tc main_arg5) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg6 (W : Valuation τ sig (Elt F)) : after (ops (F := F)) W (Proc.devRef .tc main_arg6) = W (Proc.devRef .tc main_arg6) :=
  after_of_forall_not_mem (b := Proc.devRef .tc main_arg6) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg7 (W : Valuation τ sig (Elt F)) : after (ops (F := F)) W (Proc.devRef .tc main_arg7) = W (Proc.devRef .tc main_arg7) :=
  after_of_forall_not_mem (b := Proc.devRef .tc main_arg7) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))
theorem keepAll_arg8 (W : Valuation τ sig (Elt F)) : after (ops (F := F)) W (Proc.devRef .tc main_arg8) = W (Proc.devRef .tc main_arg8) :=
  after_of_forall_not_mem (b := Proc.devRef .tc main_arg8) _ _ (List.forall_iff_forall_mem.mp (by
    simp only [ops, List.Forall, nullary_writes, unary_writes, binary_writes, ternary_writes, quaternary_writes, reshape_writes, binaryIndexed_writes, Finset.mem_singleton]
    repeat' apply And.intro
    all_goals exact devRef_ne_of_ne (by decide)))

/-! ## The buffer contents after each layer -/

variable (m : (ℓ : Loc nD τ sig) → Buf (Elt Ideal) ℓ) (c : Dev nD)

def Y0 : Valuation τ sig (Elt Ideal) := launchContents m c
def Y1 : Valuation τ sig (Elt Ideal) := after (seg0 (F := Ideal)) (Y0 m c)
def Y2 : Valuation τ sig (Elt Ideal) := after (seg1 (F := Ideal)) (Y1 m c)
def Y3 : Valuation τ sig (Elt Ideal) := after (seg2 (F := Ideal)) (Y2 m c)
def Y4 : Valuation τ sig (Elt Ideal) := after (seg3 (F := Ideal)) (Y3 m c)
def Y5 : Valuation τ sig (Elt Ideal) := after (seg4 (F := Ideal)) (Y4 m c)
def Y6 : Valuation τ sig (Elt Ideal) := after (seg5 (F := Ideal)) (Y5 m c)

theorem after_ops : after (ops (F := Ideal)) (launchContents m c) = Y6 m c := by
  rw [ops_split, after_append, after_append, after_append, after_append, after_append]
  rfl

theorem Y0_arg (b : Ref sig .tc) : Y0 m c (Proc.devRef .tc b) = m ((c.tc : Thread nD τ).loc b) := rfl

/-! ## The arguments and the edge-index vectors through the segments -/

theorem Y1_arg5 : Y1 m c (Proc.devRef .tc main_arg5) = (m ((c.tc : Thread nD τ).loc main_arg5)) := (keepR0_arg5 (Y0 m c))
theorem Y1_arg6 : Y1 m c (Proc.devRef .tc main_arg6) = (m ((c.tc : Thread nD τ).loc main_arg6)) := (keepR0_arg6 (Y0 m c))
theorem Y2_arg2 : Y2 m c (Proc.devRef .tc main_arg2) = (m ((c.tc : Thread nD τ).loc main_arg2)) := (keepR1_arg2 (Y1 m c)).trans ((keepR0_arg2 (Y0 m c)))
theorem Y2_arg3 : Y2 m c (Proc.devRef .tc main_arg3) = (m ((c.tc : Thread nD τ).loc main_arg3)) := (keepR1_arg3 (Y1 m c)).trans ((keepR0_arg3 (Y0 m c)))
theorem Y2_arg4 : Y2 m c (Proc.devRef .tc main_arg4) = (m ((c.tc : Thread nD τ).loc main_arg4)) := (keepR1_arg4 (Y1 m c)).trans ((keepR0_arg4 (Y0 m c)))
theorem Y2_v1 : Y2 m c (Proc.devRef .tc main_v1) = Y1 m c (Proc.devRef .tc main_v1) := (keepR1_v1 (Y1 m c))
theorem Y2_v3 : Y2 m c (Proc.devRef .tc main_v3) = Y1 m c (Proc.devRef .tc main_v3) := (keepR1_v3 (Y1 m c))
theorem Y3_arg5 : Y3 m c (Proc.devRef .tc main_arg5) = (m ((c.tc : Thread nD τ).loc main_arg5)) := (keepR2_arg5 (Y2 m c)).trans ((keepR1_arg5 (Y1 m c)).trans ((keepR0_arg5 (Y0 m c))))
theorem Y3_arg6 : Y3 m c (Proc.devRef .tc main_arg6) = (m ((c.tc : Thread nD τ).loc main_arg6)) := (keepR2_arg6 (Y2 m c)).trans ((keepR1_arg6 (Y1 m c)).trans ((keepR0_arg6 (Y0 m c))))
theorem Y4_arg2 : Y4 m c (Proc.devRef .tc main_arg2) = (m ((c.tc : Thread nD τ).loc main_arg2)) := (keepR3_arg2 (Y3 m c)).trans ((keepR2_arg2 (Y2 m c)).trans ((keepR1_arg2 (Y1 m c)).trans ((keepR0_arg2 (Y0 m c)))))
theorem Y4_arg3 : Y4 m c (Proc.devRef .tc main_arg3) = (m ((c.tc : Thread nD τ).loc main_arg3)) := (keepR3_arg3 (Y3 m c)).trans ((keepR2_arg3 (Y2 m c)).trans ((keepR1_arg3 (Y1 m c)).trans ((keepR0_arg3 (Y0 m c)))))
theorem Y4_arg4 : Y4 m c (Proc.devRef .tc main_arg4) = (m ((c.tc : Thread nD τ).loc main_arg4)) := (keepR3_arg4 (Y3 m c)).trans ((keepR2_arg4 (Y2 m c)).trans ((keepR1_arg4 (Y1 m c)).trans ((keepR0_arg4 (Y0 m c)))))
theorem Y4_v1 : Y4 m c (Proc.devRef .tc main_v1) = Y1 m c (Proc.devRef .tc main_v1) := (keepR3_v1 (Y3 m c)).trans ((keepR2_v1 (Y2 m c)).trans ((keepR1_v1 (Y1 m c))))
theorem Y4_v3 : Y4 m c (Proc.devRef .tc main_v3) = Y1 m c (Proc.devRef .tc main_v3) := (keepR3_v3 (Y3 m c)).trans ((keepR2_v3 (Y2 m c)).trans ((keepR1_v3 (Y1 m c))))
theorem Y5_arg7 : Y5 m c (Proc.devRef .tc main_arg7) = (m ((c.tc : Thread nD τ).loc main_arg7)) := (keepR4_arg7 (Y4 m c)).trans ((keepR3_arg7 (Y3 m c)).trans ((keepR2_arg7 (Y2 m c)).trans ((keepR1_arg7 (Y1 m c)).trans ((keepR0_arg7 (Y0 m c))))))
theorem Y5_arg8 : Y5 m c (Proc.devRef .tc main_arg8) = (m ((c.tc : Thread nD τ).loc main_arg8)) := (keepR4_arg8 (Y4 m c)).trans ((keepR3_arg8 (Y3 m c)).trans ((keepR2_arg8 (Y2 m c)).trans ((keepR1_arg8 (Y1 m c)).trans ((keepR0_arg8 (Y0 m c))))))

end Cert.SageNet.Ref

end
-- ==== Proof.RefRun.lean ====
/-
  The reference program's run, read back layer by layer.

  Every weakly fair execution of @main terminates with each buffer at the fold of the operations' results over the
  launch memory (RefRunOps.lean: the operations, cut after each of the six layers' outputs). A layer's segment reads only
  the previous layer's output, the two edge-index vectors computed in the first segment, and arguments, none of which a
  later segment writes; so, segment by segment, each layer's output buffer holds its stage function of the arguments
  (RefStages.lean), the last one the program's result, and the arguments end as launched.
-/
import proofs.«159729_j13743895347603_1_alg».proof.Proof.Gen.ReferenceIdeal
import proofs.«159729_j13743895347603_1_alg».proof.Proof.RefStages
import proofs.«159729_j13743895347603_1_alg».proof.Proof.RefRunOps
import Idealize.ShloMosaic.Lib.StableHlo.Run

noncomputable section

namespace Cert.SageNet.Ref

open Cert.ReferenceIdeal Cert.ReferenceIdeal.Gen Cert.SageNet.RefStage
open Idealize.ShloMosaic Idealize.ShloMosaic.TcCoe Idealize.SL.Sem Idealize.ShloMosaic.StableHlo

variable (m : (ℓ : Loc nD τ sig) → Buf (Elt Ideal) ℓ) (c : Dev nD)

/-! ## The rectifier's typed entries read and write their buffers as they are

The rectifier's last operation, a choice between two arrays on a mask, is stated at the arrays' types and moved to the
buffers' own types along the equality of the two; for these literal buffers the types coincide, so the move is the identity. -/

theorem toBuf_v39 (v : (⟨S50000x128, .f32⟩ : BufTy).Contents (Elt Ideal)) :
    (TRef.of (T := ⟨S50000x128, .f32⟩) main_v39).toBuf v = v := rfl
theorem ofBuf_v36 (v : main_v36.ty.Contents (Elt Ideal)) :
    (TRef.of (T := ⟨S50000x128, .i1⟩) main_v36).ofBuf v = v := rfl
theorem ofBuf_v34 (v : main_v34.ty.Contents (Elt Ideal)) :
    (TRef.of (T := ⟨S50000x128, .f32⟩) main_v34).ofBuf v = v := rfl
theorem ofBuf_v38 (v : main_v38.ty.Contents (Elt Ideal)) :
    (TRef.of (T := ⟨S50000x128, .f32⟩) main_v38).ofBuf v = v := rfl

theorem toBuf_v52 (v : (⟨S50000x128, .f32⟩ : BufTy).Contents (Elt Ideal)) :
    (TRef.of (T := ⟨S50000x128, .f32⟩) main_v52).toBuf v = v := rfl
theorem ofBuf_v49 (v : main_v49.ty.Contents (Elt Ideal)) :
    (TRef.of (T := ⟨S50000x128, .i1⟩) main_v49).ofBuf v = v := rfl
theorem ofBuf_v47 (v : main_v47.ty.Contents (Elt Ideal)) :
    (TRef.of (T := ⟨S50000x128, .f32⟩) main_v47).ofBuf v = v := rfl
theorem ofBuf_v51 (v : main_v51.ty.Contents (Elt Ideal)) :
    (TRef.of (T := ⟨S50000x128, .f32⟩) main_v51).ofBuf v = v := rfl

theorem toBuf_v88 (v : (⟨S50000x128, .f32⟩ : BufTy).Contents (Elt Ideal)) :
    (TRef.of (T := ⟨S50000x128, .f32⟩) main_v88).toBuf v = v := rfl
theorem ofBuf_v85 (v : main_v85.ty.Contents (Elt Ideal)) :
    (TRef.of (T := ⟨S50000x128, .i1⟩) main_v85).ofBuf v = v := rfl
theorem ofBuf_v83 (v : main_v83.ty.Contents (Elt Ideal)) :
    (TRef.of (T := ⟨S50000x128, .f32⟩) main_v83).ofBuf v = v := rfl
theorem ofBuf_v87 (v : main_v87.ty.Contents (Elt Ideal)) :
    (TRef.of (T := ⟨S50000x128, .f32⟩) main_v87).ofBuf v = v := rfl

theorem toBuf_v101 (v : (⟨S50000x128, .f32⟩ : BufTy).Contents (Elt Ideal)) :
    (TRef.of (T := ⟨S50000x128, .f32⟩) main_v101).toBuf v = v := rfl
theorem ofBuf_v98 (v : main_v98.ty.Contents (Elt Ideal)) :
    (TRef.of (T := ⟨S50000x128, .i1⟩) main_v98).ofBuf v = v := rfl
theorem ofBuf_v96 (v : main_v96.ty.Contents (Elt Ideal)) :
    (TRef.of (T := ⟨S50000x128, .f32⟩) main_v96).ofBuf v = v := rfl
theorem ofBuf_v100 (v : main_v100.ty.Contents (Elt Ideal)) :
    (TRef.of (T := ⟨S50000x128, .f32⟩) main_v100).ofBuf v = v := rfl

/-! ## Each layer's output buffer holds its stage -/

theorem Y1_v1 : Y1 m c (Proc.devRef .tc main_v1) = (val_main_v1 (F := Ideal) (m ((c.tc : Thread nD τ).loc main_arg1))) := by
  show after (seg0 (F := Ideal)) (Y0 m c) (Proc.devRef .tc main_v1) = _
  after_results_simp
  all_goals rfl
theorem Y1_v3 : Y1 m c (Proc.devRef .tc main_v3) = (val_main_v3 (F := Ideal) (m ((c.tc : Thread nD τ).loc main_arg1))) := by
  show after (seg0 (F := Ideal)) (Y0 m c) (Proc.devRef .tc main_v3) = _
  after_results_simp
  all_goals rfl
theorem S0 : Y1 m c (Proc.devRef .tc main_v39) = (val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := by
  show after (seg0 (F := Ideal)) (Y0 m c) (Proc.devRef .tc main_v39) = _
  after_results_simp
  rw [toBuf_v39, ofBuf_v36, ofBuf_v34, ofBuf_v38]
  rfl
theorem S1 : Y2 m c (Proc.devRef .tc main_v52) = (val_main_v52 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show after (seg1 (F := Ideal)) (Y1 m c) (Proc.devRef .tc main_v52) = _
  after_results_simp
  rw [S0 m c, Y1_arg5 m c, Y1_arg6 m c]
  rw [toBuf_v52, ofBuf_v49, ofBuf_v47, ofBuf_v51]
  rfl
theorem S2 : Y3 m c (Proc.devRef .tc main_v88) = (val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show after (seg2 (F := Ideal)) (Y2 m c) (Proc.devRef .tc main_v88) = _
  after_results_simp
  rw [S1 m c, Y2_v1 m c, Y2_v3 m c, Y1_v1 m c, Y1_v3 m c, Y2_arg2 m c, Y2_arg3 m c, Y2_arg4 m c]
  rw [toBuf_v88, ofBuf_v85, ofBuf_v83, ofBuf_v87]
  rfl
theorem S3 : Y4 m c (Proc.devRef .tc main_v101) = (val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show after (seg3 (F := Ideal)) (Y3 m c) (Proc.devRef .tc main_v101) = _
  after_results_simp
  rw [S2 m c, Y3_arg5 m c, Y3_arg6 m c]
  rw [toBuf_v101, ofBuf_v98, ofBuf_v96, ofBuf_v100]
  rfl
theorem S4 : Y5 m c (Proc.devRef .tc main_v132) = (val_main_v132 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  show after (seg4 (F := Ideal)) (Y4 m c) (Proc.devRef .tc main_v132) = _
  after_results_simp
  rw [S3 m c, Y4_v1 m c, Y4_v3 m c, Y1_v1 m c, Y1_v3 m c, Y4_arg2 m c, Y4_arg3 m c, Y4_arg4 m c]
  all_goals rfl
theorem S5 : Y6 m c (Proc.devRef .tc main_v136) = (val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) := by
  show after (seg5 (F := Ideal)) (Y5 m c) (Proc.devRef .tc main_v136) = _
  after_results_simp
  rw [S4 m c, Y5_arg7 m c, Y5_arg8 m c]
  all_goals rfl

/-- The run: the result buffer ends at the last stage of the arguments, the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v136) = (val_main_v136 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v136).trans ((congrFun (after_ops m c) _).trans (S5 m c)),
      (h c main_arg0).trans (keepAll_arg0 _),
      (h c main_arg1).trans (keepAll_arg1 _),
      (h c main_arg2).trans (keepAll_arg2 _),
      (h c main_arg3).trans (keepAll_arg3 _),
      (h c main_arg4).trans (keepAll_arg4 _),
      (h c main_arg5).trans (keepAll_arg5 _),
      (h c main_arg6).trans (keepAll_arg6 _),
      (h c main_arg7).trans (keepAll_arg7 _),
      (h c main_arg8).trans (keepAll_arg8 _)⟩)
    (run_seq scopedRefs_eq scopedSems_eq defs main (fun _ => ops) main_eq (fun _ => ops_sub) m ρ)

end Cert.SageNet.Ref

end
-- ==== Proof.lean ====
/-
  A three-round graph network on 50000 nodes and 800000 edges: each round is a mean-aggregation layer — the rows of a
  node's in-neighbours are summed (a gather by the source index and a scatter-add by the destination index on the
  host), divided by max(in-degree, 1), contracted with the neighbour weights, added to the node's own row contracted
  with the root weights and to the bias — followed by a dense layer, with a leaky rectifier after every layer but the
  last two. The kernel computes the six layers in six pipelined regions of ten row blocks each, contracting on the
  matrix unit in a narrower float format; the reference computes them with host contractions.

  At the ideal values a change of float format is the identity and a contraction from the zero accumulator is the plain
  sum, so each region's output array is the layer of the arrays it finds (the body read at an index, the ten blocks
  tiling the array), and the same layer is what the reference's host operations compute. The aggregation, the counts and
  the slices of the stacked weights are the same host operations of the same arguments in both programs. So both
  results are ONE expression of the arguments, and no algebraic law — hence no finiteness — is used.

  The three frames: the kernel's two are the generated frames; the reference's is its run, read back layer by layer,
  with the result dropped. Nothing was rewritten in idealizing the kernel, so that conjunct is trivial.
-/
import proofs.«159729_j13743895347603_1_alg».proof.Defs
import proofs.«159729_j13743895347603_1_alg».proof.Proof.Gen.Kernel
import proofs.«159729_j13743895347603_1_alg».proof.Proof.Gen.Kernel.Frame
import proofs.«159729_j13743895347603_1_alg».proof.Proof.Gen.KernelIdeal
import proofs.«159729_j13743895347603_1_alg».proof.Proof.Gen.KernelIdeal.Frame
import proofs.«159729_j13743895347603_1_alg».proof.Proof.Gen.ReferenceIdeal
import proofs.«159729_j13743895347603_1_alg».proof.Proof.Gen.Pre_finite_inputs
import proofs.«159729_j13743895347603_1_alg».proof.Proof.KernelRun
import proofs.«159729_j13743895347603_1_alg».proof.Proof.KernelNet
import proofs.«159729_j13743895347603_1_alg».proof.Proof.RefNet
import proofs.«159729_j13743895347603_1_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.SageNet.Ref.run m ρ)

theorem preserves : Cert.preserves_Kernel_KernelIdeal := trivial

/-- Both runs end with the result buffer at the network of the arguments, which agree. -/
theorem algebraic : Cert.algebraic_KernelIdeal_ReferenceIdeal := by
  intro m ρ m' ρ' _ hagree
  refine ⟨_, (θ_run Cert.KernelIdeal.defs _ _).mono
    (fun r h c => ⟨(h c).1.trans (Cert.SageNet.K.result m ρ c), (h c).2⟩) (Cert.SageNet.K.run_result m ρ), ?_⟩
  refine (θ_run Cert.ReferenceIdeal.defs _ _).mono (fun r h c => ⟨(h c).1.trans ?_, (h c).2⟩)
    (Cert.SageNet.Ref.run m' ρ')
  obtain ⟨e0, e1, e2, e3, e4, e5, e6, e7, e8⟩ := hagree c
  rw [e0, e1, e2, e3, e4, e5, e6, e7, e8]
  exact Cert.SageNet.Ref.result_eq Cert.KernelIdeal.Facts₀.shapeCasts_S50000_S50000x1 Cert.KernelIdeal.Facts₀.shapeCasts_S128_S1x128
    Cert.KernelIdeal.Facts₀.shapeCasts_S64_S1x64 _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
